-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S192x192 : Shape := ⟨2, ![192, 192]⟩
abbrev S192 : Shape := ⟨1, ![192]⟩
abbrev S192x2 : Shape := ⟨2, ![192, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S192x2 : S_.BroadcastsInDim S192x2 (![] : Fin 0 → Fin S192x2.rank)
  reducesTo_S192x2_S_d0_1 : S192x2.ReducesTo [0, 1] S_
  bcast_S_S2 : S_.BroadcastsInDim S2 (![] : Fin 0 → Fin S2.rank)
  reducesTo_S2_S_d0 : S2.ReducesTo [0] S_

variable [Facts]

def fn_part8 {F : FTy → Type} [FloatOps F] (main_arg30 : FVec F S2 .f32) (main_v133 : IVec S_ 1) (main_v136 : IVec S192x2 1) : IVec S_ 1 :=
  let main_c_53 : IVec S_ 1 := constantI S_ 1 1#1
  let main_v137 : IVec S_ 1 := (fun x v => Host.reduce IntOp.andi x v reducesTo_S192x2_S_d0_1 h_S_) main_v136 main_c_53
  let main_v138 : IVec S_ 1 := andi main_v133 main_v137
  let main_v139 : FVec F S2 .f32 := Host.absf main_arg30
  let main_cst_54 : FVec F S_ .f32 := constant S_ .f32 0x7F800000#32
  let main_v140 : FVec F S2 .f32 := broadcastInDim S2 ![] bcast_S_S2 main_cst_54
  let main_v141 : IVec S2 1 := cmpf .olt main_v139 main_v140
  let main_c_55 : IVec S_ 1 := constantI S_ 1 1#1
  let main_v142 : IVec S_ 1 := (fun x v => Host.reduce IntOp.andi x v reducesTo_S2_S_d0 h_S_) main_v141 main_c_55
  let main_v143 : IVec S_ 1 := andi main_v138 main_v142
  main_v143

def fn_part7 {F : FTy → Type} [FloatOps F] (main_arg27 : FVec F S192x192 .f32) (main_arg28 : FVec F S192 .f32) (main_arg29 : FVec F S192x2 .f32) (main_arg30 : FVec F S2 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S192x192 .f32 := Host.absf main_arg27
  let main_cst_48 : FVec F S_ .f32 := constant S_ .f32 0x7F800000#32
  let main_v125 : FVec F S192x192 .f32 := broadcastInDim S192x192 ![] bcast_S_S192x192 main_cst_48
  let main_v126 : IVec S192x192 1 := cmpf .olt main_v124 main_v125
  let main_c_49 : IVec S_ 1 := constantI S_ 1 1#1
  let main_v127 : IVec S_ 1 := (fun x v => Host.reduce IntOp.andi x v reducesTo_S192x192_S_d0_1 h_S_) main_v126 main_c_49
  let main_v128 : IVec S_ 1 := andi main_v123 main_v127
  let main_v129 : FVec F S192 .f32 := Host.absf main_arg28
  let main_cst_50 : FVec F S_ .f32 := constant S_ .f32 0x7F800000#32
  let main_v130 : FVec F S192 .f32 := broadcastInDim S192 ![] bcast_S_S192 main_cst_50
  let main_v131 : IVec S192 1 := cmpf .olt main_v129 main_v130
  let main_c_51 : IVec S_ 1 := constantI S_ 1 1#1
  let main_v132 : IVec S_ 1 := (fun x v => Host.reduce IntOp.andi x v reducesTo_S192_S_d0 h_S_) main_v131 main_c_51
  let main_v133 : IVec S_ 1 := andi main_v128 main_v132
  let main_v134 : FVec F S192x2 .f32 := Host.absf main_arg29
  let main_cst_52 : FVec F S_ .f32 := constant S_ .f32 0x7F800000#32
  let main_v135 : FVec F S192x2 .f32 := broadcastInDim S192x2 ![] bcast_S_S192x2 main_cst_52
  let main_v136 : IVec S192x2 1 := cmpf .olt main_v134 main_v135
  fn_part8 (F := F) main_arg30 main_v133 main_v136

def fn_part6 {F : FTy → Type} [FloatOps F] (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x2 .f32) (main_arg30 : FVec F S2 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x64 .f32 := Host.absf main_arg25
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg26
  fn_part7 (F := F) main_arg27 main_arg28 main_arg29 main_arg30 main_v118 main_v119

def fn_part5 {F : FTy → Type} [FloatOps F] (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x2 .f32) (main_arg30 : FVec F S2 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_arg27 main_arg28 main_arg29 main_arg30 main_v98 main_v101 main_c_39

def fn_part4 {F : FTy → Type} [FloatOps F] (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x2 .f32) (main_arg30 : FVec F S2 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_v83 main_v84 main_cst_32

def fn_part3 {F : FTy → Type} [FloatOps F] (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x2 .f32) (main_arg30 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x2 .f32) (main_arg30 : FVec F S2 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x2 .f32) (main_arg30 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S100000x64 .f32) (main_arg1 : IVec S2x1200000 32) (main_arg2 : IVec S100000 32) (main_arg3 : FVec F S64x64 .f32) (main_arg4 : FVec F S64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x2 .f32) (main_arg30 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S192x192 : Shape := ⟨2, ![192, 192]⟩
abbrev S192 : Shape := ⟨1, ![192]⟩
abbrev S192x2 : Shape := ⟨2, ![192, 2]⟩
abbrev S2 : Shape := ⟨1, ![2]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S5000x64 : Shape := ⟨2, ![5000, 64]⟩
abbrev S1x64 : Shape := ⟨2, ![1, 64]⟩
abbrev S512x64 : Shape := ⟨2, ![512, 64]⟩
abbrev S100000x1 : Shape := ⟨2, ![100000, 1]⟩
abbrev S512x2 : Shape := ⟨2, ![512, 2]⟩
abbrev S64x192 : Shape := ⟨2, ![64, 192]⟩
abbrev S512x192 : Shape := ⟨2, ![512, 192]⟩
abbrev S1x192 : Shape := ⟨2, ![1, 192]⟩
abbrev S1x2 : Shape := ⟨2, ![1, 2]⟩
abbrev S512 : Shape := ⟨1, ![512]⟩
abbrev S512x1 : Shape := ⟨2, ![512, 1]⟩

abbrev nBuf : Space → Nat
  | .hbm => 91
  | .vmem => 51
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64x64, .f32⟩
  | .hbm, ⟨26, _⟩ => ⟨S64, .f32⟩
  | .hbm, ⟨27, _⟩ => ⟨S192x192, .f32⟩
  | .hbm, ⟨28, _⟩ => ⟨S192, .f32⟩
  | .hbm, ⟨29, _⟩ => ⟨S192x2, .f32⟩
  | .hbm, ⟨30, _⟩ => ⟨S2, .f32⟩
  | .hbm, ⟨31, _⟩ => ⟨S1x1200000, .i32⟩
  | .hbm, ⟨32, _⟩ => ⟨S1200000, .i32⟩
  | .hbm, ⟨33, _⟩ => ⟨S1x1200000, .i32⟩
  | .hbm, ⟨34, _⟩ => ⟨S1200000, .i32⟩
  | .hbm, ⟨35, _⟩ => ⟨S_, .i32⟩
  | .hbm, ⟨36, _⟩ => ⟨S1200000, .i32⟩
  | .hbm, ⟨37, _⟩ => ⟨S1200000, .i1⟩
  | .hbm, ⟨38, _⟩ => ⟨S_, .i32⟩
  | .hbm, ⟨39, _⟩ => ⟨S1200000, .i32⟩
  | .hbm, ⟨40, _⟩ => ⟨S1200000, .i32⟩
  | .hbm, ⟨41, _⟩ => ⟨S1200000, .i32⟩
  | .hbm, ⟨42, _⟩ => ⟨S1200000x1, .i32⟩
  | .hbm, ⟨43, _⟩ => ⟨S1200000x64, .f32⟩
  | .hbm, ⟨44, _⟩ => ⟨S_, .f32⟩
  | .hbm, ⟨45, _⟩ => ⟨S100000x64, .f32⟩
  | .hbm, ⟨46, _⟩ => ⟨S1200000x1, .i32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1200000, .i32⟩
  | .hbm, ⟨51, _⟩ => ⟨S1200000, .i1⟩
  | .hbm, ⟨52, _⟩ => ⟨S_, .i32⟩
  | .hbm, ⟨53, _⟩ => ⟨S1200000, .i32⟩
  | .hbm, ⟨54, _⟩ => ⟨S1200000, .i32⟩
  | .hbm, ⟨55, _⟩ => ⟨S1200000, .i32⟩
  | .hbm, ⟨56, _⟩ => ⟨S1200000x1, .i32⟩
  | .hbm, ⟨57, _⟩ => ⟨S1200000x64, .f32⟩
  | .hbm, ⟨58, _⟩ => ⟨S_, .f32⟩
  | .hbm, ⟨59, _⟩ => ⟨S100000x64, .f32⟩
  | .hbm, ⟨60, _⟩ => ⟨S1200000x1, .i32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1200000, .i32⟩
  | .hbm, ⟨65, _⟩ => ⟨S1200000, .i1⟩
  | .hbm, ⟨66, _⟩ => ⟨S_, .i32⟩
  | .hbm, ⟨67, _⟩ => ⟨S1200000, .i32⟩
  | .hbm, ⟨68, _⟩ => ⟨S1200000, .i32⟩
  | .hbm, ⟨69, _⟩ => ⟨S1200000, .i32⟩
  | .hbm, ⟨70, _⟩ => ⟨S1200000x1, .i32⟩
  | .hbm, ⟨71, _⟩ => ⟨S1200000x64, .f32⟩
  | .hbm, ⟨72, _⟩ => ⟨S_, .f32⟩
  | .hbm, ⟨73, _⟩ => ⟨S100000x64, .f32⟩
  | .hbm, ⟨74, _⟩ => ⟨S1200000x1, .i32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S512x64, .f32⟩
  | .hbm, ⟨79, _⟩ => ⟨S100000x1, .i32⟩
  | .hbm, ⟨80, _⟩ => ⟨S512x64, .f32⟩
  | .hbm, ⟨81, _⟩ => ⟨S_, .f32⟩
  | .hbm, ⟨82, _⟩ => ⟨S512x64, .f32⟩
  | .hbm, ⟨83, _⟩ => ⟨S100000x1, .i32⟩
  | .hbm, ⟨84, _⟩ => ⟨S512x64, .f32⟩
  | .hbm, ⟨85, _⟩ => ⟨S_, .f32⟩
  | .hbm, ⟨86, _⟩ => ⟨S512x64, .f32⟩
  | .hbm, ⟨87, _⟩ => ⟨S100000x1, .i32⟩
  | .hbm, ⟨88, _⟩ => ⟨S512x64, .f32⟩
  | .hbm, ⟨89, _⟩ => ⟨S512x2, .f32⟩
  | .hbm, ⟨90, _⟩ => ⟨S512x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64, .f32⟩
  | .local _ .vmem, ⟨20, _⟩ => ⟨S64, .f32⟩
  | .local _ .vmem, ⟨21, _⟩ => ⟨S64, .f32⟩
  | .local _ .vmem, ⟨22, _⟩ => ⟨S64, .f32⟩
  | .local _ .vmem, ⟨23, _⟩ => ⟨S64, .f32⟩
  | .local _ .vmem, ⟨24, _⟩ => ⟨S64x64, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S64, .f32⟩
  | .local _ .vmem, ⟨34, _⟩ => ⟨S64, .f32⟩
  | .local _ .vmem, ⟨35, _⟩ => ⟨S64, .f32⟩
  | .local _ .vmem, ⟨36, _⟩ => ⟨S64, .f32⟩
  | .local _ .vmem, ⟨37, _⟩ => ⟨S64, .f32⟩
  | .local _ .vmem, ⟨38, _⟩ => ⟨S64x64, .f32⟩
  | .local _ .vmem, ⟨39, _⟩ => ⟨S64, .f32⟩
  | .local _ .vmem, ⟨40, _⟩ => ⟨S5000x64, .f32⟩
  | .local _ .vmem, ⟨41, _⟩ => ⟨S5000x64, .f32⟩
  | .local _ .vmem, ⟨42, _⟩ => ⟨S512x64, .f32⟩
  | .local _ .vmem, ⟨43, _⟩ => ⟨S512x64, .f32⟩
  | .local _ .vmem, ⟨44, _⟩ => ⟨S512x64, .f32⟩
  | .local _ .vmem, ⟨45, _⟩ => ⟨S192x192, .f32⟩
  | .local _ .vmem, ⟨46, _⟩ => ⟨S192, .f32⟩
  | .local _ .vmem, ⟨47, _⟩ => ⟨S192x2, .f32⟩
  | .local _ .vmem, ⟨48, _⟩ => ⟨S2, .f32⟩
  | .local _ .vmem, ⟨49, _⟩ => ⟨S512x2, .f32⟩
  | .local _ .vmem, ⟨50, _⟩ => ⟨S512x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_c_1 : Ref sig .tc := ⟨.hbm, 49, rfl⟩
abbrev main_v15 : Ref sig .tc := ⟨.hbm, 50, rfl⟩
abbrev main_v16 : Ref sig .tc := ⟨.hbm, 51, rfl⟩
abbrev main_c_2 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_3 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_4 : Ref sig .tc := ⟨.hbm, 63, rfl⟩
abbrev main_v26 : Ref sig .tc := ⟨.hbm, 64, rfl⟩
abbrev main_v27 : Ref sig .tc := ⟨.hbm, 65, rfl⟩
abbrev main_c_5 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_6 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_7 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_8 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_9 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46_0 : Ref sig .tc := ⟨.hbm, 89, rfl⟩
abbrev main_v46_1 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem1_0 : DmaSem sig := 43
abbrev cc3_sem2_0 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S512x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S192x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S192x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S512x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S512x64 : S_.BroadcastsInDim S512x64 (![] : Fin 0 → Fin S512x64.rank)
  bcast_S100000_S100000x1_0 : S100000.BroadcastsInDim S100000x1 (![0] : Fin 1 → Fin S100000x1.rank)
  inb_S192x192_S64x192_0_0 : ∀ a, (![0, 0] : Fin 2 → Nat) a + S64x192.size a ≤ S192x192.size a
  h_S64x192 : 0 < S64x192.numel
  inb_S192x192_S64x192_64_0 : ∀ a, (![64, 0] : Fin 2 → Nat) a + S64x192.size a ≤ S192x192.size a
  inb_S192x192_S64x192_128_0 : ∀ a, (![128, 0] : Fin 2 → Nat) a + S64x192.size a ≤ S192x192.size a
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S192_S192_0 : ∀ a, (![0] : Fin 1 → Nat) a + S192.size a ≤ S192.size a
  h_S192 : 0 < S192.numel
  shapeCasts_S192_S1x192 : S192.ShapeCasts S1x192
  broadcasts_S1x192_S512x192 : S1x192.Broadcasts S512x192
  inb_S192x2_S192x2_0_0 : ∀ a, (![0, 0] : Fin 2 → Nat) a + S192x2.size a ≤ S192x2.size a
  h_S192x2 : 0 < S192x2.numel
  inb_S2_S2_0 : ∀ a, (![0] : Fin 1 → Nat) a + S2.size a ≤ S2.size a
  h_S2 : 0 < S2.numel
  shapeCasts_S2_S1x2 : S2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  reduces_S512x2_S512 : S512x2.Reduces [1] S512
  shapeCasts_S512_S512x1 : S512.ShapeCasts S512x1
  broadcasts_S512x1_S512x2 : S512x1.Broadcasts S512x2
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  scatter_S512x64_S100000x1_S100000x64_1_0_0_1_wf : ScatterDims.WF S512x64 S100000x1 S100000x64 [1] [0] [0] 1
  dot_S512x64_S64x192_S512x192_1_0_0_1_n_n_wf : DotDims.WF S512x64 S64x192 S512x192 [1] [0] [0] [1] [] []
  dot_S512x192_S192x2_S512x2_1_0_0_1_n_n_wf : DotDims.WF S512x192 S192x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S100000x64.size a
  hwx0_10 : ∀ i : grid0.Coords, EltTy.bits .f32 = 32 ∨ (Rect.block (s := S100000x64) S5000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S100000x64.size a
  hwx1_10 : ∀ i : grid1.Coords, EltTy.bits .f32 = 32 ∨ (Rect.block (s := S100000x64) S5000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64.size a ≤ S64.size a
  hwx2_9 : ∀ i : grid2.Coords, EltTy.bits .f32 = 32 ∨ (Rect.block (s := S64) S64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x64.size a ≤ S100000x64.size a
  hwx2_10 : ∀ i : grid2.Coords, EltTy.bits .f32 = 32 ∨ (Rect.block (s := S100000x64) S5000x64.size (cc2_transform_10 i) (hinb2_10 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x64.size a ≤ S512x64.size a
  hwx3_1 : ∀ i : grid3.Coords, EltTy.bits .f32 = 32 ∨ (Rect.block (s := S512x64) S512x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x64.size a ≤ S512x64.size a
  hwx3_2 : ∀ i : grid3.Coords, EltTy.bits .f32 = 32 ∨ (Rect.block (s := S512x64) S512x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S192x192.size a ≤ S192x192.size a
  hwx3_3 : ∀ i : grid3.Coords, EltTy.bits .f32 = 32 ∨ (Rect.block (s := S192x192) S192x192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S192.size a ≤ S192.size a
  hwx3_4 : ∀ i : grid3.Coords, EltTy.bits .f32 = 32 ∨ (Rect.block (s := S192) S192.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S192x2.size a ≤ S192x2.size a
  hwx3_5 : ∀ i : grid3.Coords, EltTy.bits .f32 = 32 ∨ (Rect.block (s := S192x2) S192x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S2.size a ≤ S2.size a
  hwx3_6 : ∀ i : grid3.Coords, EltTy.bits .f32 = 32 ∨ (Rect.block (s := S2) S2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x2.size a ≤ S512x2.size a
  hwx3_7 : ∀ i : grid3.Coords, EltTy.bits .f32 = 32 ∨ (Rect.block (s := S512x2) S512x2.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S512x2.size a ≤ S512x2.size a
  hwx3_8 : ∀ i : grid3.Coords, EltTy.bits .f32 = 32 ∨ (Rect.block (s := S512x2) S512x2.size (cc3_transform_8 i) (hinb3_8 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x192_S512x192_1_0_0_1_n_n : DotDims S512x64 S64x192 S512x192 where
  lhsContracting := [1]
  rhsContracting := [0]
  lhsNonContracting := [0]
  rhsNonContracting := [1]
  lhsBatch := []
  rhsBatch := []
  wf := dot_S512x64_S64x192_S512x192_1_0_0_1_n_n_wf
def dot_S512x192_S192x2_S512x2_1_0_0_1_n_n : DotDims S512x192 S192x2 S512x2 where
  lhsContracting := [1]
  rhsContracting := [0]
  lhsNonContracting := [0]
  rhsNonContracting := [1]
  lhsBatch := []
  rhsBatch := []
  wf := dot_S512x192_S192x2_S512x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v25) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg19) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg20) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg21) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg22) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg23) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg24) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg25) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg26) S64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v36) S5000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v39) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v42) S512x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S512x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg27) S192x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg28) S192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg29) S192x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg30) S2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v46_0) S512x2.size cc3_transform_7 reads3_7 true true 1 stage3_7 sem3_7
    hrank3 hreads3_7 hinb3_7 nbuf3_7 (Memref.isWhole_whole _) hwx3_7 hstage3_7

abbrev win3_8 : Pipeline.Window sig grid3 :=
  Pipeline.Window.ofSpec (Memref.whole main_v46_1) S512x2.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S192x192 : Shape := ⟨2, ![192, 192]⟩
abbrev S192 : Shape := ⟨1, ![192]⟩
abbrev S192x2 : Shape := ⟨2, ![192, 2]⟩
abbrev S2 : Shape := ⟨1, ![2]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S512x64 : Shape := ⟨2, ![512, 64]⟩
abbrev S100000x1 : Shape := ⟨2, ![100000, 1]⟩
abbrev S512x192 : Shape := ⟨2, ![512, 192]⟩
abbrev S1x192 : Shape := ⟨2, ![1, 192]⟩
abbrev S512x2 : Shape := ⟨2, ![512, 2]⟩
abbrev S1x2 : Shape := ⟨2, ![1, 2]⟩
abbrev S512 : Shape := ⟨1, ![512]⟩
abbrev S512x1 : Shape := ⟨2, ![512, 1]⟩

abbrev nBuf : Space → Nat
  | .hbm => 205
  | .vmem => 0
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S64x64, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64, .f32⟩
  | 22 => ⟨S64, .f32⟩
  | 23 => ⟨S64, .f32⟩
  | 24 => ⟨S64, .f32⟩
  | 25 => ⟨S64x64, .f32⟩
  | 26 => ⟨S64, .f32⟩
  | 27 => ⟨S192x192, .f32⟩
  | 28 => ⟨S192, .f32⟩
  | 29 => ⟨S192x2, .f32⟩
  | 30 => ⟨S2, .f32⟩
  | 31 => ⟨S1x1200000, .i32⟩
  | 32 => ⟨S1200000, .i32⟩
  | 33 => ⟨S1x1200000, .i32⟩
  | 34 => ⟨S1200000, .i32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000x64, .f32⟩
  | 44 => ⟨S_, .f32⟩
  | 45 => ⟨S100000x64, .f32⟩
  | 46 => ⟨S1200000x1, .i32⟩
  | 47 => ⟨S100000x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S_, .f32⟩
  | 57 => ⟨S64, .f32⟩
  | 58 => ⟨S64, .f32⟩
  | 59 => ⟨S64, .f32⟩
  | 60 => ⟨S1x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .i32⟩
  | 80 => ⟨S1200000, .i32⟩
  | 81 => ⟨S1200000, .i1⟩
  | 82 => ⟨S_, .i32⟩
  | 83 => ⟨S1200000, .i32⟩
  | 84 => ⟨S1200000, .i32⟩
  | 85 => ⟨S1200000, .i32⟩
  | 86 => ⟨S1200000x1, .i32⟩
  | 87 => ⟨S1200000x64, .f32⟩
  | 88 => ⟨S_, .f32⟩
  | 89 => ⟨S100000x64, .f32⟩
  | 90 => ⟨S1200000x1, .i32⟩
  | 91 => ⟨S100000x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S64, .f32⟩
  | 102 => ⟨S64, .f32⟩
  | 103 => ⟨S64, .f32⟩
  | 104 => ⟨S1x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S_, .i32⟩
  | 124 => ⟨S1200000, .i32⟩
  | 125 => ⟨S1200000, .i1⟩
  | 126 => ⟨S_, .i32⟩
  | 127 => ⟨S1200000, .i32⟩
  | _ => ⟨S100000x64, .f32⟩

abbrev hbmTy0_1 (i : Nat) : BufTy := match i % 128 with
  | 0 => ⟨S1200000, .i32⟩
  | 1 => ⟨S1200000, .i32⟩
  | 2 => ⟨S1200000x1, .i32⟩
  | 3 => ⟨S1200000x64, .f32⟩
  | 4 => ⟨S_, .f32⟩
  | 5 => ⟨S100000x64, .f32⟩
  | 6 => ⟨S1200000x1, .i32⟩
  | 7 => ⟨S100000x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S64, .f32⟩
  | 18 => ⟨S64, .f32⟩
  | 19 => ⟨S64, .f32⟩
  | 20 => ⟨S1x64, .f32⟩
  | 21 => ⟨S100000x64, .f32⟩
  | 22 => ⟨S100000x64, .f32⟩
  | 23 => ⟨S1x64, .f32⟩
  | 24 => ⟨S100000x64, .f32⟩
  | 25 => ⟨S100000x64, .f32⟩
  | 26 => ⟨S1x64, .f32⟩
  | 27 => ⟨S100000x64, .f32⟩
  | 28 => ⟨S100000x64, .f32⟩
  | 29 => ⟨S_, .f32⟩
  | 30 => ⟨S100000x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S_, .f32⟩
  | 40 => ⟨S512x64, .f32⟩
  | 41 => ⟨S100000x1, .i32⟩
  | 42 => ⟨S512x64, .f32⟩
  | 43 => ⟨S_, .f32⟩
  | 44 => ⟨S512x64, .f32⟩
  | 45 => ⟨S100000x1, .i32⟩
  | 46 => ⟨S512x64, .f32⟩
  | 47 => ⟨S_, .f32⟩
  | 48 => ⟨S512x64, .f32⟩
  | 49 => ⟨S100000x1, .i32⟩
  | 50 => ⟨S512x64, .f32⟩
  | 51 => ⟨S512x192, .f32⟩
  | 52 => ⟨S512x192, .f32⟩
  | 53 => ⟨S1x192, .f32⟩
  | 54 => ⟨S512x192, .f32⟩
  | 55 => ⟨S512x192, .f32⟩
  | 56 => ⟨S_, .f32⟩
  | 57 => ⟨S512x192, .f32⟩
  | 58 => ⟨S512x192, .f32⟩
  | 59 => ⟨S512x2, .f32⟩
  | 60 => ⟨S1x2, .f32⟩
  | 61 => ⟨S512x2, .f32⟩
  | 62 => ⟨S512x2, .f32⟩
  | 63 => ⟨S_, .f32⟩
  | 64 => ⟨S512, .f32⟩
  | 65 => ⟨S_, .f32⟩
  | 66 => ⟨S512, .f32⟩
  | 67 => ⟨S512, .f32⟩
  | 68 => ⟨S512x1, .f32⟩
  | 69 => ⟨S512x2, .f32⟩
  | 70 => ⟨S512x2, .f32⟩
  | 71 => ⟨S512x2, .f32⟩
  | 72 => ⟨S_, .f32⟩
  | 73 => ⟨S512, .f32⟩
  | 74 => ⟨S512x1, .f32⟩
  | 75 => ⟨S512x2, .f32⟩
  | 76 => ⟨S512x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_call0_cst : Ref sig .tc := ⟨.hbm, 69, rfl⟩
abbrev main_call0_v0 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call1_cst : Ref sig .tc := ⟨.hbm, 76, rfl⟩
abbrev main_call1_v0 : Ref sig .tc := ⟨.hbm, 77, rfl⟩
abbrev main_v39 : Ref sig .tc := ⟨.hbm, 78, rfl⟩
abbrev main_c_2 : Ref sig .tc := ⟨.hbm, 79, rfl⟩
abbrev main_v40 : Ref sig .tc := ⟨.hbm, 80, rfl⟩
abbrev main_v41 : Ref sig .tc := ⟨.hbm, 81, rfl⟩
abbrev main_c_3 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_4 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_5 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_call2_cst : Ref sig .tc := ⟨.hbm, 113, rfl⟩
abbrev main_call2_v0 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_call3_cst : Ref sig .tc := ⟨.hbm, 120, rfl⟩
abbrev main_call3_v0 : Ref sig .tc := ⟨.hbm, 121, rfl⟩
abbrev main_v75 : Ref sig .tc := ⟨.hbm, 122, rfl⟩
abbrev main_c_6 : Ref sig .tc := ⟨.hbm, 123, rfl⟩
abbrev main_v76 : Ref sig .tc := ⟨.hbm, 124, rfl⟩
abbrev main_v77 : Ref sig .tc := ⟨.hbm, 125, rfl⟩
abbrev main_c_7 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_8 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_9 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_call4_cst : Ref sig .tc := ⟨.hbm, 157, rfl⟩
abbrev main_call4_v0 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_call5_cst : Ref sig .tc := ⟨.hbm, 164, rfl⟩
abbrev main_call5_v0 : Ref sig .tc := ⟨.hbm, 165, rfl⟩
abbrev main_v111 : Ref sig .tc := ⟨.hbm, 166, rfl⟩
abbrev main_cst_10 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_11 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_12 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_call6_cst : Ref sig .tc := ⟨.hbm, 184, rfl⟩
abbrev main_call6_v0 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_13 : Ref sig .tc := ⟨.hbm, 191, rfl⟩
abbrev main_v131 : Ref sig .tc := ⟨.hbm, 192, rfl⟩
abbrev main_cst_14 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_cst_15 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S512x64 : S_.BroadcastsInDim S512x64 (![] : Fin 0 → Fin S512x64.rank)
  bcast_S100000_S100000x1_0 : S100000.BroadcastsInDim S100000x1 (![0] : Fin 1 → Fin S100000x1.rank)
  concatenates_S512x64_S512x64_S512x64_S512x192_d1 : Shape.Concatenates [S512x64, S512x64, S512x64] S512x192 1
  bcast_S192_S1x192_1 : S192.BroadcastsInDim S1x192 (![1] : Fin 1 → Fin S1x192.rank)
  bcast_S1x192_S512x192_0_1 : S1x192.BroadcastsInDim S512x192 (![0, 1] : Fin 2 → Fin S512x192.rank)
  bcast_S_S512x192 : S_.BroadcastsInDim S512x192 (![] : Fin 0 → Fin S512x192.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  reducesTo_S512x2_S512_d1 : S512x2.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  dot_S512x192_S192x192_S512x192_1_0_0_1_n_n_wf : DotDims.WF S512x192 S192x192 S512x192 [1] [0] [0] [1] [] []
  dot_S512x192_S192x2_S512x2_1_0_0_1_n_n_wf : DotDims.WF S512x192 S192x2 S512x2 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x192_S192x192_S512x192_1_0_0_1_n_n : DotDims S512x192 S192x192 S512x192 where
  lhsContracting := [1]
  rhsContracting := [0]
  lhsNonContracting := [0]
  rhsNonContracting := [1]
  lhsBatch := []
  rhsBatch := []
  wf := dot_S512x192_S192x192_S512x192_1_0_0_1_n_n_wf
def dot_S512x192_S192x2_S512x2_1_0_0_1_n_n : DotDims S512x192 S192x2 S512x2 where
  lhsContracting := [1]
  rhsContracting := [0]
  lhsNonContracting := [0]
  rhsNonContracting := [1]
  lhsBatch := []
  rhsBatch := []
  wf := dot_S512x192_S192x2_S512x2_1_0_0_1_n_n_wf

class Facts : Prop extends Facts₀ where

variable [Facts]
-- ==== Proof.RefTerms.lean ====
/-
  The reference computation cut into its natural pieces, each a function of whole arrays: the sum of a node's
  in-neighbours' rows, one layer's update of every node, the per-graph sums, the two scores of every graph and their
  probabilities. The reference's stages are these pieces composed: the three layers chained, each layer's output
  pooled, the pooled features scored.
-/
import proofs.«136053_j26774826123547_1_alg».proof.Proof.Gen.ReferenceIdeal.Read

noncomputable section

namespace Cert.RefTerms

open Cert.ReferenceIdeal Cert.ReferenceIdeal.Gen Cert.ReferenceIdeal.Read Idealize.ShloMosaic Idealize.ShloMosaic.TcCoe

variable {F : FTy → Type} [FloatOps F]

/-- Node features, an edge list, graph labels, a layer's matrix and vector parameters, pooled features, the head's
    parameters and the scores: the arrays' types. -/
abbrev TN (F : FTy → Type) : Type := (⟨S100000x64, .f32⟩ : BufTy).Contents (Elt F)
abbrev TE (F : FTy → Type) : Type := (⟨S2x1200000, .i32⟩ : BufTy).Contents (Elt F)
abbrev TB (F : FTy → Type) : Type := (⟨S100000, .i32⟩ : BufTy).Contents (Elt F)
abbrev TM (F : FTy → Type) : Type := (⟨S64x64, .f32⟩ : BufTy).Contents (Elt F)
abbrev TV (F : FTy → Type) : Type := (⟨S64, .f32⟩ : BufTy).Contents (Elt F)
abbrev TP (F : FTy → Type) : Type := (⟨S512x64, .f32⟩ : BufTy).Contents (Elt F)
abbrev TW (F : FTy → Type) : Type := (⟨S192x192, .f32⟩ : BufTy).Contents (Elt F)
abbrev TV192 (F : FTy → Type) : Type := (⟨S192, .f32⟩ : BufTy).Contents (Elt F)
abbrev TW2 (F : FTy → Type) : Type := (⟨S192x2, .f32⟩ : BufTy).Contents (Elt F)
abbrev TV2 (F : FTy → Type) : Type := (⟨S2, .f32⟩ : BufTy).Contents (Elt F)
abbrev TL (F : FTy → Type) : Type := (⟨S512x2, .f32⟩ : BufTy).Contents (Elt F)

/-- For every node, the sum of the rows of `h` at the sources of the edges that end at it. -/
def agg (e : TE F) (h : TN F) : TN F :=
  Host.scatterAdd scatter_S100000x64_S1200000x1_S1200000x64_1_0_0_1 (val_main_v11 (F := F)) (val_main_v12 (F := F) e)
    (Host.gather gather_S100000x64_S1200000x1_S1200000x64_1_0_n_n_0_1_164 h (val_main_v9 (F := F) e))

/-- A vector of 64 repeated down every node's row. -/
def rowB (v : TV F) : TN F :=
  broadcastInDim S100000x64 ![0, 1] bcast_S1x64_S100000x64_0_1 (broadcastInDim S1x64 ![1] bcast_S64_S1x64_1 v)

/-- The all-zero node array a clamp compares with. -/
def zeroN : TN F := broadcastInDim S100000x64 ![] bcast_S_S100000x64 (constant S_ .f32 0x00000000#32)

/-- The per-coordinate factor of the normalisation: the reciprocal square root of the variance plus the small constant. -/
def invStd (rv : TV F) : TV F := Host.rsqrt (addf rv (broadcastInDim S64 ![] bcast_S_S64 (constant S_ .f32 0x3727C5AC#32)))

/-- Every node's hidden activation. -/
def hiddenN (u : TN F) (W1 : TM F) (b1 g be rm rv : TV F) : TN F :=
  maximumf (addf (mulf (mulf (subf (addf (Host.dotGeneral dot_S100000x64_S64x64_S100000x64_1_0_0_1_n_n none u W1) (rowB b1)) (rowB rm))
    (rowB (invStd rv))) (rowB g)) (rowB be)) zeroN

/-- One layer: every node's new features from its own row `h` and its neighbours' sum `a`. -/
def gin (h a : TN F) (W1 : TM F) (b1 g be rm rv : TV F) (W2 : TM F) (b2 : TV F) : TN F :=
  maximumf (addf (Host.dotGeneral dot_S100000x64_S64x64_S100000x64_1_0_0_1_n_n none (hiddenN (addf h a) W1 b1 g be rm rv) W2) (rowB b2)) zeroN

/-- For every graph, the sum of the rows of the nodes labelled with it. -/
def pool (b : TB F) (h : TN F) : TP F :=
  Host.scatterAdd scatter_S512x64_S100000x1_S100000x64_1_0_0_1 (val_main_v112 (F := F)) (val_main_v113 (F := F) b) h

/-- A graph's three pooled blocks laid side by side: 192 features. -/
def cat (p1 p2 p3 : TP F) : (⟨S512x192, .f32⟩ : BufTy).Contents (Elt F) :=
  concatenate S512x192 1 [⟨S512x64, p1⟩, ⟨S512x64, p2⟩, ⟨S512x64, p3⟩] concatenates_S512x64_S512x64_S512x64_S512x192_d1

/-- Every graph's hidden activation in the head. -/
def hiddenG (p1 p2 p3 : TP F) (W : TW F) (b : TV192 F) : (⟨S512x192, .f32⟩ : BufTy).Contents (Elt F) :=
  maximumf (addf (Host.dotGeneral dot_S512x192_S192x192_S512x192_1_0_0_1_n_n none (cat p1 p2 p3) W) (val_main_v124 (F := F) b))
    (val_main_call6_v0 (F := F))

/-- Every graph's two scores from its three pooled feature blocks. -/
def scores (p1 p2 p3 : TP F) (W : TW F) (b : TV192 F) (W2 : TW2 F) (b2 : TV2 F) : TL F :=
  addf (Host.dotGeneral dot_S512x192_S192x2_S512x2_1_0_0_1_n_n none (hiddenG p1 p2 p3 W b) W2) (val_main_v129 (F := F) b2)

/-- A vector of 512 repeated across the two columns. -/
def colB (v : (⟨S512, .f32⟩ : BufTy).Contents (Elt F)) : TL F :=
  broadcastInDim S512x2 ![0, 1] bcast_S512x1_S512x2_0_1 (broadcastInDim S512x1 ![0] bcast_S512_S512x1_0 v)

/-- Every graph's larger score (never below minus infinity). -/
def rowMaxR (l : TL F) : (⟨S512, .f32⟩ : BufTy).Contents (Elt F) :=
  maximumf (val_main_v132 (F := F)) (Host.reduce FloatOps.maximumf l (val_main_cst_13 (F := F)) reducesTo_S512x2_S512_d1 h_S_)

/-- Every graph's scores shifted by their maximum, exponentiated. -/
def shiftedExp (l : TL F) : TL F := Host.exp (subf l (colB (rowMaxR l)))

/-- Every graph's probabilities: the shifted exponentials over their sum. -/
def probs (l : TL F) : TL F :=
  Host.divf (shiftedExp l) (colB (Host.reduceAdd (shiftedExp l) (val_main_cst_15 (F := F)) reducesTo_S512x2_S512_d1 h_S_))

/-! ## The reference's stages are these pieces composed -/

theorem layer1_eq (x0 : TN F) (x1 : TE F) (x3 : TM F) (x4 x5 x6 x7 x8 : TV F) (x9 : TM F) (x10 : TV F) :
    val_main_v39 (F := F) x0 x1 x3 x4 x5 x6 x7 x8 x9 x10 = gin x0 (agg x1 x0) x3 x4 x5 x6 x7 x8 x9 x10 := rfl

theorem layer2_eq (x0 : TN F) (x1 : TE F) (x3 : TM F) (x4 x5 x6 x7 x8 : TV F) (x9 : TM F) (x10 : TV F)
    (x11 : TM F) (x12 x13 x14 x15 x16 : TV F) (x17 : TM F) (x18 : TV F) :
    val_main_v75 (F := F) x0 x1 x3 x4 x5 x6 x7 x8 x9 x10 x11 x12 x13 x14 x15 x16 x17 x18
      = gin (val_main_v39 (F := F) x0 x1 x3 x4 x5 x6 x7 x8 x9 x10) (agg x1 (val_main_v39 (F := F) x0 x1 x3 x4 x5 x6 x7 x8 x9 x10))
          x11 x12 x13 x14 x15 x16 x17 x18 := rfl

theorem layer3_eq (x0 : TN F) (x1 : TE F) (x3 : TM F) (x4 x5 x6 x7 x8 : TV F) (x9 : TM F) (x10 : TV F)
    (x11 : TM F) (x12 x13 x14 x15 x16 : TV F) (x17 : TM F) (x18 : TV F)
    (x19 : TM F) (x20 x21 x22 x23 x24 : TV F) (x25 : TM F) (x26 : TV F) :
    val_main_v111 (F := F) x0 x1 x3 x4 x5 x6 x7 x8 x9 x10 x11 x12 x13 x14 x15 x16 x17 x18 x19 x20 x21 x22 x23 x24 x25 x26
      = gin (val_main_v75 (F := F) x0 x1 x3 x4 x5 x6 x7 x8 x9 x10 x11 x12 x13 x14 x15 x16 x17 x18)
          (agg x1 (val_main_v75 (F := F) x0 x1 x3 x4 x5 x6 x7 x8 x9 x10 x11 x12 x13 x14 x15 x16 x17 x18))
          x19 x20 x21 x22 x23 x24 x25 x26 := rfl

theorem scores_eq (x0 : TN F) (x1 : TE F) (x2 : TB F) (x3 : TM F) (x4 x5 x6 x7 x8 : TV F) (x9 : TM F) (x10 : TV F)
    (x11 : TM F) (x12 x13 x14 x15 x16 : TV F) (x17 : TM F) (x18 : TV F)
    (x19 : TM F) (x20 x21 x22 x23 x24 : TV F) (x25 : TM F) (x26 : TV F)
    (x27 : TW F) (x28 : TV192 F) (x29 : TW2 F) (x30 : TV2 F) :
    val_main_v130 (F := F) x0 x1 x2 x3 x4 x5 x6 x7 x8 x9 x10 x11 x12 x13 x14 x15 x16 x17 x18 x19 x20 x21 x22 x23 x24 x25 x26 x27 x28 x29 x30
      = scores (pool x2 (val_main_v39 (F := F) x0 x1 x3 x4 x5 x6 x7 x8 x9 x10))
          (pool x2 (val_main_v75 (F := F) x0 x1 x3 x4 x5 x6 x7 x8 x9 x10 x11 x12 x13 x14 x15 x16 x17 x18))
          (pool x2 (val_main_v111 (F := F) x0 x1 x3 x4 x5 x6 x7 x8 x9 x10 x11 x12 x13 x14 x15 x16 x17 x18 x19 x20 x21 x22 x23 x24 x25 x26))
          x27 x28 x29 x30 := rfl

theorem probs_eq (x0 : TN F) (x1 : TE F) (x2 : TB F) (x3 : TM F) (x4 x5 x6 x7 x8 : TV F) (x9 : TM F) (x10 : TV F)
    (x11 : TM F) (x12 x13 x14 x15 x16 : TV F) (x17 : TM F) (x18 : TV F)
    (x19 : TM F) (x20 x21 x22 x23 x24 : TV F) (x25 : TM F) (x26 : TV F)
    (x27 : TW F) (x28 : TV192 F) (x29 : TW2 F) (x30 : TV2 F) :
    val_main_v141 (F := F) x0 x1 x2 x3 x4 x5 x6 x7 x8 x9 x10 x11 x12 x13 x14 x15 x16 x17 x18 x19 x20 x21 x22 x23 x24 x25 x26 x27 x28 x29 x30
      = probs (val_main_v130 (F := F) x0 x1 x2 x3 x4 x5 x6 x7 x8 x9 x10 x11 x12 x13 x14 x15 x16 x17 x18 x19 x20 x21 x22 x23 x24 x25 x26 x27 x28 x29 x30) := rfl

end Cert.RefTerms

end
-- ==== Proof.KernelRun.lean ====
/-
  The kernel program's run with its two result arrays named: every weakly fair execution from any memory ends with the
  scores array and the probabilities array at what the last boundary's contents hold there (the fold of the host
  stretches and the four regions' write-backs from the launch memory), and every argument array as launched.
-/
import proofs.«136053_j26774826123547_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the two results at the last boundary's contents, the arguments as launched. -/
theorem run : θ_run defs (onTc (τ := τ) (main (F := F))) ⟨m, fun _ => 0, ρ⟩ (fun r => ∀ c : Dev nD,
      r.2.mem ((c.tc : Thread nD τ).loc main_v46_0) = W8 m ρ c (Proc.devRef .tc main_v46_0)
      ∧ r.2.mem ((c.tc : Thread nD τ).loc main_v46_1) = W8 m ρ c (Proc.devRef .tc main_v46_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v46_0 (by decide)),
       h c _ (mem_uc main_v46_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c),
       (h c _ (mem_uc main_arg26 (by decide))).trans (W8_main_arg26 m ρ c),
       (h c _ (mem_uc main_arg27 (by decide))).trans (W8_main_arg27 m ρ c),
       (h c _ (mem_uc main_arg28 (by decide))).trans (W8_main_arg28 m ρ c),
       (h c _ (mem_uc main_arg29 (by decide))).trans (W8_main_arg29 m ρ c),
       (h c _ (mem_uc main_arg30 (by decide))).trans (W8_main_arg30 m ρ c)⟩)

end Cert.KernelIdeal.Run

end
-- ==== Proof.ArgsKept.lean ====
/-
  What the host stretches and the regions leave alone. A host operation writes only its own result buffer, and a region
  writes only its output arrays (an input array is read through its window and put back as found), so an argument array
  holds its launch contents at every boundary of the program, and each intermediate array — the two edge-endpoint vectors,
  each layer's output — holds at a later boundary what it held when it was written.
-/
import proofs.«136053_j26774826123547_1_alg».proof.Proof.Gen.KernelIdeal.Frame

noncomputable section

namespace Cert.KernelIdeal.Keep

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- No operation of the named stretch writes the buffer in question: each operation's one written buffer is another one. -/
macro "not_written " ops:ident : term => `(List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The argument arrays -/

/-- `main_arg0` is as launched at every boundary up to 1. -/
theorem at1_main_arg0 (c : Dev nD) : W1 m ρ c (Proc.devRef .tc main_arg0) = m ((c : Thread nD τ).loc main_arg0) :=
  (StableHlo.after_of_forall_not_mem (b := Proc.devRef .tc main_arg0) _ _ (not_written hostOps0)).trans (rfl)

/-- `main_arg3` is as launched at every boundary up to 1. -/
theorem at1_main_arg3 (c : Dev nD) : W1 m ρ c (Proc.devRef .tc main_arg3) = m ((c : Thread nD τ).loc main_arg3) :=
  (StableHlo.after_of_forall_not_mem (b := Proc.devRef .tc main_arg3) _ _ (not_written hostOps0)).trans (rfl)

/-- `main_arg4` is as launched at every boundary up to 1. -/
theorem at1_main_arg4 (c : Dev nD) : W1 m ρ c (Proc.devRef .tc main_arg4) = m ((c : Thread nD τ).loc main_arg4) :=
  (StableHlo.after_of_forall_not_mem (b := Proc.devRef .tc main_arg4) _ _ (not_written hostOps0)).trans (rfl)

/-- `main_arg5` is as launched at every boundary up to 1. -/
theorem at1_main_arg5 (c : Dev nD) : W1 m ρ c (Proc.devRef .tc main_arg5) = m ((c : Thread nD τ).loc main_arg5) :=
  (StableHlo.after_of_forall_not_mem (b := Proc.devRef .tc main_arg5) _ _ (not_written hostOps0)).trans (rfl)

/-- `main_arg6` is as launched at every boundary up to 1. -/
theorem at1_main_arg6 (c : Dev nD) : W1 m ρ c (Proc.devRef .tc main_arg6) = m ((c : Thread nD τ).loc main_arg6) :=
  (StableHlo.after_of_forall_not_mem (b := Proc.devRef .tc main_arg6) _ _ (not_written hostOps0)).trans (rfl)

/-- `main_arg7` is as launched at every boundary up to 1. -/
theorem at1_main_arg7 (c : Dev nD) : W1 m ρ c (Proc.devRef .tc main_arg7) = m ((c : Thread nD τ).loc main_arg7) :=
  (StableHlo.after_of_forall_not_mem (b := Proc.devRef .tc main_arg7) _ _ (not_written hostOps0)).trans (rfl)

/-- `main_arg8` is as launched at every boundary up to 1. -/
theorem at1_main_arg8 (c : Dev nD) : W1 m ρ c (Proc.devRef .tc main_arg8) = m ((c : Thread nD τ).loc main_arg8) :=
  (StableHlo.after_of_forall_not_mem (b := Proc.devRef .tc main_arg8) _ _ (not_written hostOps0)).trans (rfl)

/-- `main_arg9` is as launched at every boundary up to 1. -/
theorem at1_main_arg9 (c : Dev nD) : W1 m ρ c (Proc.devRef .tc main_arg9) = m ((c : Thread nD τ).loc main_arg9) :=
  (StableHlo.after_of_forall_not_mem (b := Proc.devRef .tc main_arg9) _ _ (not_written hostOps0)).trans (rfl)

/-- `main_arg10` is as launched at every boundary up to 1. -/
theorem at1_main_arg10 (c : Dev nD) : W1 m ρ c (Proc.devRef .tc main_arg10) = m ((c : Thread nD τ).loc main_arg10) :=
  (StableHlo.after_of_forall_not_mem (b := Proc.devRef .tc main_arg10) _ _ (not_written hostOps0)).trans (rfl)

/-- `main_arg11` is as launched at every boundary up to 3. -/
theorem at1_main_arg11 (c : Dev nD) : W1 m ρ c (Proc.devRef .tc main_arg11) = m ((c : Thread nD τ).loc main_arg11) :=
  (StableHlo.after_of_forall_not_mem (b := Proc.devRef .tc main_arg11) _ _ (not_written hostOps0)).trans (rfl)
theorem at2_main_arg11 (c : Dev nD) : W2 m ρ c (Proc.devRef .tc main_arg11) = m ((c : Thread nD τ).loc main_arg11) :=
  (W2_of_ne m ρ c main_arg11 (by decide)).trans (at1_main_arg11 m ρ c)
theorem at3_main_arg11 (c : Dev nD) : W3 m ρ c (Proc.devRef .tc main_arg11) = m ((c : Thread nD τ).loc main_arg11) :=
  (StableHlo.after_of_forall_not_mem (b := Proc.devRef .tc main_arg11) _ _ (not_written hostOps1)).trans (at2_main_arg11 m ρ c)

/-- `main_arg12` is as launched at every boundary up to 3. -/
theorem at1_main_arg12 (c : Dev nD) : W1 m ρ c (Proc.devRef .tc main_arg12) = m ((c : Thread nD τ).loc main_arg12) :=
  (StableHlo.after_of_forall_not_mem (b := Proc.devRef .tc main_arg12) _ _ (not_written hostOps0)).trans (rfl)
theorem at2_main_arg12 (c : Dev nD) : W2 m ρ c (Proc.devRef .tc main_arg12) = m ((c : Thread nD τ).loc main_arg12) :=
  (W2_of_ne m ρ c main_arg12 (by decide)).trans (at1_main_arg12 m ρ c)
theorem at3_main_arg12 (c : Dev nD) : W3 m ρ c (Proc.devRef .tc main_arg12) = m ((c : Thread nD τ).loc main_arg12) :=
  (StableHlo.after_of_forall_not_mem (b := Proc.devRef .tc main_arg12) _ _ (not_written hostOps1)).trans (at2_main_arg12 m ρ c)

/-- `main_arg13` is as launched at every boundary up to 3. -/
theorem at1_main_arg13 (c : Dev nD) : W1 m ρ c (Proc.devRef .tc main_arg13) = m ((c : Thread nD τ).loc main_arg13) :=
  (StableHlo.after_of_forall_not_mem (b := Proc.devRef .tc main_arg13) _ _ (not_written hostOps0)).trans (rfl)
theorem at2_main_arg13 (c : Dev nD) : W2 m ρ c (Proc.devRef .tc main_arg13) = m ((c : Thread nD τ).loc main_arg13) :=
  (W2_of_ne m ρ c main_arg13 (by decide)).trans (at1_main_arg13 m ρ c)
theorem at3_main_arg13 (c : Dev nD) : W3 m ρ c (Proc.devRef .tc main_arg13) = m ((c : Thread nD τ).loc main_arg13) :=
  (StableHlo.after_of_forall_not_mem (b := Proc.devRef .tc main_arg13) _ _ (not_written hostOps1)).trans (at2_main_arg13 m ρ c)

/-- `main_arg14` is as launched at every boundary up to 3. -/
theorem at1_main_arg14 (c : Dev nD) : W1 m ρ c (Proc.devRef .tc main_arg14) = m ((c : Thread nD τ).loc main_arg14) :=
  (StableHlo.after_of_forall_not_mem (b := Proc.devRef .tc main_arg14) _ _ (not_written hostOps0)).trans (rfl)
theorem at2_main_arg14 (c : Dev nD) : W2 m ρ c (Proc.devRef .tc main_arg14) = m ((c : Thread nD τ).loc main_arg14) :=
  (W2_of_ne m ρ c main_arg14 (by decide)).trans (at1_main_arg14 m ρ c)
theorem at3_main_arg14 (c : Dev nD) : W3 m ρ c (Proc.devRef .tc main_arg14) = m ((c : Thread nD τ).loc main_arg14) :=
  (StableHlo.after_of_forall_not_mem (b := Proc.devRef .tc main_arg14) _ _ (not_written hostOps1)).trans (at2_main_arg14 m ρ c)

/-- `main_arg15` is as launched at every boundary up to 3. -/
theorem at1_main_arg15 (c : Dev nD) : W1 m ρ c (Proc.devRef .tc main_arg15) = m ((c : Thread nD τ).loc main_arg15) :=
  (StableHlo.after_of_forall_not_mem (b := Proc.devRef .tc main_arg15) _ _ (not_written hostOps0)).trans (rfl)
theorem at2_main_arg15 (c : Dev nD) : W2 m ρ c (Proc.devRef .tc main_arg15) = m ((c : Thread nD τ).loc main_arg15) :=
  (W2_of_ne m ρ c main_arg15 (by decide)).trans (at1_main_arg15 m ρ c)
theorem at3_main_arg15 (c : Dev nD) : W3 m ρ c (Proc.devRef .tc main_arg15) = m ((c : Thread nD τ).loc main_arg15) :=
  (StableHlo.after_of_forall_not_mem (b := Proc.devRef .tc main_arg15) _ _ (not_written hostOps1)).trans (at2_main_arg15 m ρ c)

/-- `main_arg16` is as launched at every boundary up to 3. -/
theorem at1_main_arg16 (c : Dev nD) : W1 m ρ c (Proc.devRef .tc main_arg16) = m ((c : Thread nD τ).loc main_arg16) :=
  (StableHlo.after_of_forall_not_mem (b := Proc.devRef .tc main_arg16) _ _ (not_written hostOps0)).trans (rfl)
theorem at2_main_arg16 (c : Dev nD) : W2 m ρ c (Proc.devRef .tc main_arg16) = m ((c : Thread nD τ).loc main_arg16) :=
  (W2_of_ne m ρ c main_arg16 (by decide)).trans (at1_main_arg16 m ρ c)
theorem at3_main_arg16 (c : Dev nD) : W3 m ρ c (Proc.devRef .tc main_arg16) = m ((c : Thread nD τ).loc main_arg16) :=
  (StableHlo.after_of_forall_not_mem (b := Proc.devRef .tc main_arg16) _ _ (not_written hostOps1)).trans (at2_main_arg16 m ρ c)

/-- `main_arg17` is as launched at every boundary up to 3. -/
theorem at1_main_arg17 (c : Dev nD) : W1 m ρ c (Proc.devRef .tc main_arg17) = m ((c : Thread nD τ).loc main_arg17) :=
  (StableHlo.after_of_forall_not_mem (b := Proc.devRef .tc main_arg17) _ _ (not_written hostOps0)).trans (rfl)
theorem at2_main_arg17 (c : Dev nD) : W2 m ρ c (Proc.devRef .tc main_arg17) = m ((c : Thread nD τ).loc main_arg17) :=
  (W2_of_ne m ρ c main_arg17 (by decide)).trans (at1_main_arg17 m ρ c)
theorem at3_main_arg17 (c : Dev nD) : W3 m ρ c (Proc.devRef .tc main_arg17) = m ((c : Thread nD τ).loc main_arg17) :=
  (StableHlo.after_of_forall_not_mem (b := Proc.devRef .tc main_arg17) _ _ (not_written hostOps1)).trans (at2_main_arg17 m ρ c)

/-- `main_arg18` is as launched at every boundary up to 3. -/
theorem at1_main_arg18 (c : Dev nD) : W1 m ρ c (Proc.devRef .tc main_arg18) = m ((c : Thread nD τ).loc main_arg18) :=
  (StableHlo.after_of_forall_not_mem (b := Proc.devRef .tc main_arg18) _ _ (not_written hostOps0)).trans (rfl)
theorem at2_main_arg18 (c : Dev nD) : W2 m ρ c (Proc.devRef .tc main_arg18) = m ((c : Thread nD τ).loc main_arg18) :=
  (W2_of_ne m ρ c main_arg18 (by decide)).trans (at1_main_arg18 m ρ c)
theorem at3_main_arg18 (c : Dev nD) : W3 m ρ c (Proc.devRef .tc main_arg18) = m ((c : Thread nD τ).loc main_arg18) :=
  (StableHlo.after_of_forall_not_mem (b := Proc.devRef .tc main_arg18) _ _ (not_written hostOps1)).trans (at2_main_arg18 m ρ c)

/-- `main_arg19` is as launched at every boundary up to 5. -/
theorem at1_main_arg19 (c : Dev nD) : W1 m ρ c (Proc.devRef .tc main_arg19) = m ((c : Thread nD τ).loc main_arg19) :=
  (StableHlo.after_of_forall_not_mem (b := Proc.devRef .tc main_arg19) _ _ (not_written hostOps0)).trans (rfl)
theorem at2_main_arg19 (c : Dev nD) : W2 m ρ c (Proc.devRef .tc main_arg19) = m ((c : Thread nD τ).loc main_arg19) :=
  (W2_of_ne m ρ c main_arg19 (by decide)).trans (at1_main_arg19 m ρ c)
theorem at3_main_arg19 (c : Dev nD) : W3 m ρ c (Proc.devRef .tc main_arg19) = m ((c : Thread nD τ).loc main_arg19) :=
  (StableHlo.after_of_forall_not_mem (b := Proc.devRef .tc main_arg19) _ _ (not_written hostOps1)).trans (at2_main_arg19 m ρ c)
theorem at4_main_arg19 (c : Dev nD) : W4 m ρ c (Proc.devRef .tc main_arg19) = m ((c : Thread nD τ).loc main_arg19) :=
  (W4_of_ne m ρ c main_arg19 (by decide)).trans (at3_main_arg19 m ρ c)
theorem at5_main_arg19 (c : Dev nD) : W5 m ρ c (Proc.devRef .tc main_arg19) = m ((c : Thread nD τ).loc main_arg19) :=
  (StableHlo.after_of_forall_not_mem (b := Proc.devRef .tc main_arg19) _ _ (not_written hostOps2)).trans (at4_main_arg19 m ρ c)

/-- `main_arg20` is as launched at every boundary up to 5. -/
theorem at1_main_arg20 (c : Dev nD) : W1 m ρ c (Proc.devRef .tc main_arg20) = m ((c : Thread nD τ).loc main_arg20) :=
  (StableHlo.after_of_forall_not_mem (b := Proc.devRef .tc main_arg20) _ _ (not_written hostOps0)).trans (rfl)
theorem at2_main_arg20 (c : Dev nD) : W2 m ρ c (Proc.devRef .tc main_arg20) = m ((c : Thread nD τ).loc main_arg20) :=
  (W2_of_ne m ρ c main_arg20 (by decide)).trans (at1_main_arg20 m ρ c)
theorem at3_main_arg20 (c : Dev nD) : W3 m ρ c (Proc.devRef .tc main_arg20) = m ((c : Thread nD τ).loc main_arg20) :=
  (StableHlo.after_of_forall_not_mem (b := Proc.devRef .tc main_arg20) _ _ (not_written hostOps1)).trans (at2_main_arg20 m ρ c)
theorem at4_main_arg20 (c : Dev nD) : W4 m ρ c (Proc.devRef .tc main_arg20) = m ((c : Thread nD τ).loc main_arg20) :=
  (W4_of_ne m ρ c main_arg20 (by decide)).trans (at3_main_arg20 m ρ c)
theorem at5_main_arg20 (c : Dev nD) : W5 m ρ c (Proc.devRef .tc main_arg20) = m ((c : Thread nD τ).loc main_arg20) :=
  (StableHlo.after_of_forall_not_mem (b := Proc.devRef .tc main_arg20) _ _ (not_written hostOps2)).trans (at4_main_arg20 m ρ c)

/-- `main_arg21` is as launched at every boundary up to 5. -/
theorem at1_main_arg21 (c : Dev nD) : W1 m ρ c (Proc.devRef .tc main_arg21) = m ((c : Thread nD τ).loc main_arg21) :=
  (StableHlo.after_of_forall_not_mem (b := Proc.devRef .tc main_arg21) _ _ (not_written hostOps0)).trans (rfl)
theorem at2_main_arg21 (c : Dev nD) : W2 m ρ c (Proc.devRef .tc main_arg21) = m ((c : Thread nD τ).loc main_arg21) :=
  (W2_of_ne m ρ c main_arg21 (by decide)).trans (at1_main_arg21 m ρ c)
theorem at3_main_arg21 (c : Dev nD) : W3 m ρ c (Proc.devRef .tc main_arg21) = m ((c : Thread nD τ).loc main_arg21) :=
  (StableHlo.after_of_forall_not_mem (b := Proc.devRef .tc main_arg21) _ _ (not_written hostOps1)).trans (at2_main_arg21 m ρ c)
theorem at4_main_arg21 (c : Dev nD) : W4 m ρ c (Proc.devRef .tc main_arg21) = m ((c : Thread nD τ).loc main_arg21) :=
  (W4_of_ne m ρ c main_arg21 (by decide)).trans (at3_main_arg21 m ρ c)
theorem at5_main_arg21 (c : Dev nD) : W5 m ρ c (Proc.devRef .tc main_arg21) = m ((c : Thread nD τ).loc main_arg21) :=
  (StableHlo.after_of_forall_not_mem (b := Proc.devRef .tc main_arg21) _ _ (not_written hostOps2)).trans (at4_main_arg21 m ρ c)

/-- `main_arg22` is as launched at every boundary up to 5. -/
theorem at1_main_arg22 (c : Dev nD) : W1 m ρ c (Proc.devRef .tc main_arg22) = m ((c : Thread nD τ).loc main_arg22) :=
  (StableHlo.after_of_forall_not_mem (b := Proc.devRef .tc main_arg22) _ _ (not_written hostOps0)).trans (rfl)
theorem at2_main_arg22 (c : Dev nD) : W2 m ρ c (Proc.devRef .tc main_arg22) = m ((c : Thread nD τ).loc main_arg22) :=
  (W2_of_ne m ρ c main_arg22 (by decide)).trans (at1_main_arg22 m ρ c)
theorem at3_main_arg22 (c : Dev nD) : W3 m ρ c (Proc.devRef .tc main_arg22) = m ((c : Thread nD τ).loc main_arg22) :=
  (StableHlo.after_of_forall_not_mem (b := Proc.devRef .tc main_arg22) _ _ (not_written hostOps1)).trans (at2_main_arg22 m ρ c)
theorem at4_main_arg22 (c : Dev nD) : W4 m ρ c (Proc.devRef .tc main_arg22) = m ((c : Thread nD τ).loc main_arg22) :=
  (W4_of_ne m ρ c main_arg22 (by decide)).trans (at3_main_arg22 m ρ c)
theorem at5_main_arg22 (c : Dev nD) : W5 m ρ c (Proc.devRef .tc main_arg22) = m ((c : Thread nD τ).loc main_arg22) :=
  (StableHlo.after_of_forall_not_mem (b := Proc.devRef .tc main_arg22) _ _ (not_written hostOps2)).trans (at4_main_arg22 m ρ c)

/-- `main_arg23` is as launched at every boundary up to 5. -/
theorem at1_main_arg23 (c : Dev nD) : W1 m ρ c (Proc.devRef .tc main_arg23) = m ((c : Thread nD τ).loc main_arg23) :=
  (StableHlo.after_of_forall_not_mem (b := Proc.devRef .tc main_arg23) _ _ (not_written hostOps0)).trans (rfl)
theorem at2_main_arg23 (c : Dev nD) : W2 m ρ c (Proc.devRef .tc main_arg23) = m ((c : Thread nD τ).loc main_arg23) :=
  (W2_of_ne m ρ c main_arg23 (by decide)).trans (at1_main_arg23 m ρ c)
theorem at3_main_arg23 (c : Dev nD) : W3 m ρ c (Proc.devRef .tc main_arg23) = m ((c : Thread nD τ).loc main_arg23) :=
  (StableHlo.after_of_forall_not_mem (b := Proc.devRef .tc main_arg23) _ _ (not_written hostOps1)).trans (at2_main_arg23 m ρ c)
theorem at4_main_arg23 (c : Dev nD) : W4 m ρ c (Proc.devRef .tc main_arg23) = m ((c : Thread nD τ).loc main_arg23) :=
  (W4_of_ne m ρ c main_arg23 (by decide)).trans (at3_main_arg23 m ρ c)
theorem at5_main_arg23 (c : Dev nD) : W5 m ρ c (Proc.devRef .tc main_arg23) = m ((c : Thread nD τ).loc main_arg23) :=
  (StableHlo.after_of_forall_not_mem (b := Proc.devRef .tc main_arg23) _ _ (not_written hostOps2)).trans (at4_main_arg23 m ρ c)

/-- `main_arg24` is as launched at every boundary up to 5. -/
theorem at1_main_arg24 (c : Dev nD) : W1 m ρ c (Proc.devRef .tc main_arg24) = m ((c : Thread nD τ).loc main_arg24) :=
  (StableHlo.after_of_forall_not_mem (b := Proc.devRef .tc main_arg24) _ _ (not_written hostOps0)).trans (rfl)
theorem at2_main_arg24 (c : Dev nD) : W2 m ρ c (Proc.devRef .tc main_arg24) = m ((c : Thread nD τ).loc main_arg24) :=
  (W2_of_ne m ρ c main_arg24 (by decide)).trans (at1_main_arg24 m ρ c)
theorem at3_main_arg24 (c : Dev nD) : W3 m ρ c (Proc.devRef .tc main_arg24) = m ((c : Thread nD τ).loc main_arg24) :=
  (StableHlo.after_of_forall_not_mem (b := Proc.devRef .tc main_arg24) _ _ (not_written hostOps1)).trans (at2_main_arg24 m ρ c)
theorem at4_main_arg24 (c : Dev nD) : W4 m ρ c (Proc.devRef .tc main_arg24) = m ((c : Thread nD τ).loc main_arg24) :=
  (W4_of_ne m ρ c main_arg24 (by decide)).trans (at3_main_arg24 m ρ c)
theorem at5_main_arg24 (c : Dev nD) : W5 m ρ c (Proc.devRef .tc main_arg24) = m ((c : Thread nD τ).loc main_arg24) :=
  (StableHlo.after_of_forall_not_mem (b := Proc.devRef .tc main_arg24) _ _ (not_written hostOps2)).trans (at4_main_arg24 m ρ c)

/-- `main_arg25` is as launched at every boundary up to 5. -/
theorem at1_main_arg25 (c : Dev nD) : W1 m ρ c (Proc.devRef .tc main_arg25) = m ((c : Thread nD τ).loc main_arg25) :=
  (StableHlo.after_of_forall_not_mem (b := Proc.devRef .tc main_arg25) _ _ (not_written hostOps0)).trans (rfl)
theorem at2_main_arg25 (c : Dev nD) : W2 m ρ c (Proc.devRef .tc main_arg25) = m ((c : Thread nD τ).loc main_arg25) :=
  (W2_of_ne m ρ c main_arg25 (by decide)).trans (at1_main_arg25 m ρ c)
theorem at3_main_arg25 (c : Dev nD) : W3 m ρ c (Proc.devRef .tc main_arg25) = m ((c : Thread nD τ).loc main_arg25) :=
  (StableHlo.after_of_forall_not_mem (b := Proc.devRef .tc main_arg25) _ _ (not_written hostOps1)).trans (at2_main_arg25 m ρ c)
theorem at4_main_arg25 (c : Dev nD) : W4 m ρ c (Proc.devRef .tc main_arg25) = m ((c : Thread nD τ).loc main_arg25) :=
  (W4_of_ne m ρ c main_arg25 (by decide)).trans (at3_main_arg25 m ρ c)
theorem at5_main_arg25 (c : Dev nD) : W5 m ρ c (Proc.devRef .tc main_arg25) = m ((c : Thread nD τ).loc main_arg25) :=
  (StableHlo.after_of_forall_not_mem (b := Proc.devRef .tc main_arg25) _ _ (not_written hostOps2)).trans (at4_main_arg25 m ρ c)

/-- `main_arg26` is as launched at every boundary up to 5. -/
theorem at1_main_arg26 (c : Dev nD) : W1 m ρ c (Proc.devRef .tc main_arg26) = m ((c : Thread nD τ).loc main_arg26) :=
  (StableHlo.after_of_forall_not_mem (b := Proc.devRef .tc main_arg26) _ _ (not_written hostOps0)).trans (rfl)
theorem at2_main_arg26 (c : Dev nD) : W2 m ρ c (Proc.devRef .tc main_arg26) = m ((c : Thread nD τ).loc main_arg26) :=
  (W2_of_ne m ρ c main_arg26 (by decide)).trans (at1_main_arg26 m ρ c)
theorem at3_main_arg26 (c : Dev nD) : W3 m ρ c (Proc.devRef .tc main_arg26) = m ((c : Thread nD τ).loc main_arg26) :=
  (StableHlo.after_of_forall_not_mem (b := Proc.devRef .tc main_arg26) _ _ (not_written hostOps1)).trans (at2_main_arg26 m ρ c)
theorem at4_main_arg26 (c : Dev nD) : W4 m ρ c (Proc.devRef .tc main_arg26) = m ((c : Thread nD τ).loc main_arg26) :=
  (W4_of_ne m ρ c main_arg26 (by decide)).trans (at3_main_arg26 m ρ c)
theorem at5_main_arg26 (c : Dev nD) : W5 m ρ c (Proc.devRef .tc main_arg26) = m ((c : Thread nD τ).loc main_arg26) :=
  (StableHlo.after_of_forall_not_mem (b := Proc.devRef .tc main_arg26) _ _ (not_written hostOps2)).trans (at4_main_arg26 m ρ c)

/-- `main_arg27` is as launched at every boundary up to 7. -/
theorem at1_main_arg27 (c : Dev nD) : W1 m ρ c (Proc.devRef .tc main_arg27) = m ((c : Thread nD τ).loc main_arg27) :=
  (StableHlo.after_of_forall_not_mem (b := Proc.devRef .tc main_arg27) _ _ (not_written hostOps0)).trans (rfl)
theorem at2_main_arg27 (c : Dev nD) : W2 m ρ c (Proc.devRef .tc main_arg27) = m ((c : Thread nD τ).loc main_arg27) :=
  (W2_of_ne m ρ c main_arg27 (by decide)).trans (at1_main_arg27 m ρ c)
theorem at3_main_arg27 (c : Dev nD) : W3 m ρ c (Proc.devRef .tc main_arg27) = m ((c : Thread nD τ).loc main_arg27) :=
  (StableHlo.after_of_forall_not_mem (b := Proc.devRef .tc main_arg27) _ _ (not_written hostOps1)).trans (at2_main_arg27 m ρ c)
theorem at4_main_arg27 (c : Dev nD) : W4 m ρ c (Proc.devRef .tc main_arg27) = m ((c : Thread nD τ).loc main_arg27) :=
  (W4_of_ne m ρ c main_arg27 (by decide)).trans (at3_main_arg27 m ρ c)
theorem at5_main_arg27 (c : Dev nD) : W5 m ρ c (Proc.devRef .tc main_arg27) = m ((c : Thread nD τ).loc main_arg27) :=
  (StableHlo.after_of_forall_not_mem (b := Proc.devRef .tc main_arg27) _ _ (not_written hostOps2)).trans (at4_main_arg27 m ρ c)
theorem at6_main_arg27 (c : Dev nD) : W6 m ρ c (Proc.devRef .tc main_arg27) = m ((c : Thread nD τ).loc main_arg27) :=
  (W6_of_ne m ρ c main_arg27 (by decide)).trans (at5_main_arg27 m ρ c)
theorem at7_main_arg27 (c : Dev nD) : W7 m ρ c (Proc.devRef .tc main_arg27) = m ((c : Thread nD τ).loc main_arg27) :=
  (StableHlo.after_of_forall_not_mem (b := Proc.devRef .tc main_arg27) _ _ (not_written hostOps3)).trans (at6_main_arg27 m ρ c)

/-- `main_arg28` is as launched at every boundary up to 7. -/
theorem at1_main_arg28 (c : Dev nD) : W1 m ρ c (Proc.devRef .tc main_arg28) = m ((c : Thread nD τ).loc main_arg28) :=
  (StableHlo.after_of_forall_not_mem (b := Proc.devRef .tc main_arg28) _ _ (not_written hostOps0)).trans (rfl)
theorem at2_main_arg28 (c : Dev nD) : W2 m ρ c (Proc.devRef .tc main_arg28) = m ((c : Thread nD τ).loc main_arg28) :=
  (W2_of_ne m ρ c main_arg28 (by decide)).trans (at1_main_arg28 m ρ c)
theorem at3_main_arg28 (c : Dev nD) : W3 m ρ c (Proc.devRef .tc main_arg28) = m ((c : Thread nD τ).loc main_arg28) :=
  (StableHlo.after_of_forall_not_mem (b := Proc.devRef .tc main_arg28) _ _ (not_written hostOps1)).trans (at2_main_arg28 m ρ c)
theorem at4_main_arg28 (c : Dev nD) : W4 m ρ c (Proc.devRef .tc main_arg28) = m ((c : Thread nD τ).loc main_arg28) :=
  (W4_of_ne m ρ c main_arg28 (by decide)).trans (at3_main_arg28 m ρ c)
theorem at5_main_arg28 (c : Dev nD) : W5 m ρ c (Proc.devRef .tc main_arg28) = m ((c : Thread nD τ).loc main_arg28) :=
  (StableHlo.after_of_forall_not_mem (b := Proc.devRef .tc main_arg28) _ _ (not_written hostOps2)).trans (at4_main_arg28 m ρ c)
theorem at6_main_arg28 (c : Dev nD) : W6 m ρ c (Proc.devRef .tc main_arg28) = m ((c : Thread nD τ).loc main_arg28) :=
  (W6_of_ne m ρ c main_arg28 (by decide)).trans (at5_main_arg28 m ρ c)
theorem at7_main_arg28 (c : Dev nD) : W7 m ρ c (Proc.devRef .tc main_arg28) = m ((c : Thread nD τ).loc main_arg28) :=
  (StableHlo.after_of_forall_not_mem (b := Proc.devRef .tc main_arg28) _ _ (not_written hostOps3)).trans (at6_main_arg28 m ρ c)

/-- `main_arg29` is as launched at every boundary up to 7. -/
theorem at1_main_arg29 (c : Dev nD) : W1 m ρ c (Proc.devRef .tc main_arg29) = m ((c : Thread nD τ).loc main_arg29) :=
  (StableHlo.after_of_forall_not_mem (b := Proc.devRef .tc main_arg29) _ _ (not_written hostOps0)).trans (rfl)
theorem at2_main_arg29 (c : Dev nD) : W2 m ρ c (Proc.devRef .tc main_arg29) = m ((c : Thread nD τ).loc main_arg29) :=
  (W2_of_ne m ρ c main_arg29 (by decide)).trans (at1_main_arg29 m ρ c)
theorem at3_main_arg29 (c : Dev nD) : W3 m ρ c (Proc.devRef .tc main_arg29) = m ((c : Thread nD τ).loc main_arg29) :=
  (StableHlo.after_of_forall_not_mem (b := Proc.devRef .tc main_arg29) _ _ (not_written hostOps1)).trans (at2_main_arg29 m ρ c)
theorem at4_main_arg29 (c : Dev nD) : W4 m ρ c (Proc.devRef .tc main_arg29) = m ((c : Thread nD τ).loc main_arg29) :=
  (W4_of_ne m ρ c main_arg29 (by decide)).trans (at3_main_arg29 m ρ c)
theorem at5_main_arg29 (c : Dev nD) : W5 m ρ c (Proc.devRef .tc main_arg29) = m ((c : Thread nD τ).loc main_arg29) :=
  (StableHlo.after_of_forall_not_mem (b := Proc.devRef .tc main_arg29) _ _ (not_written hostOps2)).trans (at4_main_arg29 m ρ c)
theorem at6_main_arg29 (c : Dev nD) : W6 m ρ c (Proc.devRef .tc main_arg29) = m ((c : Thread nD τ).loc main_arg29) :=
  (W6_of_ne m ρ c main_arg29 (by decide)).trans (at5_main_arg29 m ρ c)
theorem at7_main_arg29 (c : Dev nD) : W7 m ρ c (Proc.devRef .tc main_arg29) = m ((c : Thread nD τ).loc main_arg29) :=
  (StableHlo.after_of_forall_not_mem (b := Proc.devRef .tc main_arg29) _ _ (not_written hostOps3)).trans (at6_main_arg29 m ρ c)

/-- `main_arg30` is as launched at every boundary up to 7. -/
theorem at1_main_arg30 (c : Dev nD) : W1 m ρ c (Proc.devRef .tc main_arg30) = m ((c : Thread nD τ).loc main_arg30) :=
  (StableHlo.after_of_forall_not_mem (b := Proc.devRef .tc main_arg30) _ _ (not_written hostOps0)).trans (rfl)
theorem at2_main_arg30 (c : Dev nD) : W2 m ρ c (Proc.devRef .tc main_arg30) = m ((c : Thread nD τ).loc main_arg30) :=
  (W2_of_ne m ρ c main_arg30 (by decide)).trans (at1_main_arg30 m ρ c)
theorem at3_main_arg30 (c : Dev nD) : W3 m ρ c (Proc.devRef .tc main_arg30) = m ((c : Thread nD τ).loc main_arg30) :=
  (StableHlo.after_of_forall_not_mem (b := Proc.devRef .tc main_arg30) _ _ (not_written hostOps1)).trans (at2_main_arg30 m ρ c)
theorem at4_main_arg30 (c : Dev nD) : W4 m ρ c (Proc.devRef .tc main_arg30) = m ((c : Thread nD τ).loc main_arg30) :=
  (W4_of_ne m ρ c main_arg30 (by decide)).trans (at3_main_arg30 m ρ c)
theorem at5_main_arg30 (c : Dev nD) : W5 m ρ c (Proc.devRef .tc main_arg30) = m ((c : Thread nD τ).loc main_arg30) :=
  (StableHlo.after_of_forall_not_mem (b := Proc.devRef .tc main_arg30) _ _ (not_written hostOps2)).trans (at4_main_arg30 m ρ c)
theorem at6_main_arg30 (c : Dev nD) : W6 m ρ c (Proc.devRef .tc main_arg30) = m ((c : Thread nD τ).loc main_arg30) :=
  (W6_of_ne m ρ c main_arg30 (by decide)).trans (at5_main_arg30 m ρ c)
theorem at7_main_arg30 (c : Dev nD) : W7 m ρ c (Proc.devRef .tc main_arg30) = m ((c : Thread nD τ).loc main_arg30) :=
  (StableHlo.after_of_forall_not_mem (b := Proc.devRef .tc main_arg30) _ _ (not_written hostOps3)).trans (at6_main_arg30 m ρ c)

/-- `main_arg2` is as launched at every boundary up to 6. -/
theorem at1_main_arg2 (c : Dev nD) : W1 m ρ c (Proc.devRef .tc main_arg2) = m ((c : Thread nD τ).loc main_arg2) :=
  (StableHlo.after_of_forall_not_mem (b := Proc.devRef .tc main_arg2) _ _ (not_written hostOps0)).trans (rfl)
theorem at2_main_arg2 (c : Dev nD) : W2 m ρ c (Proc.devRef .tc main_arg2) = m ((c : Thread nD τ).loc main_arg2) :=
  (W2_of_ne m ρ c main_arg2 (by decide)).trans (at1_main_arg2 m ρ c)
theorem at3_main_arg2 (c : Dev nD) : W3 m ρ c (Proc.devRef .tc main_arg2) = m ((c : Thread nD τ).loc main_arg2) :=
  (StableHlo.after_of_forall_not_mem (b := Proc.devRef .tc main_arg2) _ _ (not_written hostOps1)).trans (at2_main_arg2 m ρ c)
theorem at4_main_arg2 (c : Dev nD) : W4 m ρ c (Proc.devRef .tc main_arg2) = m ((c : Thread nD τ).loc main_arg2) :=
  (W4_of_ne m ρ c main_arg2 (by decide)).trans (at3_main_arg2 m ρ c)
theorem at5_main_arg2 (c : Dev nD) : W5 m ρ c (Proc.devRef .tc main_arg2) = m ((c : Thread nD τ).loc main_arg2) :=
  (StableHlo.after_of_forall_not_mem (b := Proc.devRef .tc main_arg2) _ _ (not_written hostOps2)).trans (at4_main_arg2 m ρ c)
theorem at6_main_arg2 (c : Dev nD) : W6 m ρ c (Proc.devRef .tc main_arg2) = m ((c : Thread nD τ).loc main_arg2) :=
  (W6_of_ne m ρ c main_arg2 (by decide)).trans (at5_main_arg2 m ρ c)

/-! ## The intermediate arrays, from one boundary to the next -/

theorem keep2_main_v1 (c : Dev nD) : W2 m ρ c (Proc.devRef .tc main_v1) = W1 m ρ c (Proc.devRef .tc main_v1) :=
  W2_of_ne m ρ c main_v1 (by decide)
theorem keep3_main_v1 (c : Dev nD) : W3 m ρ c (Proc.devRef .tc main_v1) = W2 m ρ c (Proc.devRef .tc main_v1) :=
  StableHlo.after_of_forall_not_mem (b := Proc.devRef .tc main_v1) _ _ (not_written hostOps1)
theorem keep4_main_v1 (c : Dev nD) : W4 m ρ c (Proc.devRef .tc main_v1) = W3 m ρ c (Proc.devRef .tc main_v1) :=
  W4_of_ne m ρ c main_v1 (by decide)
theorem keep2_main_v3 (c : Dev nD) : W2 m ρ c (Proc.devRef .tc main_v3) = W1 m ρ c (Proc.devRef .tc main_v3) :=
  W2_of_ne m ρ c main_v3 (by decide)
theorem keep3_main_v3 (c : Dev nD) : W3 m ρ c (Proc.devRef .tc main_v3) = W2 m ρ c (Proc.devRef .tc main_v3) :=
  StableHlo.after_of_forall_not_mem (b := Proc.devRef .tc main_v3) _ _ (not_written hostOps1)
theorem keep4_main_v3 (c : Dev nD) : W4 m ρ c (Proc.devRef .tc main_v3) = W3 m ρ c (Proc.devRef .tc main_v3) :=
  W4_of_ne m ρ c main_v3 (by decide)
theorem keep3_main_v14 (c : Dev nD) : W3 m ρ c (Proc.devRef .tc main_v14) = W2 m ρ c (Proc.devRef .tc main_v14) :=
  StableHlo.after_of_forall_not_mem (b := Proc.devRef .tc main_v14) _ _ (not_written hostOps1)
theorem keep4_main_v14 (c : Dev nD) : W4 m ρ c (Proc.devRef .tc main_v14) = W3 m ρ c (Proc.devRef .tc main_v14) :=
  (W4_arr m ρ c 0).trans (((dat1 (V3 m ρ) c).arrAt_in 0 rfl _).trans (A_eq1 (V3 m ρ) c 0))
theorem keep5_main_v14 (c : Dev nD) : W5 m ρ c (Proc.devRef .tc main_v14) = W4 m ρ c (Proc.devRef .tc main_v14) :=
  StableHlo.after_of_forall_not_mem (b := Proc.devRef .tc main_v14) _ _ (not_written hostOps2)
theorem keep6_main_v14 (c : Dev nD) : W6 m ρ c (Proc.devRef .tc main_v14) = W5 m ρ c (Proc.devRef .tc main_v14) :=
  W6_of_ne m ρ c main_v14 (by decide)
theorem keep5_main_v25 (c : Dev nD) : W5 m ρ c (Proc.devRef .tc main_v25) = W4 m ρ c (Proc.devRef .tc main_v25) :=
  StableHlo.after_of_forall_not_mem (b := Proc.devRef .tc main_v25) _ _ (not_written hostOps2)
theorem keep6_main_v25 (c : Dev nD) : W6 m ρ c (Proc.devRef .tc main_v25) = W5 m ρ c (Proc.devRef .tc main_v25) :=
  (W6_arr m ρ c 0).trans (((dat2 (V5 m ρ) c).arrAt_in 0 rfl _).trans (A_eq2 (V5 m ρ) c 0))

end Cert.KernelIdeal.Keep

end
-- ==== Proof.Spec.lean ====
/-
  The arithmetic of the network, one node (or one graph) at a time, over the extended reals.

  A layer takes a node's 64 features `u` (the node's own row plus the sum of its in-neighbours' rows), applies a
  64 × 64 linear map and a bias, normalises each coordinate with fixed statistics — subtract the mean, multiply by
  the reciprocal square root of the variance plus a small constant, scale, shift —, clamps at zero, applies a
  second linear map and bias, and clamps at zero again. The head takes a graph's 192 pooled features, applies a
  192 × 192 linear map, a bias and a clamp, then a 192 × 2 map and a bias: the two scores; the probabilities are
  the scores' exponentials, shifted by their maximum, over their sum.
-/
import Idealize.ShloMosaic.Lib.ValueIdx
import Idealize.ShloMosaic.PureOps.Ideal.Laws

noncomputable section

open scoped BigOperators

namespace Cert.Spec

open Idealize.ShloMosaic Idealize.ShloMosaic.ValueIdx

/-- A vector of 64 exact values, a 64 × 64 matrix of them. -/
abbrev V64 : Type := FVec Ideal ⟨1, ![64]⟩ .f32
abbrev M64 : Type := FVec Ideal ⟨2, ![64, 64]⟩ .f32

/-- The zero every clamp compares with, and the small constant added to a variance: the same words in both programs. -/
abbrev zeroR : EReal := Ideal.ofBits .f32 0x00000000#32
abbrev epsR : EReal := Ideal.ofBits .f32 0x3727C5AC#32

/-- Coordinate `k` of a node's hidden activation: `max (((u·W1 + b1 − rm) · rsqrt (rv + ε)) · γ + β) 0`. -/
def hidden (u : Fin 64 → EReal) (W1 : M64) (b1 g be rm rv : V64) (k : Fin 64) : EReal :=
  max ((((∑ j : Fin 64, u j * W1 (ix2 j k)) + b1 (ix1 k) - rm (ix1 k)) * Ideal.rsqrt (rv (ix1 k) + epsR)) * g (ix1 k)
    + be (ix1 k)) zeroR

/-- Coordinate `q` of a node's new features: `max (hidden·W2 + b2) 0`. -/
def layer (u : Fin 64 → EReal) (W1 : M64) (b1 g be rm rv : V64) (W2 : M64) (b2 : V64) (q : Fin 64) : EReal :=
  max ((∑ k : Fin 64, hidden u W1 b1 g be rm rv k * W2 (ix2 k q)) + b2 (ix1 q)) zeroR

/-! ## The head -/

/-- The head's parameter shapes: a 64-row slab of the 192 × 192 matrix, its bias, the 192 × 2 matrix, its bias. -/
abbrev Slab : Type := FVec Ideal ⟨2, ![64, 192]⟩ .f32
abbrev V192 : Type := FVec Ideal ⟨1, ![192]⟩ .f32
abbrev M192x2 : Type := FVec Ideal ⟨2, ![192, 2]⟩ .f32
abbrev V2 : Type := FVec Ideal ⟨1, ![2]⟩ .f32

/-- The first matrix of the head, and rows `o … o + 63` of it as a slab. -/
abbrev M192 : Type := FVec Ideal ⟨2, ![192, 192]⟩ .f32
def slab (W : M192) (o : Nat) (ho : o + 64 ≤ 192) : Slab :=
  fun i => W (ix2 (⟨o + (i 0).val, by have := idx2_lt0 i; omega⟩ : Fin 192) (⟨(i 1).val, (i 1).isLt⟩ : Fin 192))

/-- Entry `(j, k)` of the slab is entry `(o + j, k)` of the matrix. -/
theorem slab_apply (W : M192) (o : Nat) (ho : o + 64 ≤ 192) (j : Fin 64) (k : Fin 192) (jj : Fin 192) (h : jj.val = o + j.val) :
    slab W o ho (ix2 j k) = W (ix2 jj k) := by
  unfold slab
  refine congrArg W (funext fun a => Fin.ext ?_)
  match a with
  | ⟨0, _⟩ => exact h.symm
  | ⟨1, _⟩ => rfl

/-- Minus infinity: what a running maximum starts from. -/
abbrev negInfR : EReal := Ideal.ofBits .f32 0xFF800000#32

/-- Coordinate `k` of a graph's hidden activation: its three pooled blocks `u1 u2 u3`, each times its own 64-row slab of
    the first matrix, added in that order, plus the bias, clamped at zero. -/
def headHidden (u1 u2 u3 : Fin 64 → EReal) (A1 A2 A3 : Slab) (b : V192) (k : Fin 192) : EReal :=
  max ((((∑ j : Fin 64, u1 j * A1 (ix2 j k)) + ∑ j : Fin 64, u2 j * A2 (ix2 j k)) + ∑ j : Fin 64, u3 j * A3 (ix2 j k))
    + b (ix1 k)) zeroR

/-- A graph's score `s`: the hidden activation times the second matrix, plus its bias. -/
def score (u1 u2 u3 : Fin 64 → EReal) (A1 A2 A3 : Slab) (b : V192) (W2 : M192x2) (b2 : V2) (s : Fin 2) : EReal :=
  (∑ k : Fin 192, headHidden u1 u2 u3 A1 A2 A3 b k * W2 (ix2 k s)) + b2 (ix1 s)

/-- The larger of a graph's two scores (never below minus infinity). -/
def rowMax (l : Fin 2 → EReal) : EReal := max negInfR ((Finset.univ : Finset (Fin 2)).fold max negInfR l)

/-- A graph's probability `s`: its score's exponential, shifted by the maximum, over the sum of both. -/
def prob (l : Fin 2 → EReal) (s : Fin 2) : EReal :=
  Ideal.div (Ideal.exp (l s - rowMax l)) (∑ s' : Fin 2, Ideal.exp (l s' - rowMax l))

end Cert.Spec

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.LibRows.lean ====
/-
  General facts about arrays of extended reals read at an entry, used by the layer and head lemmas:
  a host matrix product M × K by K × N at entry (a, b) is the sum over c of A (a, c) · B (c, b) (the same sum a
  matmul into the zero accumulator gives); a length-N vector laid out as one row and repeated down M rows reads,
  at (a, b), the vector at b; a length-M vector laid out as one column and repeated across N columns reads the
  vector at a; a scalar repeated over any shape reads the scalar; and a sum over 192 terms is the sum of its
  three consecutive runs of 64.
-/
import Idealize.ShloMosaic.Lib.ValueIdx
import Idealize.ShloMosaic.Lib.ValueLayout
import Idealize.ShloMosaic.Lib.Pipeline.Value
import Idealize.ShloMosaic.PureOps.Ideal.Laws
import proofs.«136053_j26774826123547_1_alg».proof.Proof.LibMatmul

noncomputable section

open scoped BigOperators

namespace Cert.LibRows

open Idealize.ShloMosaic Idealize.ShloMosaic.ValueIdx

/-- The contraction sum of a plain M × K by K × N product at entry `(a, b)`, re-indexed by the contracted
    coordinate: `∑ c, A (a, c) · B (c, b)`. -/
theorem plain_contr_sum {M K N : Nat} {φ₁ φ₂ : FTy}
    (A : FVec Ideal ⟨2, ![M, K]⟩ φ₁) (B : FVec Ideal ⟨2, ![K, N]⟩ φ₂) (a : Fin M) (b : Fin N) :
    (∑ k : (DotDims.plain M K N).contr.Idx,
        A ((DotDims.plain M K N).lhsIdx (ix2 a b) k) * B ((DotDims.plain M K N).rhsIdx (ix2 a b) k))
      = ∑ c : Fin K, A (ix2 a c) * B (ix2 c b) :=
  (Ideal.matmul_constant_zero_apply (DotDims.plain M K N) none A B (ix2 a b)).symm.trans
    (Cert.LibMatmul.matmul_plain_zero_apply none A B a b)

/-- A host `dot_general` of an M × K by a K × N matrix, at the exact values and at entry `(a, b)`, is
    `∑ c, A (a, c) · B (c, b)`. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) :=
  (Ideal.dotGeneral_apply (DotDims.plain M K N) prec sched A B (ix2 a b)).trans (plain_contr_sum A B a b)

variable {α : Type}

/-- A vector of length N cast to one row and repeated down M rows: entry `(a, b)` is the vector's entry `b`. -/
theorem rowBroadcastTo_apply {M N : Nat} (v : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (a : Fin M) (b : Fin N) :
    broadcastTo ⟨2, ![M, N]⟩ (shapeCast ⟨2, ![1, N]⟩ v h1) h2 (ix2 a b) = v (ix1 b) := by
  rw [broadcastTo_apply _ h2 (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact shapeCast_a_1a_apply v h1 0 b

/-- The host form of the same: a vector placed along axis 1 of a 1 × N array, then along both axes of an M × N one. -/
theorem rowBroadcastInDim_apply {M N : Nat} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (a : Fin M) (b : Fin N) :
    broadcastInDim ⟨2, ![M, N]⟩ ![0, 1] h2 (broadcastInDim ⟨2, ![1, N]⟩ ![1] h1 v) (ix2 a b) = v (ix1 b) := by
  rw [broadcastInDim_apply ![0, 1] h2 _ (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact broadcastInDim_apply ![1] h1 v (ix2 (0 : Fin 1) b) (ix1 b) (fun c => by
    match c with
    | ⟨0, _⟩ =>
      show b.val = if N = 1 then 0 else b.val
      split
      · have := b.isLt; omega
      · rfl)

/-- A vector of length M cast to one column and repeated across N columns: entry `(a, b)` is the vector's entry `a`. -/
theorem colBroadcastTo_apply {M N : Nat} (v : (⟨1, ![M]⟩ : Shape).Idx → α)
    (h1 : (⟨1, ![M]⟩ : Shape).ShapeCasts ⟨2, ![M, 1]⟩) (h2 : (⟨2, ![M, 1]⟩ : Shape).Broadcasts ⟨2, ![M, N]⟩)
    (a : Fin M) (b : Fin N) :
    broadcastTo ⟨2, ![M, N]⟩ (shapeCast ⟨2, ![M, 1]⟩ v h1) h2 (ix2 a b) = v (ix1 a) := by
  rw [broadcastTo_apply _ h2 (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact shapeCast_apply v h1 _ _ (by
    rw [Shape.rowMajor_val_two, Shape.rowMajor_val_one]
    show a.val = a.val * 1 + 0
    omega)

/-- The host form: a vector placed along axis 0 of an M × 1 array, then along both axes of an M × N one. -/
theorem colBroadcastInDim_apply {M N : Nat} (v : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (a : Fin M) (b : Fin N) :
    broadcastInDim ⟨2, ![M, N]⟩ ![0, 1] h2 (broadcastInDim ⟨2, ![M, 1]⟩ ![0] h1 v) (ix2 a b) = v (ix1 a) := by
  rw [broadcastInDim_apply ![0, 1] h2 _ (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact broadcastInDim_apply ![0] h1 v (ix2 a (0 : Fin 1)) (ix1 a) (fun c => by
    match c with
    | ⟨0, _⟩ =>
      show a.val = if M = 1 then 0 else a.val
      split
      · have := a.isLt; omega
      · rfl)

/-- A scalar placed along no axis of any shape reads the scalar everywhere. -/
theorem splatInDim_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 (fun c => c.elim0)

/-- Putting coordinate `k` back on axis 1 of a row index `g` gives the entry `(g, k)`. -/
theorem lift_axis1 {m n : Nat} (h : (⟨2, ![m, n]⟩ : Shape).Reduces [1] (⟨1, ![m]⟩ : Shape)) (g : Fin m)
    (k : Fin ((⟨2, ![m, n]⟩ : Shape).size 1)) : h.lift (ix1 g) k = ix2 g (⟨k.val, k.isLt⟩ : Fin n) := by
  funext c; apply Fin.ext
  fin_cases c <;> rfl

/-- A sum of 192 terms is the sum of its three consecutive runs of 64 terms. -/
theorem sum_192_split {M : Type*} [AddCommMonoid M] (f : Fin 192 → M) :
    ∑ k : Fin 192, f k
      = (∑ k : Fin 64, f ⟨k.val, by omega⟩) + (∑ k : Fin 64, f ⟨64 + k.val, by omega⟩)
        + ∑ k : Fin 64, f ⟨128 + k.val, by omega⟩ := by
  have e : ∑ k : Fin 192, f k = ∑ k : Fin (64 + 64 + 64), f (k.cast (by norm_num)) := by
    exact (Fin.castOrderIso (by norm_num : 64 + 64 + 64 = 192)).toEquiv.sum_comp f |>.symm
  rw [e, Fin.sum_univ_add, Fin.sum_univ_add]
  rfl

end Cert.LibRows

end
-- ==== Proof.GinKernel.lean ====
/-
  The three layer kernels' bodies, read at one entry. A body adds its two 5000 × 64 input blocks, multiplies by the
  first 64 × 64 matrix, adds the bias, normalises, clamps, multiplies by the second matrix, adds its bias and clamps:
  entry (p, q) of the stored block is the layer's arithmetic (Spec) applied to row p of the two blocks added. The
  narrowing of a product's operands to a shorter float format changes nothing at the exact values.
-/
import proofs.«136053_j26774826123547_1_alg».proof.Proof.Gen.KernelIdeal.Skeleton
import proofs.«136053_j26774826123547_1_alg».proof.Proof.Spec
import proofs.«136053_j26774826123547_1_alg».proof.Proof.LibRows

noncomputable section

open scoped BigOperators

namespace Cert.KernelIdeal.Pay

open Cert.KernelIdeal Cert.KernelIdeal.Gen Idealize.ShloMosaic Idealize.ShloMosaic.ValueIdx Cert.Spec

/-- A 5000 × 64 block times a 64 × 64 matrix into the zero accumulator, at entry `(p, q)`. -/
theorem mm_apply {φ₁ φ₂ : FTy} (X : FVec Ideal S5000x64 φ₁) (W : FVec Ideal S64x64 φ₂) (p : Fin 5000) (q : Fin 64) :
    matmul dot_S5000x64_S64x64_S5000x64_1_0_0_1_n_n none X W (constant (F := Ideal) S5000x64 .f32 0x00000000#32) (ix2 p q)
      = ∑ c : Fin 64, X (ix2 p c) * W (ix2 c q) :=
  Cert.LibMatmul.matmul_plain_zero_apply none X W p q

/-- A vector of 64 laid out as one row and repeated down the block's 5000 rows. -/
abbrev rowT {F : FTy → Type} [FloatOps F] (v : FVec F S64 .f32) : FVec F S5000x64 .f32 :=
  broadcastTo S5000x64 (shapeCast S1x64 v shapeCasts_S64_S1x64) broadcasts_S1x64_S5000x64

theorem row_apply (v : FVec Ideal S64 .f32) (p : Fin 5000) (q : Fin 64) : rowT v (ix2 p q) = v (ix1 q) :=
  Cert.LibRows.rowBroadcastTo_apply v _ _ p q

/-- The block of hidden activations the body computes from the block `u` of summed inputs. -/
def hidK (u : FVec Ideal S5000x64 .f32) (W1 : FVec Ideal S64x64 .f32) (b1 rm rv g be : FVec Ideal S64 .f32) :
    FVec Ideal S5000x64 .f32 :=
  maximumf (addf (mulf (mulf (subf (addf
      (matmul dot_S5000x64_S64x64_S5000x64_1_0_0_1_n_n none (truncf .bf16 u bitsLt_bf16_f32) (truncf .bf16 W1 bitsLt_bf16_f32)
        (constant (F := Ideal) S5000x64 .f32 0x00000000#32))
      (rowT b1)) (rowT rm)) (rowT (rsqrt (addf rv (broadcast S64 (Scalar.ofBits .f32 0x3727C5AC#32)))))) (rowT g)) (rowT be))
    (broadcast S5000x64 (Scalar.ofBits .f32 0x00000000#32))

/-- Entry `(p, k)` of that block is the hidden activation of row `p` of `u`. -/
theorem hid_apply (u : FVec Ideal S5000x64 .f32) (W1 : FVec Ideal S64x64 .f32) (b1 rm rv g be : FVec Ideal S64 .f32)
    (p : Fin 5000) (k : Fin 64) :
    hidK u W1 b1 rm rv g be (ix2 p k) = hidden (fun j => u (ix2 p j)) W1 b1 g be rm rv k := by
  unfold hidK
  show max ((((matmul dot_S5000x64_S64x64_S5000x64_1_0_0_1_n_n none (truncf .bf16 u bitsLt_bf16_f32) (truncf .bf16 W1 bitsLt_bf16_f32)
        (constant (F := Ideal) S5000x64 .f32 0x00000000#32) (ix2 p k) + rowT b1 (ix2 p k)) - rowT rm (ix2 p k))
      * rowT (rsqrt (addf rv (broadcast S64 (Scalar.ofBits .f32 0x3727C5AC#32)))) (ix2 p k)) * rowT g (ix2 p k) + rowT be (ix2 p k)) zeroR = _
  rw [mm_apply, row_apply, row_apply, row_apply, row_apply, row_apply]
  rfl

/-- Layer kernel 0, one block of 5000 rows: entry `(p, q)` of what the body stores is the layer's arithmetic on row `p`
    of the two input blocks added. -/
theorem pay0_apply (x0 x1 : FVec Ideal S5000x64 .f32) (W1 : FVec Ideal S64x64 .f32) (b1 rm rv g be : FVec Ideal S64 .f32)
    (W2 : FVec Ideal S64x64 .f32) (b2 : FVec Ideal S64 .f32) (p : Fin 5000) (q : Fin 64) :
    k0_pay1 (F := Ideal) (k0_pay2 x0 x1 W1 b1 rm rv g be W2 b2) (ix2 p q)
      = layer (fun j => x0 (ix2 p j) + x1 (ix2 p j)) W1 b1 g be rm rv W2 b2 q := by
  unfold k0_pay1 k0_pay2
  show max (matmul dot_S5000x64_S64x64_S5000x64_1_0_0_1_n_n none
        (truncf .bf16 (hidK (addf x0 (shapeCast S5000x64 x1 shapeCasts_S5000x64_S5000x64)) W1 b1 rm rv g be) bitsLt_bf16_f32)
        (truncf .bf16 W2 bitsLt_bf16_f32) (constant (F := Ideal) S5000x64 .f32 0x00000000#32) (ix2 p q) + rowT b2 (ix2 p q)) zeroR = _
  rw [mm_apply, row_apply]
  unfold layer
  refine congrArg (fun s => max (s + b2 (ix1 q)) zeroR) (Finset.sum_congr rfl fun k _ => ?_)
  show hidK _ W1 b1 rm rv g be (ix2 p k) * W2 (ix2 k q) = _
  rw [hid_apply, shapeCast_self]
  rfl

/-- Layer kernel 1, one block of 5000 rows: entry `(p, q)` of what the body stores is the layer's arithmetic on row `p`
    of the two input blocks added. -/
theorem pay1_apply (x0 x1 : FVec Ideal S5000x64 .f32) (W1 : FVec Ideal S64x64 .f32) (b1 rm rv g be : FVec Ideal S64 .f32)
    (W2 : FVec Ideal S64x64 .f32) (b2 : FVec Ideal S64 .f32) (p : Fin 5000) (q : Fin 64) :
    k1_pay1 (F := Ideal) (k1_pay2 x0 x1 W1 b1 rm rv g be W2) (k1_pay3 b2) (ix2 p q)
      = layer (fun j => x0 (ix2 p j) + x1 (ix2 p j)) W1 b1 g be rm rv W2 b2 q := by
  unfold k1_pay1 k1_pay2 k1_pay3
  show max (matmul dot_S5000x64_S64x64_S5000x64_1_0_0_1_n_n none
        (truncf .bf16 (hidK (addf (shapeCast S5000x64 x0 shapeCasts_S5000x64_S5000x64) (shapeCast S5000x64 x1 shapeCasts_S5000x64_S5000x64)) W1 b1 rm rv g be) bitsLt_bf16_f32)
        (truncf .bf16 W2 bitsLt_bf16_f32) (constant (F := Ideal) S5000x64 .f32 0x00000000#32) (ix2 p q) + rowT b2 (ix2 p q)) zeroR = _
  rw [mm_apply, row_apply]
  unfold layer
  refine congrArg (fun s => max (s + b2 (ix1 q)) zeroR) (Finset.sum_congr rfl fun k _ => ?_)
  show hidK _ W1 b1 rm rv g be (ix2 p k) * W2 (ix2 k q) = _
  rw [hid_apply, shapeCast_self, shapeCast_self]
  rfl

/-- Layer kernel 2, one block of 5000 rows: entry `(p, q)` of what the body stores is the layer's arithmetic on row `p`
    of the two input blocks added. -/
theorem pay2_apply (x0 x1 : FVec Ideal S5000x64 .f32) (W1 : FVec Ideal S64x64 .f32) (b1 rm rv g be : FVec Ideal S64 .f32)
    (W2 : FVec Ideal S64x64 .f32) (b2 : FVec Ideal S64 .f32) (p : Fin 5000) (q : Fin 64) :
    k2_pay1 (F := Ideal) (k2_pay2 x0 x1 W1 b1 rm rv g be W2) (k2_pay3 b2) (ix2 p q)
      = layer (fun j => x0 (ix2 p j) + x1 (ix2 p j)) W1 b1 g be rm rv W2 b2 q := by
  unfold k2_pay1 k2_pay2 k2_pay3
  show max (matmul dot_S5000x64_S64x64_S5000x64_1_0_0_1_n_n none
        (truncf .bf16 (hidK (addf (shapeCast S5000x64 x0 shapeCasts_S5000x64_S5000x64) (shapeCast S5000x64 x1 shapeCasts_S5000x64_S5000x64)) W1 b1 rm rv g be) bitsLt_bf16_f32)
        (truncf .bf16 W2 bitsLt_bf16_f32) (constant (F := Ideal) S5000x64 .f32 0x00000000#32) (ix2 p q) + rowT b2 (ix2 p q)) zeroR = _
  rw [mm_apply, row_apply]
  unfold layer
  refine congrArg (fun s => max (s + b2 (ix1 q)) zeroR) (Finset.sum_congr rfl fun k _ => ?_)
  show hidK _ W1 b1 rm rv g be (ix2 p k) * W2 (ix2 k q) = _
  rw [hid_apply, shapeCast_self, shapeCast_self]
  rfl

end Cert.KernelIdeal.Pay

end
-- ==== Proof.GinRef.lean ====
/-
  One layer of the reference, read at one entry: entry (r, q) of the updated node array is the layer's arithmetic
  (Spec) applied to row r of the node's own features plus its neighbours' sum.
-/
import proofs.«136053_j26774826123547_1_alg».proof.Proof.RefTerms
import proofs.«136053_j26774826123547_1_alg».proof.Proof.Spec
import proofs.«136053_j26774826123547_1_alg».proof.Proof.LibRows

noncomputable section

open scoped BigOperators

namespace Cert.RefTerms

open Cert.ReferenceIdeal Cert.ReferenceIdeal.Gen Idealize.ShloMosaic Idealize.ShloMosaic.ValueIdx Cert.Spec

/-- The node array times a 64 × 64 matrix, at entry `(r, q)`. -/
theorem dotN_apply (l : FVec Ideal S100000x64 .f32) (w : FVec Ideal S64x64 .f32) (r : Fin 100000) (q : Fin 64) :
    Host.dotGeneral (F := Ideal) dot_S100000x64_S64x64_S100000x64_1_0_0_1_n_n none l w (ix2 r q)
      = ∑ c : Fin 64, l (ix2 r c) * w (ix2 c q) :=
  Cert.LibRows.dotGeneral_plain_apply none _ l w r q

theorem rowB_apply (v : FVec Ideal S64 .f32) (r : Fin 100000) (q : Fin 64) : rowB (F := Ideal) v (ix2 r q) = v (ix1 q) :=
  Cert.LibRows.rowBroadcastInDim_apply v _ _ r q

theorem zeroN_apply (i : S100000x64.Idx) : zeroN (F := Ideal) i = zeroR :=
  Cert.LibRows.splatInDim_apply _ _ i

theorem invStd_apply (rv : FVec Ideal S64 .f32) (k : Fin 64) : invStd (F := Ideal) rv (ix1 k) = Ideal.rsqrt (rv (ix1 k) + epsR) := by
  unfold invStd
  show Ideal.rsqrt (rv (ix1 k) + broadcastInDim S64 ![] bcast_S_S64 (constant (F := Ideal) S_ .f32 0x3727C5AC#32) (ix1 k)) = _
  rw [Cert.LibRows.splatInDim_apply]
  rfl

/-- Entry `(r, k)` of the hidden activations is the hidden activation of row `r`. -/
theorem hiddenN_apply (u : FVec Ideal S100000x64 .f32) (W1 : FVec Ideal S64x64 .f32) (b1 g be rm rv : FVec Ideal S64 .f32) (r : Fin 100000) (k : Fin 64) :
    hiddenN (F := Ideal) u W1 b1 g be rm rv (ix2 r k) = hidden (fun j => u (ix2 r j)) W1 b1 g be rm rv k := by
  unfold hiddenN
  show max ((((Host.dotGeneral (F := Ideal) dot_S100000x64_S64x64_S100000x64_1_0_0_1_n_n none u W1 (ix2 r k) + rowB (F := Ideal) b1 (ix2 r k))
      - rowB (F := Ideal) rm (ix2 r k)) * rowB (F := Ideal) (invStd (F := Ideal) rv) (ix2 r k)) * rowB (F := Ideal) g (ix2 r k) + rowB (F := Ideal) be (ix2 r k)) (zeroN (F := Ideal) (ix2 r k)) = _
  rw [dotN_apply, rowB_apply, rowB_apply, rowB_apply, rowB_apply, rowB_apply, zeroN_apply, invStd_apply]
  rfl

/-- Entry `(r, q)` of a layer's output is the layer's arithmetic on row `r` of `h + a`. -/
theorem gin_apply (h a : FVec Ideal S100000x64 .f32) (W1 : FVec Ideal S64x64 .f32) (b1 g be rm rv : FVec Ideal S64 .f32) (W2 : FVec Ideal S64x64 .f32) (b2 : FVec Ideal S64 .f32)
    (r : Fin 100000) (q : Fin 64) :
    gin (F := Ideal) h a W1 b1 g be rm rv W2 b2 (ix2 r q) = layer (fun j => h (ix2 r j) + a (ix2 r j)) W1 b1 g be rm rv W2 b2 q := by
  unfold gin
  show max (Host.dotGeneral (F := Ideal) dot_S100000x64_S64x64_S100000x64_1_0_0_1_n_n none (hiddenN (F := Ideal) (addf h a) W1 b1 g be rm rv) W2 (ix2 r q)
      + rowB (F := Ideal) b2 (ix2 r q)) (zeroN (F := Ideal) (ix2 r q)) = _
  rw [dotN_apply, rowB_apply, zeroN_apply]
  unfold layer
  refine congrArg (fun s => max (s + b2 (ix1 q)) zeroR) (Finset.sum_congr rfl fun k _ => ?_)
  rw [hiddenN_apply]
  rfl

end Cert.RefTerms

end
-- ==== Proof.GinRegion0.lean ====
/-
  Layer region 0: the array its output window ends holding. The grid has 20 points; point t reads rows
  5000·t … 5000·t + 4999 of the two node arrays and the whole of each parameter array, and writes the same rows of the
  output. Every row of the output is in exactly one point's block, so the output array ends as the reference's layer
  (RefTerms.gin) of the arrays the region found: entry by entry both are the layer's arithmetic on that row.
-/
import proofs.«136053_j26774826123547_1_alg».proof.Proof.Gen.KernelIdeal.Frame
import proofs.«136053_j26774826123547_1_alg».proof.Proof.GinKernel
import proofs.«136053_j26774826123547_1_alg».proof.Proof.GinRef
import Idealize.ShloMosaic.Lib.Pipeline.Value

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The index maps over the grid: the two node windows and the output move one block of rows per point, the
    parameter windows stay at block zero -/

theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_3 : ∀ t : Fin cfg0.N, win0_3.index t (0 : Fin 1) = 0 :=
  (by decide +kernel : ∀ t : Fin grid0.N, win0_3.index t (0 : Fin 1) = 0)
theorem idx_4 : ∀ t : Fin cfg0.N, win0_4.index t (0 : Fin 1) = 0 :=
  (by decide +kernel : ∀ t : Fin grid0.N, win0_4.index t (0 : Fin 1) = 0)
theorem idx_5 : ∀ t : Fin cfg0.N, win0_5.index t (0 : Fin 1) = 0 :=
  (by decide +kernel : ∀ t : Fin grid0.N, win0_5.index t (0 : Fin 1) = 0)
theorem idx_6 : ∀ t : Fin cfg0.N, win0_6.index t (0 : Fin 1) = 0 :=
  (by decide +kernel : ∀ t : Fin grid0.N, win0_6.index t (0 : Fin 1) = 0)
theorem idx_7 : ∀ t : Fin cfg0.N, win0_7.index t (0 : Fin 1) = 0 :=
  (by decide +kernel : ∀ t : Fin grid0.N, win0_7.index t (0 : Fin 1) = 0)
theorem idx_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_9 : ∀ t : Fin cfg0.N, win0_9.index t (0 : Fin 1) = 0 :=
  (by decide +kernel : ∀ t : Fin grid0.N, win0_9.index t (0 : Fin 1) = 0)
theorem idx_10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-! ## The input blocks as pieces of their arrays -/

/-- Row `p` of input window 0's block at point `t` is row `t · 5000 + p` of its array. -/
theorem rows_0 (c : Dev nD) (t : Fin cfg0.N) (p : Fin 5000) (j : Fin 64) (r : Fin 100000) (hr : r.val = t.val * 5000 + p.val) :
    (iblk0 V c 0 t : FVec Ideal S5000x64 .f32) (ix2 p j) = (V c main_arg0 : FVec Ideal S100000x64 .f32) (ix2 r j) := by
  obtain ⟨e0, e1⟩ := idx_0 t
  unfold iblk0
  rw [View.read_apply]
  show (V c main_arg0 : FVec Ideal S100000x64 .f32) _ = _
  refine congrArg (V c main_arg0 : FVec Ideal S100000x64 .f32) (funext fun a => Fin.ext ?_)
  match a with
  | ⟨0, _⟩ => show win0_0.index t (0 : Fin 2) * 5000 + 1 * p.val = r.val; rw [e0, hr]; omega
  | ⟨1, _⟩ => show win0_0.index t (1 : Fin 2) * 64 + 1 * j.val = j.val; rw [e1]; omega

/-- Row `p` of input window 1's block at point `t` is row `t · 5000 + p` of its array. -/
theorem rows_1 (c : Dev nD) (t : Fin cfg0.N) (p : Fin 5000) (j : Fin 64) (r : Fin 100000) (hr : r.val = t.val * 5000 + p.val) :
    (iblk0 V c 1 t : FVec Ideal S5000x64 .f32) (ix2 p j) = (V c main_v13 : FVec Ideal S100000x64 .f32) (ix2 r j) := by
  obtain ⟨e0, e1⟩ := idx_1 t
  unfold iblk0
  rw [View.read_apply]
  show (V c main_v13 : FVec Ideal S100000x64 .f32) _ = _
  refine congrArg (V c main_v13 : FVec Ideal S100000x64 .f32) (funext fun a => Fin.ext ?_)
  match a with
  | ⟨0, _⟩ => show win0_1.index t (0 : Fin 2) * 5000 + 1 * p.val = r.val; rw [e0, hr]; omega
  | ⟨1, _⟩ => show win0_1.index t (1 : Fin 2) * 64 + 1 * j.val = j.val; rw [e1]; omega

/-- Input window 2's block is its whole array at every point. -/
theorem whole_2 (c : Dev nD) (t : Fin cfg0.N) :
    (iblk0 V c 2 t : FVec Ideal S64x64 .f32) = (V c main_arg3 : FVec Ideal S64x64 .f32) := by
  obtain ⟨e0, e1⟩ := idx_2 t
  funext y
  unfold iblk0
  rw [View.read_apply]
  show (V c main_arg3 : FVec Ideal S64x64 .f32) _ = _
  refine congrArg (V c main_arg3 : FVec Ideal S64x64 .f32) (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- Input window 3's block is its whole array at every point. -/
theorem whole_3 (c : Dev nD) (t : Fin cfg0.N) :
    (iblk0 V c 3 t : FVec Ideal S64 .f32) = (V c main_arg4 : FVec Ideal S64 .f32) := by
  have e0 := idx_3 t
  funext y
  unfold iblk0
  rw [View.read_apply]
  show (V c main_arg4 : FVec Ideal S64 .f32) _ = _
  refine congrArg (V c main_arg4 : FVec Ideal S64 .f32) (funext fun a => Fin.ext ?_)
  match a with
  | ⟨0, _⟩ => show win0_3.index t (0 : Fin 1) * 64 + 1 * (y 0).val = (y 0).val; rw [e0]; omega

/-- Input window 4's block is its whole array at every point. -/
theorem whole_4 (c : Dev nD) (t : Fin cfg0.N) :
    (iblk0 V c 4 t : FVec Ideal S64 .f32) = (V c main_arg5 : FVec Ideal S64 .f32) := by
  have e0 := idx_4 t
  funext y
  unfold iblk0
  rw [View.read_apply]
  show (V c main_arg5 : FVec Ideal S64 .f32) _ = _
  refine congrArg (V c main_arg5 : FVec Ideal S64 .f32) (funext fun a => Fin.ext ?_)
  match a with
  | ⟨0, _⟩ => show win0_4.index t (0 : Fin 1) * 64 + 1 * (y 0).val = (y 0).val; rw [e0]; omega

/-- Input window 5's block is its whole array at every point. -/
theorem whole_5 (c : Dev nD) (t : Fin cfg0.N) :
    (iblk0 V c 5 t : FVec Ideal S64 .f32) = (V c main_arg6 : FVec Ideal S64 .f32) := by
  have e0 := idx_5 t
  funext y
  unfold iblk0
  rw [View.read_apply]
  show (V c main_arg6 : FVec Ideal S64 .f32) _ = _
  refine congrArg (V c main_arg6 : FVec Ideal S64 .f32) (funext fun a => Fin.ext ?_)
  match a with
  | ⟨0, _⟩ => show win0_5.index t (0 : Fin 1) * 64 + 1 * (y 0).val = (y 0).val; rw [e0]; omega

/-- Input window 6's block is its whole array at every point. -/
theorem whole_6 (c : Dev nD) (t : Fin cfg0.N) :
    (iblk0 V c 6 t : FVec Ideal S64 .f32) = (V c main_arg7 : FVec Ideal S64 .f32) := by
  have e0 := idx_6 t
  funext y
  unfold iblk0
  rw [View.read_apply]
  show (V c main_arg7 : FVec Ideal S64 .f32) _ = _
  refine congrArg (V c main_arg7 : FVec Ideal S64 .f32) (funext fun a => Fin.ext ?_)
  match a with
  | ⟨0, _⟩ => show win0_6.index t (0 : Fin 1) * 64 + 1 * (y 0).val = (y 0).val; rw [e0]; omega

/-- Input window 7's block is its whole array at every point. -/
theorem whole_7 (c : Dev nD) (t : Fin cfg0.N) :
    (iblk0 V c 7 t : FVec Ideal S64 .f32) = (V c main_arg8 : FVec Ideal S64 .f32) := by
  have e0 := idx_7 t
  funext y
  unfold iblk0
  rw [View.read_apply]
  show (V c main_arg8 : FVec Ideal S64 .f32) _ = _
  refine congrArg (V c main_arg8 : FVec Ideal S64 .f32) (funext fun a => Fin.ext ?_)
  match a with
  | ⟨0, _⟩ => show win0_7.index t (0 : Fin 1) * 64 + 1 * (y 0).val = (y 0).val; rw [e0]; omega

/-- Input window 8's block is its whole array at every point. -/
theorem whole_8 (c : Dev nD) (t : Fin cfg0.N) :
    (iblk0 V c 8 t : FVec Ideal S64x64 .f32) = (V c main_arg9 : FVec Ideal S64x64 .f32) := by
  obtain ⟨e0, e1⟩ := idx_8 t
  funext y
  unfold iblk0
  rw [View.read_apply]
  show (V c main_arg9 : FVec Ideal S64x64 .f32) _ = _
  refine congrArg (V c main_arg9 : FVec Ideal S64x64 .f32) (funext fun a => Fin.ext ?_)
  match a with
  | ⟨0, _⟩ => show win0_8.index t (0 : Fin 2) * 64 + 1 * (y 0).val = (y 0).val; rw [e0]; omega
  | ⟨1, _⟩ => show win0_8.index t (1 : Fin 2) * 64 + 1 * (y 1).val = (y 1).val; rw [e1]; omega

/-- Input window 9's block is its whole array at every point. -/
theorem whole_9 (c : Dev nD) (t : Fin cfg0.N) :
    (iblk0 V c 9 t : FVec Ideal S64 .f32) = (V c main_arg10 : FVec Ideal S64 .f32) := by
  have e0 := idx_9 t
  funext y
  unfold iblk0
  rw [View.read_apply]
  show (V c main_arg10 : FVec Ideal S64 .f32) _ = _
  refine congrArg (V c main_arg10 : FVec Ideal S64 .f32) (funext fun a => Fin.ext ?_)
  match a with
  | ⟨0, _⟩ => show win0_9.index t (0 : Fin 1) * 64 + 1 * (y 0).val = (y 0).val; rw [e0]; omega

/-! ## What a point stores, and the array after the last point -/

/-- Entry `(p, q)` of the block the body leaves in the output window's buffer, from the input blocks. -/
theorem out_apply (x0 x1 : FVec Ideal S5000x64 .f32) (x2 : FVec Ideal S64x64 .f32) (x3 x4 x5 x6 x7 : FVec Ideal S64 .f32)
    (x8 : FVec Ideal S64x64 .f32) (x9 : FVec Ideal S64 .f32) (p : Fin 5000) (q : Fin 64) :
    out0_10 (F := Ideal) x0 x1 x2 x3 x4 x5 x6 x7 x8 x9 (ix2 p q)
      = Cert.Spec.layer (fun j => x0 (ix2 p j) + x1 (ix2 p j)) x2 x3 x4 x5 x6 x7 x8 x9 q := by
  unfold out0_10
  rw [View.canon_unit_zero hz2]
  simp only [View.ld_unit_zero (S := S5000x64) hz2, View.ld_unit_zero (S := S64x64) hz2, View.ld_unit_zero (S := S64) hz1]
  exact Pay.pay0_apply x0 x1 x2 x3 x6 x7 x4 x5 x8 x9 p q

/-- What point `t` writes back is block `t` of the reference's layer of the arrays the region found. -/
theorem flushed_eq (c : Dev nD) (t : Fin cfg0.N) :
    (dat0 (F := Ideal) V c).flushed 10 t = ((cfg0.win 10).blk t).view.read (Elt Ideal)
      (Cert.RefTerms.gin (F := Ideal) (V c main_arg0) (V c main_v13) (V c main_arg3) (V c main_arg4) (V c main_arg5) (V c main_arg6) (V c main_arg7) (V c main_arg8) (V c main_arg9) (V c main_arg10)) := by
  show (cfg0.win 10).cut (grid0.coords t) ((dat0 (F := Ideal) V c).after 10 t) = _
  rw [after0_10]
  funext y
  obtain ⟨p, q, rfl⟩ : ∃ (p : Fin 5000) (q : Fin 64), y = ix2 p q := ⟨y 0, y 1, eq_ix2 y⟩
  have hN : cfg0.N = 20 := N_0
  have ht : t.val < 20 := hN ▸ t.isLt
  refine (out_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) p q).trans ?_
  obtain ⟨e0, e1⟩ := idx_10 t
  have hemb : ((cfg0.win 10).blk t).view.emb (ix2 p q) = ix2 (⟨t.val * 5000 + p.val, by omega⟩ : Fin 100000) q := by
    funext a; apply Fin.ext
    match a with
    | ⟨0, _⟩ => show win0_10.index t (0 : Fin 2) * 5000 + 1 * p.val = t.val * 5000 + p.val; rw [e0]; omega
    | ⟨1, _⟩ => show win0_10.index t (1 : Fin 2) * 64 + 1 * q.val = q.val; rw [e1]; omega
  show _ = (Cert.RefTerms.gin (F := Ideal) (V c main_arg0) (V c main_v13) (V c main_arg3) (V c main_arg4) (V c main_arg5) (V c main_arg6) (V c main_arg7) (V c main_arg8) (V c main_arg9) (V c main_arg10)) (((cfg0.win 10).blk t).view.emb (ix2 p q))
  rw [hemb, Cert.RefTerms.gin_apply, whole_2 V c t, whole_3 V c t, whole_4 V c t, whole_5 V c t, whole_6 V c t, whole_7 V c t,
    whole_8 V c t, whole_9 V c t]
  refine congrArg (fun u => Cert.Spec.layer u _ _ _ _ _ _ _ _ q) (funext fun j => ?_)
  rw [rows_0 V c t p j ⟨t.val * 5000 + p.val, by omega⟩ rfl, rows_1 V c t p j ⟨t.val * 5000 + p.val, by omega⟩ rfl]

/-- An index of the output array is in point `t`'s block iff each coordinate is in the block's range. -/
theorem mem_blk (t : Fin cfg0.N) (i : S100000x64.Idx) :
    i ∈ ((cfg0.win 10).blk t).view.set ↔ ∀ a : Fin 2, win0_10.index t a * S5000x64.size a ≤ (i a).val
      ∧ (i a).val < win0_10.index t a * S5000x64.size a + S5000x64.size a := by
  show i ∈ ((View.whole main_v14).slice (win0_10.rect t)).set ↔ _
  rw [View.set_slice_whole, Rect.mem_set_unit]
  exact Iff.rfl

/-- Row `r` of the output is in the block of point `r / 5000`. -/
theorem cover (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  have hN : cfg0.N = 20 := N_0
  obtain ⟨e0, e1⟩ := idx_10 (⟨(i 0).val / 5000, by rw [hN]; omega⟩ : Fin cfg0.N)
  refine ⟨⟨(i 0).val / 5000, by rw [hN]; omega⟩, flush0_10 _, ?_⟩
  rw [mem_blk]
  intro a
  match a with
  | ⟨0, _⟩ =>
    show win0_10.index _ (0 : Fin 2) * 5000 ≤ (i 0).val ∧ (i 0).val < win0_10.index _ (0 : Fin 2) * 5000 + 5000
    rw [e0]
    show (i 0).val / 5000 * 5000 ≤ (i 0).val ∧ (i 0).val < (i 0).val / 5000 * 5000 + 5000
    omega
  | ⟨1, _⟩ =>
    show win0_10.index _ (1 : Fin 2) * 64 ≤ (i 1).val ∧ (i 1).val < win0_10.index _ (1 : Fin 2) * 64 + 64
    rw [e1]
    omega

/-- The output array after the region: the reference's layer of the arrays the region found. -/
theorem final (c : Dev nD) : (dat0 (F := Ideal) V c).arrAt 10 cfg0.N
    = (Cert.RefTerms.gin (F := Ideal) (V c main_arg0) (V c main_v13) (V c main_arg3) (V c main_arg4) (V c main_arg5) (V c main_arg6) (V c main_arg7) (V c main_arg8) (V c main_arg9) (V c main_arg10)) :=
  (dat0 (F := Ideal) V c).arrAt_eq_of_cover 10 _ (fun t _ => flushed_eq V c t) (cover)

end Cert.KernelIdeal.Region0

end
-- ==== Proof.GinRegion1.lean ====
/-
  Layer region 1: the array its output window ends holding. The grid has 20 points; point t reads rows
  5000·t … 5000·t + 4999 of the two node arrays and the whole of each parameter array, and writes the same rows of the
  output. Every row of the output is in exactly one point's block, so the output array ends as the reference's layer
  (RefTerms.gin) of the arrays the region found: entry by entry both are the layer's arithmetic on that row.
-/
import proofs.«136053_j26774826123547_1_alg».proof.Proof.Gen.KernelIdeal.Frame
import proofs.«136053_j26774826123547_1_alg».proof.Proof.GinKernel
import proofs.«136053_j26774826123547_1_alg».proof.Proof.GinRef
import Idealize.ShloMosaic.Lib.Pipeline.Value

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The index maps over the grid: the two node windows and the output move one block of rows per point, the
    parameter windows stay at block zero -/

theorem idx_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx_3 : ∀ t : Fin cfg1.N, win1_3.index t (0 : Fin 1) = 0 :=
  (by decide +kernel : ∀ t : Fin grid1.N, win1_3.index t (0 : Fin 1) = 0)
theorem idx_4 : ∀ t : Fin cfg1.N, win1_4.index t (0 : Fin 1) = 0 :=
  (by decide +kernel : ∀ t : Fin grid1.N, win1_4.index t (0 : Fin 1) = 0)
theorem idx_5 : ∀ t : Fin cfg1.N, win1_5.index t (0 : Fin 1) = 0 :=
  (by decide +kernel : ∀ t : Fin grid1.N, win1_5.index t (0 : Fin 1) = 0)
theorem idx_6 : ∀ t : Fin cfg1.N, win1_6.index t (0 : Fin 1) = 0 :=
  (by decide +kernel : ∀ t : Fin grid1.N, win1_6.index t (0 : Fin 1) = 0)
theorem idx_7 : ∀ t : Fin cfg1.N, win1_7.index t (0 : Fin 1) = 0 :=
  (by decide +kernel : ∀ t : Fin grid1.N, win1_7.index t (0 : Fin 1) = 0)
theorem idx_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)
theorem idx_9 : ∀ t : Fin cfg1.N, win1_9.index t (0 : Fin 1) = 0 :=
  (by decide +kernel : ∀ t : Fin grid1.N, win1_9.index t (0 : Fin 1) = 0)
theorem idx_10 : ∀ t : Fin cfg1.N, win1_10.index t (0 : Fin 2) = t.val ∧ win1_10.index t (1 : Fin 2) = 0 :=
  (by decide +kernel : ∀ t : Fin grid1.N, win1_10.index t (0 : Fin 2) = t.val ∧ win1_10.index t (1 : Fin 2) = 0)

/-! ## The input blocks as pieces of their arrays -/

/-- Row `p` of input window 0's block at point `t` is row `t · 5000 + p` of its array. -/
theorem rows_0 (c : Dev nD) (t : Fin cfg1.N) (p : Fin 5000) (j : Fin 64) (r : Fin 100000) (hr : r.val = t.val * 5000 + p.val) :
    (iblk1 V c 0 t : FVec Ideal S5000x64 .f32) (ix2 p j) = (V c main_v14 : FVec Ideal S100000x64 .f32) (ix2 r j) := by
  obtain ⟨e0, e1⟩ := idx_0 t
  unfold iblk1
  rw [View.read_apply]
  show (V c main_v14 : FVec Ideal S100000x64 .f32) _ = _
  refine congrArg (V c main_v14 : FVec Ideal S100000x64 .f32) (funext fun a => Fin.ext ?_)
  match a with
  | ⟨0, _⟩ => show win1_0.index t (0 : Fin 2) * 5000 + 1 * p.val = r.val; rw [e0, hr]; omega
  | ⟨1, _⟩ => show win1_0.index t (1 : Fin 2) * 64 + 1 * j.val = j.val; rw [e1]; omega

/-- Row `p` of input window 1's block at point `t` is row `t · 5000 + p` of its array. -/
theorem rows_1 (c : Dev nD) (t : Fin cfg1.N) (p : Fin 5000) (j : Fin 64) (r : Fin 100000) (hr : r.val = t.val * 5000 + p.val) :
    (iblk1 V c 1 t : FVec Ideal S5000x64 .f32) (ix2 p j) = (V c main_v24 : FVec Ideal S100000x64 .f32) (ix2 r j) := by
  obtain ⟨e0, e1⟩ := idx_1 t
  unfold iblk1
  rw [View.read_apply]
  show (V c main_v24 : FVec Ideal S100000x64 .f32) _ = _
  refine congrArg (V c main_v24 : FVec Ideal S100000x64 .f32) (funext fun a => Fin.ext ?_)
  match a with
  | ⟨0, _⟩ => show win1_1.index t (0 : Fin 2) * 5000 + 1 * p.val = r.val; rw [e0, hr]; omega
  | ⟨1, _⟩ => show win1_1.index t (1 : Fin 2) * 64 + 1 * j.val = j.val; rw [e1]; omega

/-- Input window 2's block is its whole array at every point. -/
theorem whole_2 (c : Dev nD) (t : Fin cfg1.N) :
    (iblk1 V c 2 t : FVec Ideal S64x64 .f32) = (V c main_arg11 : FVec Ideal S64x64 .f32) := by
  obtain ⟨e0, e1⟩ := idx_2 t
  funext y
  unfold iblk1
  rw [View.read_apply]
  show (V c main_arg11 : FVec Ideal S64x64 .f32) _ = _
  refine congrArg (V c main_arg11 : FVec Ideal S64x64 .f32) (funext fun a => Fin.ext ?_)
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- Input window 3's block is its whole array at every point. -/
theorem whole_3 (c : Dev nD) (t : Fin cfg1.N) :
    (iblk1 V c 3 t : FVec Ideal S64 .f32) = (V c main_arg12 : FVec Ideal S64 .f32) := by
  have e0 := idx_3 t
  funext y
  unfold iblk1
  rw [View.read_apply]
  show (V c main_arg12 : FVec Ideal S64 .f32) _ = _
  refine congrArg (V c main_arg12 : FVec Ideal S64 .f32) (funext fun a => Fin.ext ?_)
  match a with
  | ⟨0, _⟩ => show win1_3.index t (0 : Fin 1) * 64 + 1 * (y 0).val = (y 0).val; rw [e0]; omega

/-- Input window 4's block is its whole array at every point. -/
theorem whole_4 (c : Dev nD) (t : Fin cfg1.N) :
    (iblk1 V c 4 t : FVec Ideal S64 .f32) = (V c main_arg13 : FVec Ideal S64 .f32) := by
  have e0 := idx_4 t
  funext y
  unfold iblk1
  rw [View.read_apply]
  show (V c main_arg13 : FVec Ideal S64 .f32) _ = _
  refine congrArg (V c main_arg13 : FVec Ideal S64 .f32) (funext fun a => Fin.ext ?_)
  match a with
  | ⟨0, _⟩ => show win1_4.index t (0 : Fin 1) * 64 + 1 * (y 0).val = (y 0).val; rw [e0]; omega

/-- Input window 5's block is its whole array at every point. -/
theorem whole_5 (c : Dev nD) (t : Fin cfg1.N) :
    (iblk1 V c 5 t : FVec Ideal S64 .f32) = (V c main_arg14 : FVec Ideal S64 .f32) := by
  have e0 := idx_5 t
  funext y
  unfold iblk1
  rw [View.read_apply]
  show (V c main_arg14 : FVec Ideal S64 .f32) _ = _
  refine congrArg (V c main_arg14 : FVec Ideal S64 .f32) (funext fun a => Fin.ext ?_)
  match a with
  | ⟨0, _⟩ => show win1_5.index t (0 : Fin 1) * 64 + 1 * (y 0).val = (y 0).val; rw [e0]; omega

/-- Input window 6's block is its whole array at every point. -/
theorem whole_6 (c : Dev nD) (t : Fin cfg1.N) :
    (iblk1 V c 6 t : FVec Ideal S64 .f32) = (V c main_arg15 : FVec Ideal S64 .f32) := by
  have e0 := idx_6 t
  funext y
  unfold iblk1
  rw [View.read_apply]
  show (V c main_arg15 : FVec Ideal S64 .f32) _ = _
  refine congrArg (V c main_arg15 : FVec Ideal S64 .f32) (funext fun a => Fin.ext ?_)
  match a with
  | ⟨0, _⟩ => show win1_6.index t (0 : Fin 1) * 64 + 1 * (y 0).val = (y 0).val; rw [e0]; omega

/-- Input window 7's block is its whole array at every point. -/
theorem whole_7 (c : Dev nD) (t : Fin cfg1.N) :
    (iblk1 V c 7 t : FVec Ideal S64 .f32) = (V c main_arg16 : FVec Ideal S64 .f32) := by
  have e0 := idx_7 t
  funext y
  unfold iblk1
  rw [View.read_apply]
  show (V c main_arg16 : FVec Ideal S64 .f32) _ = _
  refine congrArg (V c main_arg16 : FVec Ideal S64 .f32) (funext fun a => Fin.ext ?_)
  match a with
  | ⟨0, _⟩ => show win1_7.index t (0 : Fin 1) * 64 + 1 * (y 0).val = (y 0).val; rw [e0]; omega

/-- Input window 8's block is its whole array at every point. -/
theorem whole_8 (c : Dev nD) (t : Fin cfg1.N) :
    (iblk1 V c 8 t : FVec Ideal S64x64 .f32) = (V c main_arg17 : FVec Ideal S64x64 .f32) := by
  obtain ⟨e0, e1⟩ := idx_8 t
  funext y
  unfold iblk1
  rw [View.read_apply]
  show (V c main_arg17 : FVec Ideal S64x64 .f32) _ = _
  refine congrArg (V c main_arg17 : FVec Ideal S64x64 .f32) (funext fun a => Fin.ext ?_)
  match a with
  | ⟨0, _⟩ => show win1_8.index t (0 : Fin 2) * 64 + 1 * (y 0).val = (y 0).val; rw [e0]; omega
  | ⟨1, _⟩ => show win1_8.index t (1 : Fin 2) * 64 + 1 * (y 1).val = (y 1).val; rw [e1]; omega

/-- Input window 9's block is its whole array at every point. -/
theorem whole_9 (c : Dev nD) (t : Fin cfg1.N) :
    (iblk1 V c 9 t : FVec Ideal S64 .f32) = (V c main_arg18 : FVec Ideal S64 .f32) := by
  have e0 := idx_9 t
  funext y
  unfold iblk1
  rw [View.read_apply]
  show (V c main_arg18 : FVec Ideal S64 .f32) _ = _
  refine congrArg (V c main_arg18 : FVec Ideal S64 .f32) (funext fun a => Fin.ext ?_)
  match a with
  | ⟨0, _⟩ => show win1_9.index t (0 : Fin 1) * 64 + 1 * (y 0).val = (y 0).val; rw [e0]; omega

/-! ## What a point stores, and the array after the last point -/

/-- Entry `(p, q)` of the block the body leaves in the output window's buffer, from the input blocks. -/
theorem out_apply (x0 x1 : FVec Ideal S5000x64 .f32) (x2 : FVec Ideal S64x64 .f32) (x3 x4 x5 x6 x7 : FVec Ideal S64 .f32)
    (x8 : FVec Ideal S64x64 .f32) (x9 : FVec Ideal S64 .f32) (p : Fin 5000) (q : Fin 64) :
    out1_10 (F := Ideal) x0 x1 x2 x3 x4 x5 x6 x7 x8 x9 (ix2 p q)
      = Cert.Spec.layer (fun j => x0 (ix2 p j) + x1 (ix2 p j)) x2 x3 x4 x5 x6 x7 x8 x9 q := by
  unfold out1_10
  rw [View.canon_unit_zero hz2]
  simp only [View.ld_unit_zero (S := S5000x64) hz2, View.ld_unit_zero (S := S64x64) hz2, View.ld_unit_zero (S := S64) hz1]
  exact Pay.pay1_apply x0 x1 x2 x3 x6 x7 x4 x5 x8 x9 p q

/-- What point `t` writes back is block `t` of the reference's layer of the arrays the region found. -/
theorem flushed_eq (c : Dev nD) (t : Fin cfg1.N) :
    (dat1 (F := Ideal) V c).flushed 10 t = ((cfg1.win 10).blk t).view.read (Elt Ideal)
      (Cert.RefTerms.gin (F := Ideal) (V c main_v14) (V c main_v24) (V c main_arg11) (V c main_arg12) (V c main_arg13) (V c main_arg14) (V c main_arg15) (V c main_arg16) (V c main_arg17) (V c main_arg18)) := by
  show (cfg1.win 10).cut (grid1.coords t) ((dat1 (F := Ideal) V c).after 10 t) = _
  rw [after1_10]
  funext y
  obtain ⟨p, q, rfl⟩ : ∃ (p : Fin 5000) (q : Fin 64), y = ix2 p q := ⟨y 0, y 1, eq_ix2 y⟩
  have hN : cfg1.N = 20 := N_1
  have ht : t.val < 20 := hN ▸ t.isLt
  refine (out_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) p q).trans ?_
  obtain ⟨e0, e1⟩ := idx_10 t
  have hemb : ((cfg1.win 10).blk t).view.emb (ix2 p q) = ix2 (⟨t.val * 5000 + p.val, by omega⟩ : Fin 100000) q := by
    funext a; apply Fin.ext
    match a with
    | ⟨0, _⟩ => show win1_10.index t (0 : Fin 2) * 5000 + 1 * p.val = t.val * 5000 + p.val; rw [e0]; omega
    | ⟨1, _⟩ => show win1_10.index t (1 : Fin 2) * 64 + 1 * q.val = q.val; rw [e1]; omega
  show _ = (Cert.RefTerms.gin (F := Ideal) (V c main_v14) (V c main_v24) (V c main_arg11) (V c main_arg12) (V c main_arg13) (V c main_arg14) (V c main_arg15) (V c main_arg16) (V c main_arg17) (V c main_arg18)) (((cfg1.win 10).blk t).view.emb (ix2 p q))
  rw [hemb, Cert.RefTerms.gin_apply, whole_2 V c t, whole_3 V c t, whole_4 V c t, whole_5 V c t, whole_6 V c t, whole_7 V c t,
    whole_8 V c t, whole_9 V c t]
  refine congrArg (fun u => Cert.Spec.layer u _ _ _ _ _ _ _ _ q) (funext fun j => ?_)
  rw [rows_0 V c t p j ⟨t.val * 5000 + p.val, by omega⟩ rfl, rows_1 V c t p j ⟨t.val * 5000 + p.val, by omega⟩ rfl]

/-- An index of the output array is in point `t`'s block iff each coordinate is in the block's range. -/
theorem mem_blk (t : Fin cfg1.N) (i : S100000x64.Idx) :
    i ∈ ((cfg1.win 10).blk t).view.set ↔ ∀ a : Fin 2, win1_10.index t a * S5000x64.size a ≤ (i a).val
      ∧ (i a).val < win1_10.index t a * S5000x64.size a + S5000x64.size a := by
  show i ∈ ((View.whole main_v25).slice (win1_10.rect t)).set ↔ _
  rw [View.set_slice_whole, Rect.mem_set_unit]
  exact Iff.rfl

/-- Row `r` of the output is in the block of point `r / 5000`. -/
theorem cover (i : S100000x64.Idx) :
    ∃ t : Fin cfg1.N, (cfg1.win 10).flush t = true ∧ i ∈ ((cfg1.win 10).blk t).view.set := by
  have hi0 : (i 0).val < 100000 := (i 0).isLt
  have hi1 : (i 1).val < 64 := (i 1).isLt
  have hN : cfg1.N = 20 := N_1
  obtain ⟨e0, e1⟩ := idx_10 (⟨(i 0).val / 5000, by rw [hN]; omega⟩ : Fin cfg1.N)
  refine ⟨⟨(i 0).val / 5000, by rw [hN]; omega⟩, flush1_10 _, ?_⟩
  rw [mem_blk]
  intro a
  match a with
  | ⟨0, _⟩ =>
    show win1_10.index _ (0 : Fin 2) * 5000 ≤ (i 0).val ∧ (i 0).val < win1_10.index _ (0 : Fin 2) * 5000 + 5000
    rw [e0]
    show (i 0).val / 5000 * 5000 ≤ (i 0).val ∧ (i 0).val < (i 0).val / 5000 * 5000 + 5000
    omega
  | ⟨1, _⟩ =>
    show win1_10.index _ (1 : Fin 2) * 64 ≤ (i 1).val ∧ (i 1).val < win1_10.index _ (1 : Fin 2) * 64 + 64
    rw [e1]
    omega

/-- The output array after the region: the reference's layer of the arrays the region found. -/
theorem final (c : Dev nD) : (dat1 (F := Ideal) V c).arrAt 10 cfg1.N
    = (Cert.RefTerms.gin (F := Ideal) (V c main_v14) (V c main_v24) (V c main_arg11) (V c main_arg12) (V c main_arg13) (V c main_arg14) (V c main_arg15) (V c main_arg16) (V c main_arg17) (V c main_arg18)) :=
  (dat1 (F := Ideal) V c).arrAt_eq_of_cover 10 _ (fun t _ => flushed_eq V c t) (cover)

end Cert.KernelIdeal.Region1

end
-- ==== Proof.GinRegion2.lean ====
/-
  Layer region 2: the array its output window ends holding. The grid has 20 points; point t reads rows
  5000·t … 5000·t + 4999 of the two node arrays and the whole of each parameter array, and writes the same rows of the
  output. Every row of the output is in exactly one point's block, so the output array ends as the reference's layer
  (RefTerms.gin) of the arrays the region found: entry by entry both are the layer's arithmetic on that row.
-/
import proofs.«136053_j26774826123547_1_alg».proof.Proof.Gen.KernelIdeal.Frame
import proofs.«136053_j26774826123547_1_alg».proof.Proof.GinKernel
import proofs.«136053_j26774826123547_1_alg».proof.Proof.GinRef
import Idealize.ShloMosaic.Lib.Pipeline.Value

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The index maps over the grid: the two node windows and the output move one block of rows per point, the
    parameter windows stay at block zero -/

theorem idx_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
theorem idx_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx_3 : ∀ t : Fin cfg2.N, win2_3.index t (0 : Fin 1) = 0 :=
  (by decide +kernel : ∀ t : Fin grid2.N, win2_3.index t (0 : Fin 1) = 0)
theorem idx_4 : ∀ t : Fin cfg2.N, win2_4.index t (0 : Fin 1) = 0 :=
  (by decide +kernel : ∀ t : Fin grid2.N, win2_4.index t (0 : Fin 1) = 0)
theorem idx_5 : ∀ t : Fin cfg2.N, win2_5.index t (0 : Fin 1) = 0 :=
  (by decide +kernel : ∀ t : Fin grid2.N, win2_5.index t (0 : Fin 1) = 0)
theorem idx_6 : ∀ t : Fin cfg2.N, win2_6.index t (0 : Fin 1) = 0 :=
  (by decide +kernel : ∀ t : Fin grid2.N, win2_6.index t (0 : Fin 1) = 0)
theorem idx_7 : ∀ t : Fin cfg2.N, win2_7.index t (0 : Fin 1) = 0 :=
  (by decide +kernel : ∀ t : Fin grid2.N, win2_7.index t (0 : Fin 1) = 0)
theorem idx_8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
theorem idx_9 : ∀ t : Fin cfg2.N, win2_9.index t (0 : Fin 1) = 0 :=
  (by decide +kernel : ∀ t : Fin grid2.N, win2_9.index t (0 : Fin 1) = 0)
theorem idx_10 : ∀ t : Fin cfg2.N, win2_10.index t (0 : Fin 2) = t.val ∧ win2_10.index t (1 : Fin 2) = 0 :=
  (by decide +kernel : ∀ t : Fin grid2.N, win2_10.index t (0 : Fin 2) = t.val ∧ win2_10.index t (1 : Fin 2) = 0)

/-! ## The input blocks as pieces of their arrays -/

/-- Row `p` of input window 0's block at point `t` is row `t · 5000 + p` of its array. -/
theorem rows_0 (c : Dev nD) (t : Fin cfg2.N) (p : Fin 5000) (j : Fin 64) (r : Fin 100000) (hr : r.val = t.val * 5000 + p.val) :
    (iblk2 V c 0 t : FVec Ideal S5000x64 .f32) (ix2 p j) = (V c main_v25 : FVec Ideal S100000x64 .f32) (ix2 r j) := by
  obtain ⟨e0, e1⟩ := idx_0 t
  unfold iblk2
  rw [View.read_apply]
  show (V c main_v25 : FVec Ideal S100000x64 .f32) _ = _
  refine congrArg (V c main_v25 : FVec Ideal S100000x64 .f32) (funext fun a => Fin.ext ?_)
  match a with
  | ⟨0, _⟩ => show win2_0.index t (0 : Fin 2) * 5000 + 1 * p.val = r.val; rw [e0, hr]; omega
  | ⟨1, _⟩ => show win2_0.index t (1 : Fin 2) * 64 + 1 * j.val = j.val; rw [e1]; omega

/-- Row `p` of input window 1's block at point `t` is row `t · 5000 + p` of its array. -/
theorem rows_1 (c : Dev nD) (t : Fin cfg2.N) (p : Fin 5000) (j : Fin 64) (r : Fin 100000) (hr : r.val = t.val * 5000 + p.val) :
    (iblk2 V c 1 t : FVec Ideal S5000x64 .f32) (ix2 p j) = (V c main_v35 : FVec Ideal S100000x64 .f32) (ix2 r j) := by
  obtain ⟨e0, e1⟩ := idx_1 t
  unfold iblk2
  rw [View.read_apply]
  show (V c main_v35 : FVec Ideal S100000x64 .f32) _ = _
  refine congrArg (V c main_v35 : FVec Ideal S100000x64 .f32) (funext fun a => Fin.ext ?_)
  match a with
  | ⟨0, _⟩ => show win2_1.index t (0 : Fin 2) * 5000 + 1 * p.val = r.val; rw [e0, hr]; omega
  | ⟨1, _⟩ => show win2_1.index t (1 : Fin 2) * 64 + 1 * j.val = j.val; rw [e1]; omega

/-- Input window 2's block is its whole array at every point. -/
theorem whole_2 (c : Dev nD) (t : Fin cfg2.N) :
    (iblk2 V c 2 t : FVec Ideal S64x64 .f32) = (V c main_arg19 : FVec Ideal S64x64 .f32) := by
  obtain ⟨e0, e1⟩ := idx_2 t
  funext y
  unfold iblk2
  rw [View.read_apply]
  show (V c main_arg19 : FVec Ideal S64x64 .f32) _ = _
  refine congrArg (V c main_arg19 : FVec Ideal S64x64 .f32) (funext fun a => Fin.ext ?_)
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- Input window 3's block is its whole array at every point. -/
theorem whole_3 (c : Dev nD) (t : Fin cfg2.N) :
    (iblk2 V c 3 t : FVec Ideal S64 .f32) = (V c main_arg20 : FVec Ideal S64 .f32) := by
  have e0 := idx_3 t
  funext y
  unfold iblk2
  rw [View.read_apply]
  show (V c main_arg20 : FVec Ideal S64 .f32) _ = _
  refine congrArg (V c main_arg20 : FVec Ideal S64 .f32) (funext fun a => Fin.ext ?_)
  match a with
  | ⟨0, _⟩ => show win2_3.index t (0 : Fin 1) * 64 + 1 * (y 0).val = (y 0).val; rw [e0]; omega

/-- Input window 4's block is its whole array at every point. -/
theorem whole_4 (c : Dev nD) (t : Fin cfg2.N) :
    (iblk2 V c 4 t : FVec Ideal S64 .f32) = (V c main_arg21 : FVec Ideal S64 .f32) := by
  have e0 := idx_4 t
  funext y
  unfold iblk2
  rw [View.read_apply]
  show (V c main_arg21 : FVec Ideal S64 .f32) _ = _
  refine congrArg (V c main_arg21 : FVec Ideal S64 .f32) (funext fun a => Fin.ext ?_)
  match a with
  | ⟨0, _⟩ => show win2_4.index t (0 : Fin 1) * 64 + 1 * (y 0).val = (y 0).val; rw [e0]; omega

/-- Input window 5's block is its whole array at every point. -/
theorem whole_5 (c : Dev nD) (t : Fin cfg2.N) :
    (iblk2 V c 5 t : FVec Ideal S64 .f32) = (V c main_arg22 : FVec Ideal S64 .f32) := by
  have e0 := idx_5 t
  funext y
  unfold iblk2
  rw [View.read_apply]
  show (V c main_arg22 : FVec Ideal S64 .f32) _ = _
  refine congrArg (V c main_arg22 : FVec Ideal S64 .f32) (funext fun a => Fin.ext ?_)
  match a with
  | ⟨0, _⟩ => show win2_5.index t (0 : Fin 1) * 64 + 1 * (y 0).val = (y 0).val; rw [e0]; omega

/-- Input window 6's block is its whole array at every point. -/
theorem whole_6 (c : Dev nD) (t : Fin cfg2.N) :
    (iblk2 V c 6 t : FVec Ideal S64 .f32) = (V c main_arg23 : FVec Ideal S64 .f32) := by
  have e0 := idx_6 t
  funext y
  unfold iblk2
  rw [View.read_apply]
  show (V c main_arg23 : FVec Ideal S64 .f32) _ = _
  refine congrArg (V c main_arg23 : FVec Ideal S64 .f32) (funext fun a => Fin.ext ?_)
  match a with
  | ⟨0, _⟩ => show win2_6.index t (0 : Fin 1) * 64 + 1 * (y 0).val = (y 0).val; rw [e0]; omega

/-- Input window 7's block is its whole array at every point. -/
theorem whole_7 (c : Dev nD) (t : Fin cfg2.N) :
    (iblk2 V c 7 t : FVec Ideal S64 .f32) = (V c main_arg24 : FVec Ideal S64 .f32) := by
  have e0 := idx_7 t
  funext y
  unfold iblk2
  rw [View.read_apply]
  show (V c main_arg24 : FVec Ideal S64 .f32) _ = _
  refine congrArg (V c main_arg24 : FVec Ideal S64 .f32) (funext fun a => Fin.ext ?_)
  match a with
  | ⟨0, _⟩ => show win2_7.index t (0 : Fin 1) * 64 + 1 * (y 0).val = (y 0).val; rw [e0]; omega

/-- Input window 8's block is its whole array at every point. -/
theorem whole_8 (c : Dev nD) (t : Fin cfg2.N) :
    (iblk2 V c 8 t : FVec Ideal S64x64 .f32) = (V c main_arg25 : FVec Ideal S64x64 .f32) := by
  obtain ⟨e0, e1⟩ := idx_8 t
  funext y
  unfold iblk2
  rw [View.read_apply]
  show (V c main_arg25 : FVec Ideal S64x64 .f32) _ = _
  refine congrArg (V c main_arg25 : FVec Ideal S64x64 .f32) (funext fun a => Fin.ext ?_)
  match a with
  | ⟨0, _⟩ => show win2_8.index t (0 : Fin 2) * 64 + 1 * (y 0).val = (y 0).val; rw [e0]; omega
  | ⟨1, _⟩ => show win2_8.index t (1 : Fin 2) * 64 + 1 * (y 1).val = (y 1).val; rw [e1]; omega

/-- Input window 9's block is its whole array at every point. -/
theorem whole_9 (c : Dev nD) (t : Fin cfg2.N) :
    (iblk2 V c 9 t : FVec Ideal S64 .f32) = (V c main_arg26 : FVec Ideal S64 .f32) := by
  have e0 := idx_9 t
  funext y
  unfold iblk2
  rw [View.read_apply]
  show (V c main_arg26 : FVec Ideal S64 .f32) _ = _
  refine congrArg (V c main_arg26 : FVec Ideal S64 .f32) (funext fun a => Fin.ext ?_)
  match a with
  | ⟨0, _⟩ => show win2_9.index t (0 : Fin 1) * 64 + 1 * (y 0).val = (y 0).val; rw [e0]; omega

/-! ## What a point stores, and the array after the last point -/

/-- Entry `(p, q)` of the block the body leaves in the output window's buffer, from the input blocks. -/
theorem out_apply (x0 x1 : FVec Ideal S5000x64 .f32) (x2 : FVec Ideal S64x64 .f32) (x3 x4 x5 x6 x7 : FVec Ideal S64 .f32)
    (x8 : FVec Ideal S64x64 .f32) (x9 : FVec Ideal S64 .f32) (p : Fin 5000) (q : Fin 64) :
    out2_10 (F := Ideal) x0 x1 x2 x3 x4 x5 x6 x7 x8 x9 (ix2 p q)
      = Cert.Spec.layer (fun j => x0 (ix2 p j) + x1 (ix2 p j)) x2 x3 x4 x5 x6 x7 x8 x9 q := by
  unfold out2_10
  rw [View.canon_unit_zero hz2]
  simp only [View.ld_unit_zero (S := S5000x64) hz2, View.ld_unit_zero (S := S64x64) hz2, View.ld_unit_zero (S := S64) hz1]
  exact Pay.pay2_apply x0 x1 x2 x3 x6 x7 x4 x5 x8 x9 p q

/-- What point `t` writes back is block `t` of the reference's layer of the arrays the region found. -/
theorem flushed_eq (c : Dev nD) (t : Fin cfg2.N) :
    (dat2 (F := Ideal) V c).flushed 10 t = ((cfg2.win 10).blk t).view.read (Elt Ideal)
      (Cert.RefTerms.gin (F := Ideal) (V c main_v25) (V c main_v35) (V c main_arg19) (V c main_arg20) (V c main_arg21) (V c main_arg22) (V c main_arg23) (V c main_arg24) (V c main_arg25) (V c main_arg26)) := by
  show (cfg2.win 10).cut (grid2.coords t) ((dat2 (F := Ideal) V c).after 10 t) = _
  rw [after2_10]
  funext y
  obtain ⟨p, q, rfl⟩ : ∃ (p : Fin 5000) (q : Fin 64), y = ix2 p q := ⟨y 0, y 1, eq_ix2 y⟩
  have hN : cfg2.N = 20 := N_2
  have ht : t.val < 20 := hN ▸ t.isLt
  refine (out_apply (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) p q).trans ?_
  obtain ⟨e0, e1⟩ := idx_10 t
  have hemb : ((cfg2.win 10).blk t).view.emb (ix2 p q) = ix2 (⟨t.val * 5000 + p.val, by omega⟩ : Fin 100000) q := by
    funext a; apply Fin.ext
    match a with
    | ⟨0, _⟩ => show win2_10.index t (0 : Fin 2) * 5000 + 1 * p.val = t.val * 5000 + p.val; rw [e0]; omega
    | ⟨1, _⟩ => show win2_10.index t (1 : Fin 2) * 64 + 1 * q.val = q.val; rw [e1]; omega
  show _ = (Cert.RefTerms.gin (F := Ideal) (V c main_v25) (V c main_v35) (V c main_arg19) (V c main_arg20) (V c main_arg21) (V c main_arg22) (V c main_arg23) (V c main_arg24) (V c main_arg25) (V c main_arg26)) (((cfg2.win 10).blk t).view.emb (ix2 p q))
  rw [hemb, Cert.RefTerms.gin_apply, whole_2 V c t, whole_3 V c t, whole_4 V c t, whole_5 V c t, whole_6 V c t, whole_7 V c t,
    whole_8 V c t, whole_9 V c t]
  refine congrArg (fun u => Cert.Spec.layer u _ _ _ _ _ _ _ _ q) (funext fun j => ?_)
  rw [rows_0 V c t p j ⟨t.val * 5000 + p.val, by omega⟩ rfl, rows_1 V c t p j ⟨t.val * 5000 + p.val, by omega⟩ rfl]

/-- An index of the output array is in point `t`'s block iff each coordinate is in the block's range. -/
theorem mem_blk (t : Fin cfg2.N) (i : S100000x64.Idx) :
    i ∈ ((cfg2.win 10).blk t).view.set ↔ ∀ a : Fin 2, win2_10.index t a * S5000x64.size a ≤ (i a).val
      ∧ (i a).val < win2_10.index t a * S5000x64.size a + S5000x64.size a := by
  show i ∈ ((View.whole main_v36).slice (win2_10.rect t)).set ↔ _
  rw [View.set_slice_whole, Rect.mem_set_unit]
  exact Iff.rfl

/-- Row `r` of the output is in the block of point `r / 5000`. -/
theorem cover (i : S100000x64.Idx) :
    ∃ t : Fin cfg2.N, (cfg2.win 10).flush t = true ∧ i ∈ ((cfg2.win 10).blk t).view.set := by
  have hi0 : (i 0).val < 100000 := (i 0).isLt
  have hi1 : (i 1).val < 64 := (i 1).isLt
  have hN : cfg2.N = 20 := N_2
  obtain ⟨e0, e1⟩ := idx_10 (⟨(i 0).val / 5000, by rw [hN]; omega⟩ : Fin cfg2.N)
  refine ⟨⟨(i 0).val / 5000, by rw [hN]; omega⟩, flush2_10 _, ?_⟩
  rw [mem_blk]
  intro a
  match a with
  | ⟨0, _⟩ =>
    show win2_10.index _ (0 : Fin 2) * 5000 ≤ (i 0).val ∧ (i 0).val < win2_10.index _ (0 : Fin 2) * 5000 + 5000
    rw [e0]
    show (i 0).val / 5000 * 5000 ≤ (i 0).val ∧ (i 0).val < (i 0).val / 5000 * 5000 + 5000
    omega
  | ⟨1, _⟩ =>
    show win2_10.index _ (1 : Fin 2) * 64 ≤ (i 1).val ∧ (i 1).val < win2_10.index _ (1 : Fin 2) * 64 + 64
    rw [e1]
    omega

/-- The output array after the region: the reference's layer of the arrays the region found. -/
theorem final (c : Dev nD) : (dat2 (F := Ideal) V c).arrAt 10 cfg2.N
    = (Cert.RefTerms.gin (F := Ideal) (V c main_v25) (V c main_v35) (V c main_arg19) (V c main_arg20) (V c main_arg21) (V c main_arg22) (V c main_arg23) (V c main_arg24) (V c main_arg25) (V c main_arg26)) :=
  (dat2 (F := Ideal) V c).arrAt_eq_of_cover 10 _ (fun t _ => flushed_eq V c t) (cover)

end Cert.KernelIdeal.Region2

end
-- ==== Proof.HeadKernel.lean ====
/-
  The head kernel's body, read at one entry. It multiplies each of the three 512 × 64 pooled blocks by its own 64-row
  slab of the 192 × 192 matrix, adds the three products in order and the bias, clamps at zero, multiplies by the
  192 × 2 matrix and adds its bias: the scores. From the scores it takes each row's maximum, the exponentials of the
  shifted scores, their row sums and the quotients: the probabilities.
-/
import proofs.«136053_j26774826123547_1_alg».proof.Proof.Gen.KernelIdeal.Skeleton
import proofs.«136053_j26774826123547_1_alg».proof.Proof.Spec
import proofs.«136053_j26774826123547_1_alg».proof.Proof.LibRows

noncomputable section

open scoped BigOperators

namespace Cert.KernelIdeal.Pay

open Cert.KernelIdeal Cert.KernelIdeal.Gen Idealize.ShloMosaic Idealize.ShloMosaic.ValueIdx Cert.Spec

/-- A 512 × 64 block times a 64 × 192 slab into the zero accumulator, at entry `(g, k)`. -/
theorem mmA_apply {φ₁ φ₂ : FTy} (X : FVec Ideal S512x64 φ₁) (A : FVec Ideal S64x192 φ₂) (g : Fin 512) (k : Fin 192) :
    matmul dot_S512x64_S64x192_S512x192_1_0_0_1_n_n none X A (constant (F := Ideal) S512x192 .f32 0x00000000#32) (ix2 g k)
      = ∑ c : Fin 64, X (ix2 g c) * A (ix2 c k) :=
  Cert.LibMatmul.matmul_plain_zero_apply none X A g k

/-- A 512 × 192 block times the 192 × 2 matrix into the zero accumulator, at entry `(g, s)`. -/
theorem mmB_apply {φ₁ φ₂ : FTy} (X : FVec Ideal S512x192 φ₁) (W : FVec Ideal S192x2 φ₂) (g : Fin 512) (s : Fin 2) :
    matmul dot_S512x192_S192x2_S512x2_1_0_0_1_n_n none X W (constant (F := Ideal) S512x2 .f32 0x00000000#32) (ix2 g s)
      = ∑ c : Fin 192, X (ix2 g c) * W (ix2 c s) :=
  Cert.LibMatmul.matmul_plain_zero_apply none X W g s

/-- The block of hidden activations the body computes from the three pooled blocks and the three slabs. -/
def hidH (A1 A2 A3 : FVec Ideal S64x192 .f32) (p1 p2 p3 : FVec Ideal S512x64 .f32) (b : FVec Ideal S192 .f32) :
    FVec Ideal S512x192 .f32 :=
  maximumf (addf (addf (addf
      (matmul dot_S512x64_S64x192_S512x192_1_0_0_1_n_n none (truncf .bf16 (shapeCast S512x64 p1 shapeCasts_S512x64_S512x64) bitsLt_bf16_f32)
        (truncf .bf16 A1 bitsLt_bf16_f32) (constant (F := Ideal) S512x192 .f32 0x00000000#32))
      (matmul dot_S512x64_S64x192_S512x192_1_0_0_1_n_n none (truncf .bf16 (shapeCast S512x64 p2 shapeCasts_S512x64_S512x64) bitsLt_bf16_f32)
        (truncf .bf16 A2 bitsLt_bf16_f32) (constant (F := Ideal) S512x192 .f32 0x00000000#32)))
      (matmul dot_S512x64_S64x192_S512x192_1_0_0_1_n_n none (truncf .bf16 (shapeCast S512x64 p3 shapeCasts_S512x64_S512x64) bitsLt_bf16_f32)
        (truncf .bf16 A3 bitsLt_bf16_f32) (constant (F := Ideal) S512x192 .f32 0x00000000#32)))
      (broadcastTo S512x192 (shapeCast S1x192 b shapeCasts_S192_S1x192) broadcasts_S1x192_S512x192))
    (broadcast S512x192 (Scalar.ofBits .f32 0x00000000#32))

/-- Entry `(g, k)` of that block is the hidden activation of graph `g`. -/
theorem hidH_apply (A1 A2 A3 : FVec Ideal S64x192 .f32) (p1 p2 p3 : FVec Ideal S512x64 .f32) (b : FVec Ideal S192 .f32)
    (g : Fin 512) (k : Fin 192) :
    hidH A1 A2 A3 p1 p2 p3 b (ix2 g k)
      = headHidden (fun j => p1 (ix2 g j)) (fun j => p2 (ix2 g j)) (fun j => p3 (ix2 g j)) A1 A2 A3 b k := by
  unfold hidH
  rw [shapeCast_self, shapeCast_self, shapeCast_self]
  show max (((matmul dot_S512x64_S64x192_S512x192_1_0_0_1_n_n none (truncf .bf16 p1 bitsLt_bf16_f32) (truncf .bf16 A1 bitsLt_bf16_f32)
          (constant (F := Ideal) S512x192 .f32 0x00000000#32) (ix2 g k)
        + matmul dot_S512x64_S64x192_S512x192_1_0_0_1_n_n none (truncf .bf16 p2 bitsLt_bf16_f32) (truncf .bf16 A2 bitsLt_bf16_f32)
          (constant (F := Ideal) S512x192 .f32 0x00000000#32) (ix2 g k))
        + matmul dot_S512x64_S64x192_S512x192_1_0_0_1_n_n none (truncf .bf16 p3 bitsLt_bf16_f32) (truncf .bf16 A3 bitsLt_bf16_f32)
          (constant (F := Ideal) S512x192 .f32 0x00000000#32) (ix2 g k))
      + broadcastTo S512x192 (shapeCast S1x192 b shapeCasts_S192_S1x192) broadcasts_S1x192_S512x192 (ix2 g k)) zeroR = _
  rw [mmA_apply, mmA_apply, mmA_apply, Cert.LibRows.rowBroadcastTo_apply]
  rfl

/-- Entry `(g, s)` of the scores the body stores is graph `g`'s score `s`. -/
theorem scores_apply (A1 A2 A3 : FVec Ideal S64x192 .f32) (p1 p2 p3 : FVec Ideal S512x64 .f32) (b : FVec Ideal S192 .f32)
    (W2 : FVec Ideal S192x2 .f32) (b2 : FVec Ideal S2 .f32) (g : Fin 512) (s : Fin 2) :
    k3_pay2 (F := Ideal) A1 A2 A3 p1 p2 p3 b W2 b2 (ix2 g s)
      = score (fun j => p1 (ix2 g j)) (fun j => p2 (ix2 g j)) (fun j => p3 (ix2 g j)) A1 A2 A3 b W2 b2 s := by
  unfold k3_pay2
  show matmul dot_S512x192_S192x2_S512x2_1_0_0_1_n_n none (truncf .bf16 (hidH A1 A2 A3 p1 p2 p3 b) bitsLt_bf16_f32)
        (truncf .bf16 W2 bitsLt_bf16_f32) (constant (F := Ideal) S512x2 .f32 0x00000000#32) (ix2 g s)
      + broadcastTo S512x2 (shapeCast S1x2 b2 shapeCasts_S2_S1x2) broadcasts_S1x2_S512x2 (ix2 g s) = _
  rw [mmB_apply, Cert.LibRows.rowBroadcastTo_apply]
  unfold score
  refine congrArg (fun t => t + b2 (ix1 s)) (Finset.sum_congr rfl fun k _ => ?_)
  show hidH A1 A2 A3 p1 p2 p3 b (ix2 g k) * W2 (ix2 k s) = _
  rw [hidH_apply]

/-- Each row's maximum as the body computes it. -/
def maxK (L : FVec Ideal S512x2 .f32) : FVec Ideal S512 .f32 :=
  maximumf (broadcast S512 (Scalar.ofBits .f32 0xFF800000#32))
    (multiReduction .maximumf [1] S512 L 0xFF800000#32 reduces_S512x2_S512 (.inl rfl) rfl)

theorem maxK_apply (L : FVec Ideal S512x2 .f32) (g : Fin 512) : maxK L (ix1 g) = rowMax (fun s => L (ix2 g s)) := by
  unfold maxK rowMax
  show max negInfR (multiReduction .maximumf [1] S512 L 0xFF800000#32 reduces_S512x2_S512 (.inl rfl) rfl (ix1 g)) = _
  refine congrArg (max negInfR) ?_
  refine (Ideal.multiReduction_maximumf_single L 0xFF800000#32 reduces_S512x2_S512 (.inl rfl) rfl (ix1 g)).trans ?_
  refine congrArg (fun f => Finset.fold max negInfR f (Finset.univ : Finset (Fin 2))) (funext fun k => ?_)
  exact congrArg L (Cert.LibRows.lift_axis1 reduces_S512x2_S512 g k)

/-- The shifted exponentials as the body computes them. -/
def expK (L : FVec Ideal S512x2 .f32) : FVec Ideal S512x2 .f32 :=
  exp (subf L (broadcastTo S512x2 (shapeCast S512x1 (maxK L) shapeCasts_S512_S512x1) broadcasts_S512x1_S512x2))

theorem expK_apply (L : FVec Ideal S512x2 .f32) (g : Fin 512) (s : Fin 2) :
    expK L (ix2 g s) = Ideal.exp (L (ix2 g s) - rowMax (fun s => L (ix2 g s))) := by
  unfold expK
  show Ideal.exp (L (ix2 g s) - broadcastTo S512x2 (shapeCast S512x1 (maxK L) shapeCasts_S512_S512x1) broadcasts_S512x1_S512x2 (ix2 g s)) = _
  rw [Cert.LibRows.colBroadcastTo_apply, maxK_apply]

/-- Entry `(g, s)` of the probabilities the body stores, from the scores `L` it computed. -/
theorem probs_apply (L : FVec Ideal S512x2 .f32) (g : Fin 512) (s : Fin 2) :
    k3_pay1 (F := Ideal) L (ix2 g s) = prob (fun s => L (ix2 g s)) s := by
  unfold k3_pay1
  show Ideal.div (expK L (ix2 g s))
      (broadcastTo S512x2 (shapeCast S512x1 (multiReduction .add [1] S512 (expK L) 0x00000000#32 reduces_S512x2_S512 (.inl rfl) rfl)
        shapeCasts_S512_S512x1) broadcasts_S512x1_S512x2 (ix2 g s)) = _
  rw [Cert.LibRows.colBroadcastTo_apply, expK_apply]
  unfold prob
  refine congrArg (Ideal.div _) ?_
  refine (Ideal.multiReduction_add_single (expK L) 0x00000000#32 reduces_S512x2_S512 (.inl rfl) rfl (ix1 g)).trans ?_
  refine Finset.sum_congr rfl fun k _ => ?_
  rw [Cert.LibRows.lift_axis1 reduces_S512x2_S512 g k]
  exact expK_apply L g ⟨k.val, k.isLt⟩

end Cert.KernelIdeal.Pay

end
-- ==== Proof.HeadRef.lean ====
/-
  The reference's head, read at one entry: a graph's score is the head's arithmetic (Spec) on its three pooled blocks —
  the 192-term product with the first matrix splits into the three 64-term products with the matrix's three slabs, since
  the three blocks lie side by side —, and its probabilities are the exponentials of its scores, shifted by their
  maximum, over their sum.
-/
import proofs.«136053_j26774826123547_1_alg».proof.Proof.RefTerms
import proofs.«136053_j26774826123547_1_alg».proof.Proof.Spec
import proofs.«136053_j26774826123547_1_alg».proof.Proof.LibRows

noncomputable section

open scoped BigOperators

namespace Cert.RefTerms

open Cert.ReferenceIdeal Cert.ReferenceIdeal.Gen Cert.ReferenceIdeal.Read Idealize.ShloMosaic Idealize.ShloMosaic.ValueIdx Cert.Spec

/-- Feature `jj` of graph `g`'s 192 side-by-side features, for `jj = pre + j` inside block number `n`, is feature `j` of that block. -/
theorem cat_apply1 (p1 p2 p3 : FVec Ideal S512x64 .f32) (g : Fin 512) (j : Fin 64) (jj : Fin 192) (h : jj.val = j.val) :
    cat (F := Ideal) p1 p2 p3 (ix2 g jj) = p1 (ix2 g j) := by
  unfold cat
  exact concatenate_apply_piece (t := S512x192) (1 : Fin 2) [⟨S512x64, p1⟩, ⟨S512x64, p2⟩, ⟨S512x64, p3⟩] concatenates_S512x64_S512x64_S512x64_S512x192_d1 (ix2 g jj) 0 (by show (0 : ℕ) < 3; omega) S512x64 p1 rfl rfl 0 rfl (ix2 g j)
    (fun b hb => by match b with | ⟨0, _⟩ => rfl | ⟨1, _⟩ => exact absurd rfl hb)
    (by show 0 + j.val = jj.val; omega)

theorem cat_apply2 (p1 p2 p3 : FVec Ideal S512x64 .f32) (g : Fin 512) (j : Fin 64) (jj : Fin 192) (h : jj.val = 64 + j.val) :
    cat (F := Ideal) p1 p2 p3 (ix2 g jj) = p2 (ix2 g j) := by
  unfold cat
  exact concatenate_apply_piece (t := S512x192) (1 : Fin 2) [⟨S512x64, p1⟩, ⟨S512x64, p2⟩, ⟨S512x64, p3⟩] concatenates_S512x64_S512x64_S512x64_S512x192_d1 (ix2 g jj) 1 (by show (1 : ℕ) < 3; omega) S512x64 p2 rfl rfl 64 rfl (ix2 g j)
    (fun b hb => by match b with | ⟨0, _⟩ => rfl | ⟨1, _⟩ => exact absurd rfl hb)
    (by show 64 + j.val = jj.val; omega)

theorem cat_apply3 (p1 p2 p3 : FVec Ideal S512x64 .f32) (g : Fin 512) (j : Fin 64) (jj : Fin 192) (h : jj.val = 128 + j.val) :
    cat (F := Ideal) p1 p2 p3 (ix2 g jj) = p3 (ix2 g j) := by
  unfold cat
  exact concatenate_apply_piece (t := S512x192) (1 : Fin 2) [⟨S512x64, p1⟩, ⟨S512x64, p2⟩, ⟨S512x64, p3⟩] concatenates_S512x64_S512x64_S512x64_S512x192_d1 (ix2 g jj) 2 (by show (2 : ℕ) < 3; omega) S512x64 p3 rfl rfl 128 rfl (ix2 g j)
    (fun b hb => by match b with | ⟨0, _⟩ => rfl | ⟨1, _⟩ => exact absurd rfl hb)
    (by show 128 + j.val = jj.val; omega)

/-- Entry `(g, k)` of the head's hidden activations is graph `g`'s hidden activation `k`. -/
theorem hiddenG_apply (p1 p2 p3 : FVec Ideal S512x64 .f32) (W : FVec Ideal S192x192 .f32) (b : FVec Ideal S192 .f32)
    (g : Fin 512) (k : Fin 192) :
    hiddenG (F := Ideal) p1 p2 p3 W b (ix2 g k)
      = headHidden (fun j => p1 (ix2 g j)) (fun j => p2 (ix2 g j)) (fun j => p3 (ix2 g j))
          (slab W 0 (by norm_num)) (slab W 64 (by norm_num)) (slab W 128 (by norm_num)) b k := by
  unfold hiddenG
  show max (Host.dotGeneral (F := Ideal) (φ₁ := .f32) (φ₂ := .f32) dot_S512x192_S192x192_S512x192_1_0_0_1_n_n none (cat (F := Ideal) p1 p2 p3) W (ix2 g k)
      + broadcastInDim S512x192 ![0, 1] bcast_S1x192_S512x192_0_1 (broadcastInDim S1x192 ![1] bcast_S192_S1x192_1 b) (ix2 g k))
      (broadcastInDim S512x192 ![] bcast_S_S512x192 (constant (F := Ideal) S_ .f32 0x00000000#32) (ix2 g k)) = _
  rw [Cert.LibRows.rowBroadcastInDim_apply, Cert.LibRows.splatInDim_apply]
  refine congrArg (fun t => max (t + b (ix1 k)) zeroR) ?_
  refine (Cert.LibRows.dotGeneral_plain_apply (M := 512) (K := 192) (N := 192) none _ (cat (F := Ideal) p1 p2 p3) W g k).trans ?_
  rw [Cert.LibRows.sum_192_split]
  refine congrArg₂ (· + ·) (congrArg₂ (· + ·) (Finset.sum_congr rfl fun j _ => ?_) (Finset.sum_congr rfl fun j _ => ?_))
    (Finset.sum_congr rfl fun j _ => ?_)
  · exact congrArg₂ (· * ·) (cat_apply1 p1 p2 p3 g j _ rfl) (slab_apply W 0 (by norm_num) j k _ (by show j.val = 0 + j.val; omega)).symm
  · exact congrArg₂ (· * ·) (cat_apply2 p1 p2 p3 g j _ rfl) (slab_apply W 64 (by norm_num) j k _ rfl).symm
  · exact congrArg₂ (· * ·) (cat_apply3 p1 p2 p3 g j _ rfl) (slab_apply W 128 (by norm_num) j k _ rfl).symm

/-- Entry `(g, s)` of the reference's scores is graph `g`'s score `s`. -/
theorem scores_apply (p1 p2 p3 : FVec Ideal S512x64 .f32) (W : FVec Ideal S192x192 .f32) (b : FVec Ideal S192 .f32)
    (W2 : FVec Ideal S192x2 .f32) (b2 : FVec Ideal S2 .f32) (g : Fin 512) (s : Fin 2) :
    scores (F := Ideal) p1 p2 p3 W b W2 b2 (ix2 g s)
      = score (fun j => p1 (ix2 g j)) (fun j => p2 (ix2 g j)) (fun j => p3 (ix2 g j))
          (slab W 0 (by norm_num)) (slab W 64 (by norm_num)) (slab W 128 (by norm_num)) b W2 b2 s := by
  unfold scores
  show Host.dotGeneral (F := Ideal) (φ₁ := .f32) (φ₂ := .f32) dot_S512x192_S192x2_S512x2_1_0_0_1_n_n none (hiddenG (F := Ideal) p1 p2 p3 W b) W2 (ix2 g s)
      + broadcastInDim S512x2 ![0, 1] bcast_S1x2_S512x2_0_1 (broadcastInDim S1x2 ![1] bcast_S2_S1x2_1 b2) (ix2 g s) = _
  rw [Cert.LibRows.rowBroadcastInDim_apply]
  unfold score
  refine congrArg (fun t => t + b2 (ix1 s)) ?_
  refine (Cert.LibRows.dotGeneral_plain_apply (M := 512) (K := 192) (N := 2) none _ (hiddenG (F := Ideal) p1 p2 p3 W b) W2 g s).trans ?_
  refine Finset.sum_congr rfl fun k _ => ?_
  rw [hiddenG_apply]

theorem colB_apply (v : FVec Ideal S512 .f32) (g : Fin 512) (s : Fin 2) : colB (F := Ideal) v (ix2 g s) = v (ix1 g) :=
  Cert.LibRows.colBroadcastInDim_apply v _ _ g s

/-- Graph `g`'s larger score. -/
theorem rowMaxR_apply (L : FVec Ideal S512x2 .f32) (g : Fin 512) : rowMaxR (F := Ideal) L (ix1 g) = rowMax (fun s => L (ix2 g s)) := by
  have h : S512x2.Reduces [1] S512 := by decide
  unfold rowMaxR rowMax
  show max (broadcastInDim S512 ![] bcast_S_S512 (constant (F := Ideal) S_ .f32 0xFF800000#32) (ix1 g))
      (Host.reduce FloatOps.maximumf L (constant (F := Ideal) S_ .f32 0xFF800000#32) reducesTo_S512x2_S512_d1 h_S_ (ix1 g)) = _
  rw [Cert.LibRows.splatInDim_apply, Host.reduce_eq_fold_single FloatOps.maximumf L _ reducesTo_S512x2_S512_d1 h h_S_]
  refine congrArg (max negInfR) ?_
  refine congrArg (fun f => Finset.fold max negInfR f (Finset.univ : Finset (Fin 2))) (funext fun k => ?_)
  exact congrArg L (Cert.LibRows.lift_axis1 h g k)

theorem shiftedExp_apply (L : FVec Ideal S512x2 .f32) (g : Fin 512) (s : Fin 2) :
    shiftedExp (F := Ideal) L (ix2 g s) = Ideal.exp (L (ix2 g s) - rowMax (fun s => L (ix2 g s))) := by
  unfold shiftedExp
  show Ideal.exp (L (ix2 g s) - colB (F := Ideal) (rowMaxR (F := Ideal) L) (ix2 g s)) = _
  rw [colB_apply, rowMaxR_apply]

/-- Entry `(g, s)` of the reference's probabilities, from the scores `L`. -/
theorem probs_apply (L : FVec Ideal S512x2 .f32) (g : Fin 512) (s : Fin 2) :
    probs (F := Ideal) L (ix2 g s) = prob (fun s => L (ix2 g s)) s := by
  have h : S512x2.Reduces [1] S512 := by decide
  unfold probs
  show Ideal.div (shiftedExp (F := Ideal) L (ix2 g s))
      (colB (F := Ideal) (Host.reduceAdd (F := Ideal) (shiftedExp (F := Ideal) L) (constant (F := Ideal) S_ .f32 0x00000000#32) reducesTo_S512x2_S512_d1 h_S_) (ix2 g s)) = _
  rw [colB_apply, shiftedExp_apply]
  unfold prob
  refine congrArg (Ideal.div _) ?_
  simp only [Host.reduceAdd, Ideal.hostReduceAdd_def]
  rw [Ideal.hostReduceAdd_single reducesTo_S512x2_S512_d1 h]
  show Ideal.ofBits .f32 0x00000000#32 + _ = _
  rw [Ideal.ofBits_zero_f32, zero_add]
  refine Finset.sum_congr rfl fun k _ => ?_
  rw [Cert.LibRows.lift_axis1 h g k]
  exact shiftedExp_apply L g ⟨k.val, k.isLt⟩

end Cert.RefTerms

end
-- ==== Proof.HeadRegion.lean ====
/-
  The head region: the two arrays its output windows end holding. The grid has one point, and every window's block is
  its whole array. The first output ends as the reference's scores of the arrays the region found, the second as the
  reference's probabilities of those scores: entry by entry both sides are the head's arithmetic (Spec) on the graph's
  three pooled blocks — the kernel reads the 192 × 192 matrix as three 64-row slabs, the reference lays the three
  blocks side by side and multiplies once.
-/
import proofs.«136053_j26774826123547_1_alg».proof.Proof.Gen.KernelIdeal.Frame
import proofs.«136053_j26774826123547_1_alg».proof.Proof.HeadKernel
import proofs.«136053_j26774826123547_1_alg».proof.Proof.HeadRef
import Idealize.ShloMosaic.Lib.Pipeline.Value

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Every window stays at block zero -/

theorem idx_0 : ∀ t : Fin cfg3.N, win3_0.index t (0 : Fin 2) = 0 ∧ win3_0.index t (1 : Fin 2) = 0 :=
  (by decide +kernel : ∀ t : Fin grid3.N, win3_0.index t (0 : Fin 2) = 0 ∧ win3_0.index t (1 : Fin 2) = 0)
theorem idx_1 : ∀ t : Fin cfg3.N, win3_1.index t (0 : Fin 2) = 0 ∧ win3_1.index t (1 : Fin 2) = 0 :=
  (by decide +kernel : ∀ t : Fin grid3.N, win3_1.index t (0 : Fin 2) = 0 ∧ win3_1.index t (1 : Fin 2) = 0)
theorem idx_2 : ∀ t : Fin cfg3.N, win3_2.index t (0 : Fin 2) = 0 ∧ win3_2.index t (1 : Fin 2) = 0 :=
  (by decide +kernel : ∀ t : Fin grid3.N, win3_2.index t (0 : Fin 2) = 0 ∧ win3_2.index t (1 : Fin 2) = 0)
theorem idx_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem idx_4 : ∀ t : Fin cfg3.N, win3_4.index t (0 : Fin 1) = 0 :=
  (by decide +kernel : ∀ t : Fin grid3.N, win3_4.index t (0 : Fin 1) = 0)
theorem idx_5 : ∀ t : Fin cfg3.N, win3_5.index t (0 : Fin 2) = 0 ∧ win3_5.index t (1 : Fin 2) = 0 :=
  (by decide +kernel : ∀ t : Fin grid3.N, win3_5.index t (0 : Fin 2) = 0 ∧ win3_5.index t (1 : Fin 2) = 0)
theorem idx_6 : ∀ t : Fin cfg3.N, win3_6.index t (0 : Fin 1) = 0 :=
  (by decide +kernel : ∀ t : Fin grid3.N, win3_6.index t (0 : Fin 1) = 0)
theorem idx_7 : ∀ t : Fin cfg3.N, win3_7.index t (0 : Fin 2) = 0 ∧ win3_7.index t (1 : Fin 2) = 0 :=
  (by decide +kernel : ∀ t : Fin grid3.N, win3_7.index t (0 : Fin 2) = 0 ∧ win3_7.index t (1 : Fin 2) = 0)
theorem idx_8 : ∀ t : Fin cfg3.N, win3_8.index t (0 : Fin 2) = 0 ∧ win3_8.index t (1 : Fin 2) = 0 :=
  (by decide +kernel : ∀ t : Fin grid3.N, win3_8.index t (0 : Fin 2) = 0 ∧ win3_8.index t (1 : Fin 2) = 0)

/-! ## The input blocks are their arrays -/

/-- Input window 0's block is its whole array. -/
theorem whole_0 (c : Dev nD) (t : Fin cfg3.N) :
    (iblk3 V c 0 t : FVec Ideal S512x64 .f32) = (V c main_v39 : FVec Ideal S512x64 .f32) := by
  obtain ⟨e0, e1⟩ := idx_0 t
  funext y
  unfold iblk3
  rw [View.read_apply]
  show (V c main_v39 : FVec Ideal S512x64 .f32) _ = _
  refine congrArg (V c main_v39 : FVec Ideal S512x64 .f32) (funext fun a => Fin.ext ?_)
  match a with
  | ⟨0, _⟩ => show win3_0.index t (0 : Fin 2) * 512 + 1 * (y 0).val = (y 0).val; rw [e0]; omega
  | ⟨1, _⟩ => show win3_0.index t (1 : Fin 2) * 64 + 1 * (y 1).val = (y 1).val; rw [e1]; omega

/-- Input window 1's block is its whole array. -/
theorem whole_1 (c : Dev nD) (t : Fin cfg3.N) :
    (iblk3 V c 1 t : FVec Ideal S512x64 .f32) = (V c main_v42 : FVec Ideal S512x64 .f32) := by
  obtain ⟨e0, e1⟩ := idx_1 t
  funext y
  unfold iblk3
  rw [View.read_apply]
  show (V c main_v42 : FVec Ideal S512x64 .f32) _ = _
  refine congrArg (V c main_v42 : FVec Ideal S512x64 .f32) (funext fun a => Fin.ext ?_)
  match a with
  | ⟨0, _⟩ => show win3_1.index t (0 : Fin 2) * 512 + 1 * (y 0).val = (y 0).val; rw [e0]; omega
  | ⟨1, _⟩ => show win3_1.index t (1 : Fin 2) * 64 + 1 * (y 1).val = (y 1).val; rw [e1]; omega

/-- Input window 2's block is its whole array. -/
theorem whole_2 (c : Dev nD) (t : Fin cfg3.N) :
    (iblk3 V c 2 t : FVec Ideal S512x64 .f32) = (V c main_v45 : FVec Ideal S512x64 .f32) := by
  obtain ⟨e0, e1⟩ := idx_2 t
  funext y
  unfold iblk3
  rw [View.read_apply]
  show (V c main_v45 : FVec Ideal S512x64 .f32) _ = _
  refine congrArg (V c main_v45 : FVec Ideal S512x64 .f32) (funext fun a => Fin.ext ?_)
  match a with
  | ⟨0, _⟩ => show win3_2.index t (0 : Fin 2) * 512 + 1 * (y 0).val = (y 0).val; rw [e0]; omega
  | ⟨1, _⟩ => show win3_2.index t (1 : Fin 2) * 64 + 1 * (y 1).val = (y 1).val; rw [e1]; omega

/-- Input window 3's block is its whole array. -/
theorem whole_3 (c : Dev nD) (t : Fin cfg3.N) :
    (iblk3 V c 3 t : FVec Ideal S192x192 .f32) = (V c main_arg27 : FVec Ideal S192x192 .f32) := by
  obtain ⟨e0, e1⟩ := idx_3 t
  funext y
  unfold iblk3
  rw [View.read_apply]
  show (V c main_arg27 : FVec Ideal S192x192 .f32) _ = _
  refine congrArg (V c main_arg27 : FVec Ideal S192x192 .f32) (funext fun a => Fin.ext ?_)
  match a with
  | ⟨0, _⟩ => show win3_3.index t (0 : Fin 2) * 192 + 1 * (y 0).val = (y 0).val; rw [e0]; omega
  | ⟨1, _⟩ => show win3_3.index t (1 : Fin 2) * 192 + 1 * (y 1).val = (y 1).val; rw [e1]; omega

/-- Input window 4's block is its whole array. -/
theorem whole_4 (c : Dev nD) (t : Fin cfg3.N) :
    (iblk3 V c 4 t : FVec Ideal S192 .f32) = (V c main_arg28 : FVec Ideal S192 .f32) := by
  have e0 := idx_4 t
  funext y
  unfold iblk3
  rw [View.read_apply]
  show (V c main_arg28 : FVec Ideal S192 .f32) _ = _
  refine congrArg (V c main_arg28 : FVec Ideal S192 .f32) (funext fun a => Fin.ext ?_)
  match a with
  | ⟨0, _⟩ => show win3_4.index t (0 : Fin 1) * 192 + 1 * (y 0).val = (y 0).val; rw [e0]; omega

/-- Input window 5's block is its whole array. -/
theorem whole_5 (c : Dev nD) (t : Fin cfg3.N) :
    (iblk3 V c 5 t : FVec Ideal S192x2 .f32) = (V c main_arg29 : FVec Ideal S192x2 .f32) := by
  obtain ⟨e0, e1⟩ := idx_5 t
  funext y
  unfold iblk3
  rw [View.read_apply]
  show (V c main_arg29 : FVec Ideal S192x2 .f32) _ = _
  refine congrArg (V c main_arg29 : FVec Ideal S192x2 .f32) (funext fun a => Fin.ext ?_)
  match a with
  | ⟨0, _⟩ => show win3_5.index t (0 : Fin 2) * 192 + 1 * (y 0).val = (y 0).val; rw [e0]; omega
  | ⟨1, _⟩ => show win3_5.index t (1 : Fin 2) * 2 + 1 * (y 1).val = (y 1).val; rw [e1]; omega

/-- Input window 6's block is its whole array. -/
theorem whole_6 (c : Dev nD) (t : Fin cfg3.N) :
    (iblk3 V c 6 t : FVec Ideal S2 .f32) = (V c main_arg30 : FVec Ideal S2 .f32) := by
  have e0 := idx_6 t
  funext y
  unfold iblk3
  rw [View.read_apply]
  show (V c main_arg30 : FVec Ideal S2 .f32) _ = _
  refine congrArg (V c main_arg30 : FVec Ideal S2 .f32) (funext fun a => Fin.ext ?_)
  match a with
  | ⟨0, _⟩ => show win3_6.index t (0 : Fin 1) * 2 + 1 * (y 0).val = (y 0).val; rw [e0]; omega

/-! ## The three slabs the body loads from the first matrix -/

/-- Loading 64 rows of the 192 × 192 matrix from row `o` gives the slab at `o`. -/
theorem ld_slab (W : FVec Ideal S192x192 .f32) (o : Nat) (ho : o + 64 ≤ 192) (inb : ∀ a, (![o, 0] : Fin 2 → Nat) a + S64x192.size a ≤ S192x192.size a) :
    (View.ld (Val := Elt Ideal) (e' := .f32) W (Rect.unit (s := S192x192) ![o, 0] S64x192.size inb) : FVec Ideal S64x192 .f32) = Cert.Spec.slab W o ho := by
  funext i
  unfold Cert.Spec.slab
  show W _ = W _
  refine congrArg W (funext fun a => Fin.ext ?_)
  match a with
  | ⟨0, _⟩ => show o + 1 * (i 0).val = o + (i 0).val; omega
  | ⟨1, _⟩ => show 0 + 1 * (i 1).val = (i 1).val; omega

theorem ld0 (W : FVec Ideal S192x192 .f32) : (View.ld (Val := Elt Ideal) (e' := .f32) W r3_0 : FVec Ideal S64x192 .f32) = Cert.Spec.slab W 0 (by norm_num) := ld_slab W 0 _ _
theorem ld1 (W : FVec Ideal S192x192 .f32) : (View.ld (Val := Elt Ideal) (e' := .f32) W r3_1 : FVec Ideal S64x192 .f32) = Cert.Spec.slab W 64 (by norm_num) := ld_slab W 64 _ _
theorem ld2 (W : FVec Ideal S192x192 .f32) : (View.ld (Val := Elt Ideal) (e' := .f32) W r3_2 : FVec Ideal S64x192 .f32) = Cert.Spec.slab W 128 (by norm_num) := ld_slab W 128 _ _

/-! ## What the point stores -/

/-- Entry `(g, s)` of the scores block the body leaves in output window 7's buffer. -/
theorem out7_apply (x0 x1 x2 : FVec Ideal S512x64 .f32) (x3 : FVec Ideal S192x192 .f32) (x4 : FVec Ideal S192 .f32)
    (x5 : FVec Ideal S192x2 .f32) (x6 : FVec Ideal S2 .f32) (g : Fin 512) (s : Fin 2) :
    out3_7 (F := Ideal) x0 x1 x2 x3 x4 x5 x6 (ix2 g s)
      = Cert.Spec.score (fun j => x0 (ix2 g j)) (fun j => x1 (ix2 g j)) (fun j => x2 (ix2 g j))
          (Cert.Spec.slab x3 0 (by norm_num)) (Cert.Spec.slab x3 64 (by norm_num)) (Cert.Spec.slab x3 128 (by norm_num)) x4 x5 x6 s := by
  unfold out3_7
  rw [View.canon_unit_zero hz2]
  simp only [View.ld_unit_zero (S := S512x64) hz2, View.ld_unit_zero (S := S192) hz1, View.ld_unit_zero (S := S192x2) hz2,
    View.ld_unit_zero (S := S2) hz1]
  rw [ld0 x3, ld1 x3, ld2 x3]
  exact Pay.scores_apply _ _ _ x0 x1 x2 x4 x5 x6 g s

/-- Entry `(g, s)` of the probabilities block the body leaves in output window 8's buffer. -/
theorem out8_apply (x0 x1 x2 : FVec Ideal S512x64 .f32) (x3 : FVec Ideal S192x192 .f32) (x4 : FVec Ideal S192 .f32)
    (x5 : FVec Ideal S192x2 .f32) (x6 : FVec Ideal S2 .f32) (g : Fin 512) (s : Fin 2) :
    out3_8 (F := Ideal) x0 x1 x2 x3 x4 x5 x6 (ix2 g s)
      = Cert.Spec.prob (fun s' => Cert.Spec.score (fun j => x0 (ix2 g j)) (fun j => x1 (ix2 g j)) (fun j => x2 (ix2 g j))
          (Cert.Spec.slab x3 0 (by norm_num)) (Cert.Spec.slab x3 64 (by norm_num)) (Cert.Spec.slab x3 128 (by norm_num)) x4 x5 x6 s') s := by
  unfold out3_8
  rw [View.canon_unit_zero hz2]
  simp only [View.ld_unit_zero (S := S512x64) hz2, View.ld_unit_zero (S := S192) hz1, View.ld_unit_zero (S := S192x2) hz2,
    View.ld_unit_zero (S := S2) hz1]
  rw [ld0 x3, ld1 x3, ld2 x3]
  refine (Pay.probs_apply _ g s).trans ?_
  refine congrArg (fun l => Cert.Spec.prob l s) (funext fun s' => ?_)
  exact Pay.scores_apply _ _ _ x0 x1 x2 x4 x5 x6 g s'

/-! ## The two output arrays after the region -/

/-- What the one point writes back through output window 7. -/
theorem flushed_7 (c : Dev nD) (t : Fin cfg3.N) :
    (dat3 (F := Ideal) V c).flushed 7 t = ((cfg3.win 7).blk t).view.read (Elt Ideal)
      (Cert.RefTerms.scores (F := Ideal) (V c main_v39) (V c main_v42) (V c main_v45) (V c main_arg27) (V c main_arg28) (V c main_arg29) (V c main_arg30)) := by
  show (cfg3.win 7).cut (grid3.coords t) ((dat3 (F := Ideal) V c).after 7 t) = _
  rw [after3_7]
  funext y
  obtain ⟨g, s, rfl⟩ : ∃ (g : Fin 512) (s : Fin 2), y = ix2 g s := ⟨y 0, y 1, eq_ix2 y⟩
  refine (out7_apply (iblk3 V c 0 t) (iblk3 V c 1 t) (iblk3 V c 2 t) (iblk3 V c 3 t) (iblk3 V c 4 t) (iblk3 V c 5 t) (iblk3 V c 6 t) g s).trans ?_
  obtain ⟨e0, e1⟩ := idx_7 t
  have hemb : ((cfg3.win 7).blk t).view.emb (ix2 g s) = ix2 g s := by
    funext a; apply Fin.ext
    match a with
    | ⟨0, _⟩ => show win3_7.index t (0 : Fin 2) * 512 + 1 * g.val = g.val; rw [e0]; omega
    | ⟨1, _⟩ => show win3_7.index t (1 : Fin 2) * 2 + 1 * s.val = s.val; rw [e1]; omega
  show _ = (Cert.RefTerms.scores (F := Ideal) (V c main_v39) (V c main_v42) (V c main_v45) (V c main_arg27) (V c main_arg28) (V c main_arg29) (V c main_arg30)) (((cfg3.win 7).blk t).view.emb (ix2 g s))
  rw [hemb, whole_0 V c t, whole_1 V c t, whole_2 V c t, whole_3 V c t, whole_4 V c t, whole_5 V c t, whole_6 V c t]
  exact (Cert.RefTerms.scores_apply _ _ _ _ _ _ _ g s).symm

theorem mem_blk_7 (t : Fin cfg3.N) (i : S512x2.Idx) :
    i ∈ ((cfg3.win 7).blk t).view.set ↔ ∀ a : Fin 2, win3_7.index t a * S512x2.size a ≤ (i a).val
      ∧ (i a).val < win3_7.index t a * S512x2.size a + S512x2.size a := by
  show i ∈ ((View.whole main_v46_0).slice (win3_7.rect t)).set ↔ _
  rw [View.set_slice_whole, Rect.mem_set_unit]
  exact Iff.rfl

theorem cover_7 (i : S512x2.Idx) :
    ∃ t : Fin cfg3.N, (cfg3.win 7).flush t = true ∧ i ∈ ((cfg3.win 7).blk t).view.set := by
  have hi0 : (i 0).val < 512 := (i 0).isLt
  have hi1 : (i 1).val < 2 := (i 1).isLt
  obtain ⟨e0, e1⟩ := idx_7 t3_0
  refine ⟨t3_0, flush3_7 t3_0, ?_⟩
  rw [mem_blk_7]
  intro a
  match a with
  | ⟨0, _⟩ =>
    show win3_7.index t3_0 (0 : Fin 2) * 512 ≤ (i 0).val ∧ (i 0).val < win3_7.index t3_0 (0 : Fin 2) * 512 + 512
    rw [e0]; omega
  | ⟨1, _⟩ =>
    show win3_7.index t3_0 (1 : Fin 2) * 2 ≤ (i 1).val ∧ (i 1).val < win3_7.index t3_0 (1 : Fin 2) * 2 + 2
    rw [e1]; omega

/-- Output window 7's array after the region. -/
theorem final_7 (c : Dev nD) : (dat3 (F := Ideal) V c).arrAt 7 cfg3.N
    = (Cert.RefTerms.scores (F := Ideal) (V c main_v39) (V c main_v42) (V c main_v45) (V c main_arg27) (V c main_arg28) (V c main_arg29) (V c main_arg30)) :=
  (dat3 (F := Ideal) V c).arrAt_eq_of_cover 7 _ (fun t _ => flushed_7 V c t) cover_7

/-- What the one point writes back through output window 8. -/
theorem flushed_8 (c : Dev nD) (t : Fin cfg3.N) :
    (dat3 (F := Ideal) V c).flushed 8 t = ((cfg3.win 8).blk t).view.read (Elt Ideal)
      (Cert.RefTerms.probs (F := Ideal) (Cert.RefTerms.scores (F := Ideal) (V c main_v39) (V c main_v42) (V c main_v45) (V c main_arg27) (V c main_arg28) (V c main_arg29) (V c main_arg30))) := by
  show (cfg3.win 8).cut (grid3.coords t) ((dat3 (F := Ideal) V c).after 8 t) = _
  rw [after3_8]
  funext y
  obtain ⟨g, s, rfl⟩ : ∃ (g : Fin 512) (s : Fin 2), y = ix2 g s := ⟨y 0, y 1, eq_ix2 y⟩
  refine (out8_apply (iblk3 V c 0 t) (iblk3 V c 1 t) (iblk3 V c 2 t) (iblk3 V c 3 t) (iblk3 V c 4 t) (iblk3 V c 5 t) (iblk3 V c 6 t) g s).trans ?_
  obtain ⟨e0, e1⟩ := idx_8 t
  have hemb : ((cfg3.win 8).blk t).view.emb (ix2 g s) = ix2 g s := by
    funext a; apply Fin.ext
    match a with
    | ⟨0, _⟩ => show win3_8.index t (0 : Fin 2) * 512 + 1 * g.val = g.val; rw [e0]; omega
    | ⟨1, _⟩ => show win3_8.index t (1 : Fin 2) * 2 + 1 * s.val = s.val; rw [e1]; omega
  show _ = (Cert.RefTerms.probs (F := Ideal) (Cert.RefTerms.scores (F := Ideal) (V c main_v39) (V c main_v42) (V c main_v45) (V c main_arg27) (V c main_arg28) (V c main_arg29) (V c main_arg30))) (((cfg3.win 8).blk t).view.emb (ix2 g s))
  rw [hemb, whole_0 V c t, whole_1 V c t, whole_2 V c t, whole_3 V c t, whole_4 V c t, whole_5 V c t, whole_6 V c t]
  rw [Cert.RefTerms.probs_apply]
  refine congrArg (fun l => Cert.Spec.prob l s) (funext fun s' => ?_)
  exact (Cert.RefTerms.scores_apply _ _ _ _ _ _ _ g s').symm

theorem mem_blk_8 (t : Fin cfg3.N) (i : S512x2.Idx) :
    i ∈ ((cfg3.win 8).blk t).view.set ↔ ∀ a : Fin 2, win3_8.index t a * S512x2.size a ≤ (i a).val
      ∧ (i a).val < win3_8.index t a * S512x2.size a + S512x2.size a := by
  show i ∈ ((View.whole main_v46_1).slice (win3_8.rect t)).set ↔ _
  rw [View.set_slice_whole, Rect.mem_set_unit]
  exact Iff.rfl

theorem cover_8 (i : S512x2.Idx) :
    ∃ t : Fin cfg3.N, (cfg3.win 8).flush t = true ∧ i ∈ ((cfg3.win 8).blk t).view.set := by
  have hi0 : (i 0).val < 512 := (i 0).isLt
  have hi1 : (i 1).val < 2 := (i 1).isLt
  obtain ⟨e0, e1⟩ := idx_8 t3_0
  refine ⟨t3_0, flush3_8 t3_0, ?_⟩
  rw [mem_blk_8]
  intro a
  match a with
  | ⟨0, _⟩ =>
    show win3_8.index t3_0 (0 : Fin 2) * 512 ≤ (i 0).val ∧ (i 0).val < win3_8.index t3_0 (0 : Fin 2) * 512 + 512
    rw [e0]; omega
  | ⟨1, _⟩ =>
    show win3_8.index t3_0 (1 : Fin 2) * 2 ≤ (i 1).val ∧ (i 1).val < win3_8.index t3_0 (1 : Fin 2) * 2 + 2
    rw [e1]; omega

/-- Output window 8's array after the region. -/
theorem final_8 (c : Dev nD) : (dat3 (F := Ideal) V c).arrAt 8 cfg3.N
    = (Cert.RefTerms.probs (F := Ideal) (Cert.RefTerms.scores (F := Ideal) (V c main_v39) (V c main_v42) (V c main_v45) (V c main_arg27) (V c main_arg28) (V c main_arg29) (V c main_arg30))) :=
  (dat3 (F := Ideal) V c).arrAt_eq_of_cover 8 _ (fun t _ => flushed_8 V c t) cover_8

end Cert.KernelIdeal.Region3

end
-- ==== Proof.Values.lean ====
/-
  The kernel program's two results as functions of the launch memory. Walking the program: the first stretch of host
  operations computes the neighbours' sum of the input features; the first region turns features and sum into the first
  layer's output; the next stretch sums that output over the same edges, and so on for three layers; the last stretch
  pools each layer's output per graph and the head region scores the pooled blocks. At each region the arrays it finds
  are read back to the launch memory — an argument is as launched, an earlier output is as written —, and the region's
  lemma gives its output as the reference's piece (RefTerms) of them.
-/
import proofs.«136053_j26774826123547_1_alg».proof.Proof.ArgsKept
import proofs.«136053_j26774826123547_1_alg».proof.Proof.GinRegion0
import proofs.«136053_j26774826123547_1_alg».proof.Proof.GinRegion1
import proofs.«136053_j26774826123547_1_alg».proof.Proof.GinRegion2
import proofs.«136053_j26774826123547_1_alg».proof.Proof.HeadRegion
import Idealize.ShloMosaic.Lib.StableHlo.Run

noncomputable section

namespace Cert.KernelIdeal.Values

open Cert.KernelIdeal Cert.KernelIdeal.Gen Cert.KernelIdeal.Keep Idealize.ShloMosaic Idealize.ShloMosaic.TcCoe Idealize.SL.Sem
open Idealize.ShloMosaic.StableHlo

variable (m : (ℓ : Loc nD τ sig) → Buf (Elt Ideal) ℓ) (ρ : Dev nD → PrngReg)

/-- Core `c`'s launch contents of a buffer. -/
abbrev a (c : Dev nD) (b : Ref sig .tc) : Buf (Elt Ideal) ((c : Thread nD τ).loc b) := m ((c : Thread nD τ).loc b)

/-! ## The results, as the reference's pieces of the launch memory -/

/-- The three layers' outputs. -/
def h1 (c : Dev nD) : Cert.RefTerms.TN Ideal :=
  Cert.RefTerms.gin (F := Ideal) (a m c main_arg0) (Cert.RefTerms.agg (F := Ideal) (a m c main_arg1) (a m c main_arg0)) (a m c main_arg3) (a m c main_arg4) (a m c main_arg5) (a m c main_arg6) (a m c main_arg7) (a m c main_arg8) (a m c main_arg9) (a m c main_arg10)
def h2 (c : Dev nD) : Cert.RefTerms.TN Ideal :=
  Cert.RefTerms.gin (F := Ideal) (h1 m c) (Cert.RefTerms.agg (F := Ideal) (a m c main_arg1) (h1 m c)) (a m c main_arg11) (a m c main_arg12) (a m c main_arg13) (a m c main_arg14) (a m c main_arg15) (a m c main_arg16) (a m c main_arg17) (a m c main_arg18)
def h3 (c : Dev nD) : Cert.RefTerms.TN Ideal :=
  Cert.RefTerms.gin (F := Ideal) (h2 m c) (Cert.RefTerms.agg (F := Ideal) (a m c main_arg1) (h2 m c)) (a m c main_arg19) (a m c main_arg20) (a m c main_arg21) (a m c main_arg22) (a m c main_arg23) (a m c main_arg24) (a m c main_arg25) (a m c main_arg26)
/-- The scores and the probabilities. -/
def scoresK (c : Dev nD) : Cert.RefTerms.TL Ideal :=
  Cert.RefTerms.scores (F := Ideal) (Cert.RefTerms.pool (F := Ideal) (a m c main_arg2) (h1 m c)) (Cert.RefTerms.pool (F := Ideal) (a m c main_arg2) (h2 m c))
    (Cert.RefTerms.pool (F := Ideal) (a m c main_arg2) (h3 m c)) (a m c main_arg27) (a m c main_arg28) (a m c main_arg29) (a m c main_arg30)
def probsK (c : Dev nD) : Cert.RefTerms.TL Ideal := Cert.RefTerms.probs (F := Ideal) (scoresK m c)

/-! ## The edge-endpoint vectors, written by the first stretch and read by the next two -/

theorem v1_at1 (c : Dev nD) : W1 m ρ c (Proc.devRef .tc main_v1) = Cert.ReferenceIdeal.Read.val_main_v1 (F := Ideal) (a m c main_arg1) := by
  show StableHlo.after hostOps0 (W0 m ρ c) (Proc.devRef .tc main_v1) = _
  after_results
  rfl
theorem v3_at1 (c : Dev nD) : W1 m ρ c (Proc.devRef .tc main_v3) = Cert.ReferenceIdeal.Read.val_main_v3 (F := Ideal) (a m c main_arg1) := by
  show StableHlo.after hostOps0 (W0 m ρ c) (Proc.devRef .tc main_v3) = _
  after_results
  rfl
theorem v1_at2 (c : Dev nD) : W2 m ρ c (Proc.devRef .tc main_v1) = Cert.ReferenceIdeal.Read.val_main_v1 (F := Ideal) (a m c main_arg1) :=
  (keep2_main_v1 m ρ c).trans (v1_at1 m ρ c)
theorem v3_at2 (c : Dev nD) : W2 m ρ c (Proc.devRef .tc main_v3) = Cert.ReferenceIdeal.Read.val_main_v3 (F := Ideal) (a m c main_arg1) :=
  (keep2_main_v3 m ρ c).trans (v3_at1 m ρ c)
theorem v1_at4 (c : Dev nD) : W4 m ρ c (Proc.devRef .tc main_v1) = Cert.ReferenceIdeal.Read.val_main_v1 (F := Ideal) (a m c main_arg1) :=
  (keep4_main_v1 m ρ c).trans ((keep3_main_v1 m ρ c).trans (v1_at2 m ρ c))
theorem v3_at4 (c : Dev nD) : W4 m ρ c (Proc.devRef .tc main_v3) = Cert.ReferenceIdeal.Read.val_main_v3 (F := Ideal) (a m c main_arg1) :=
  (keep4_main_v3 m ρ c).trans ((keep3_main_v3 m ρ c).trans (v3_at2 m ρ c))

/-! ## Layer 1 -/

set_option maxHeartbeats 4000000 in
/-- The first stretch leaves the neighbours' sum of the input features. -/
theorem agg1 (c : Dev nD) : W1 m ρ c (Proc.devRef .tc main_v13) = Cert.RefTerms.agg (F := Ideal) (a m c main_arg1) (a m c main_arg0) := by
  show StableHlo.after hostOps0 (W0 m ρ c) (Proc.devRef .tc main_v13) = _
  after_results_simp <;> rfl

/-- The first region leaves the first layer's output. -/
theorem out1 (c : Dev nD) : W2 m ρ c (Proc.devRef .tc main_v14) = h1 m c := by
  refine (W2_arr m ρ c 10).trans ((Region0.final (V1 m ρ) c).trans ?_)
  have e0 : V1 m ρ c main_arg0 = (a m c main_arg0) := at1_main_arg0 m ρ c
  have e1 : V1 m ρ c main_v13 = _ := agg1 m ρ c
  have e3 : V1 m ρ c main_arg3 = (a m c main_arg3) := at1_main_arg3 m ρ c
  have e4 : V1 m ρ c main_arg4 = (a m c main_arg4) := at1_main_arg4 m ρ c
  have e5 : V1 m ρ c main_arg5 = (a m c main_arg5) := at1_main_arg5 m ρ c
  have e6 : V1 m ρ c main_arg6 = (a m c main_arg6) := at1_main_arg6 m ρ c
  have e7 : V1 m ρ c main_arg7 = (a m c main_arg7) := at1_main_arg7 m ρ c
  have e8 : V1 m ρ c main_arg8 = (a m c main_arg8) := at1_main_arg8 m ρ c
  have e9 : V1 m ρ c main_arg9 = (a m c main_arg9) := at1_main_arg9 m ρ c
  have e10 : V1 m ρ c main_arg10 = (a m c main_arg10) := at1_main_arg10 m ρ c
  rw [e0, e1, e3, e4, e5, e6, e7, e8, e9, e10]
  rfl

/-! ## Layer 2 -/

theorem in2 (c : Dev nD) : W3 m ρ c (Proc.devRef .tc main_v14) = h1 m c := (keep3_main_v14 m ρ c).trans (out1 m ρ c)

set_option maxHeartbeats 4000000 in
theorem agg2 (c : Dev nD) : W3 m ρ c (Proc.devRef .tc main_v24) = Cert.RefTerms.agg (F := Ideal) (a m c main_arg1) (h1 m c) := by
  show StableHlo.after hostOps1 (W2 m ρ c) (Proc.devRef .tc main_v24) = _
  after_results_simp
  rw [v1_at2 m ρ c, v3_at2 m ρ c, out1 m ρ c]
  rfl

theorem out2 (c : Dev nD) : W4 m ρ c (Proc.devRef .tc main_v25) = h2 m c := by
  refine (W4_arr m ρ c 10).trans ((Region1.final (V3 m ρ) c).trans ?_)
  have e0 : V3 m ρ c main_v14 = _ := in2 m ρ c
  have e1 : V3 m ρ c main_v24 = _ := agg2 m ρ c
  have e11 : V3 m ρ c main_arg11 = (a m c main_arg11) := at3_main_arg11 m ρ c
  have e12 : V3 m ρ c main_arg12 = (a m c main_arg12) := at3_main_arg12 m ρ c
  have e13 : V3 m ρ c main_arg13 = (a m c main_arg13) := at3_main_arg13 m ρ c
  have e14 : V3 m ρ c main_arg14 = (a m c main_arg14) := at3_main_arg14 m ρ c
  have e15 : V3 m ρ c main_arg15 = (a m c main_arg15) := at3_main_arg15 m ρ c
  have e16 : V3 m ρ c main_arg16 = (a m c main_arg16) := at3_main_arg16 m ρ c
  have e17 : V3 m ρ c main_arg17 = (a m c main_arg17) := at3_main_arg17 m ρ c
  have e18 : V3 m ρ c main_arg18 = (a m c main_arg18) := at3_main_arg18 m ρ c
  rw [e0, e1, e11, e12, e13, e14, e15, e16, e17, e18]
  rfl

/-! ## Layer 3 -/

theorem in3 (c : Dev nD) : W5 m ρ c (Proc.devRef .tc main_v25) = h2 m c := (keep5_main_v25 m ρ c).trans (out2 m ρ c)

set_option maxHeartbeats 4000000 in
theorem agg3 (c : Dev nD) : W5 m ρ c (Proc.devRef .tc main_v35) = Cert.RefTerms.agg (F := Ideal) (a m c main_arg1) (h2 m c) := by
  show StableHlo.after hostOps2 (W4 m ρ c) (Proc.devRef .tc main_v35) = _
  after_results_simp
  rw [v1_at4 m ρ c, v3_at4 m ρ c, out2 m ρ c]
  rfl

theorem out3 (c : Dev nD) : W6 m ρ c (Proc.devRef .tc main_v36) = h3 m c := by
  refine (W6_arr m ρ c 10).trans ((Region2.final (V5 m ρ) c).trans ?_)
  have e0 : V5 m ρ c main_v25 = _ := in3 m ρ c
  have e1 : V5 m ρ c main_v35 = _ := agg3 m ρ c
  have e19 : V5 m ρ c main_arg19 = (a m c main_arg19) := at5_main_arg19 m ρ c
  have e20 : V5 m ρ c main_arg20 = (a m c main_arg20) := at5_main_arg20 m ρ c
  have e21 : V5 m ρ c main_arg21 = (a m c main_arg21) := at5_main_arg21 m ρ c
  have e22 : V5 m ρ c main_arg22 = (a m c main_arg22) := at5_main_arg22 m ρ c
  have e23 : V5 m ρ c main_arg23 = (a m c main_arg23) := at5_main_arg23 m ρ c
  have e24 : V5 m ρ c main_arg24 = (a m c main_arg24) := at5_main_arg24 m ρ c
  have e25 : V5 m ρ c main_arg25 = (a m c main_arg25) := at5_main_arg25 m ρ c
  have e26 : V5 m ρ c main_arg26 = (a m c main_arg26) := at5_main_arg26 m ρ c
  rw [e0, e1, e19, e20, e21, e22, e23, e24, e25, e26]
  rfl

/-! ## The pooled blocks and the head -/

theorem h1_at6 (c : Dev nD) : W6 m ρ c (Proc.devRef .tc main_v14) = h1 m c :=
  (keep6_main_v14 m ρ c).trans ((keep5_main_v14 m ρ c).trans ((keep4_main_v14 m ρ c).trans (in2 m ρ c)))
theorem h2_at6 (c : Dev nD) : W6 m ρ c (Proc.devRef .tc main_v25) = h2 m c :=
  (keep6_main_v25 m ρ c).trans (in3 m ρ c)

theorem pool1 (c : Dev nD) : W7 m ρ c (Proc.devRef .tc main_v39) = Cert.RefTerms.pool (F := Ideal) (a m c main_arg2) (h1 m c) := by
  show StableHlo.after hostOps3 (W6 m ρ c) (Proc.devRef .tc main_v39) = _
  after_results
  rw [at6_main_arg2 m ρ c, h1_at6 m ρ c]
  rfl
theorem pool2 (c : Dev nD) : W7 m ρ c (Proc.devRef .tc main_v42) = Cert.RefTerms.pool (F := Ideal) (a m c main_arg2) (h2 m c) := by
  show StableHlo.after hostOps3 (W6 m ρ c) (Proc.devRef .tc main_v42) = _
  after_results
  rw [at6_main_arg2 m ρ c, h2_at6 m ρ c]
  rfl
theorem pool3 (c : Dev nD) : W7 m ρ c (Proc.devRef .tc main_v45) = Cert.RefTerms.pool (F := Ideal) (a m c main_arg2) (h3 m c) := by
  show StableHlo.after hostOps3 (W6 m ρ c) (Proc.devRef .tc main_v45) = _
  after_results
  rw [at6_main_arg2 m ρ c, out3 m ρ c]
  rfl

/-- The scores array after the run. -/
theorem scores_final (c : Dev nD) : W8 m ρ c (Proc.devRef .tc main_v46_0) = scoresK m c := by
  refine (W8_arr m ρ c 7).trans ((Region3.final_7 (V7 m ρ) c).trans ?_)
  have e0 : V7 m ρ c main_v39 = _ := pool1 m ρ c
  have e1 : V7 m ρ c main_v42 = _ := pool2 m ρ c
  have e2 : V7 m ρ c main_v45 = _ := pool3 m ρ c
  have e27 : V7 m ρ c main_arg27 = (a m c main_arg27) := at7_main_arg27 m ρ c
  have e28 : V7 m ρ c main_arg28 = (a m c main_arg28) := at7_main_arg28 m ρ c
  have e29 : V7 m ρ c main_arg29 = (a m c main_arg29) := at7_main_arg29 m ρ c
  have e30 : V7 m ρ c main_arg30 = (a m c main_arg30) := at7_main_arg30 m ρ c
  rw [e0, e1, e2, e27, e28, e29, e30]
  rfl

/-- The probabilities array after the run. -/
theorem probs_final (c : Dev nD) : W8 m ρ c (Proc.devRef .tc main_v46_1) = probsK m c := by
  refine (W8_arr m ρ c 8).trans ((Region3.final_8 (V7 m ρ) c).trans ?_)
  have e0 : V7 m ρ c main_v39 = _ := pool1 m ρ c
  have e1 : V7 m ρ c main_v42 = _ := pool2 m ρ c
  have e2 : V7 m ρ c main_v45 = _ := pool3 m ρ c
  have e27 : V7 m ρ c main_arg27 = (a m c main_arg27) := at7_main_arg27 m ρ c
  have e28 : V7 m ρ c main_arg28 = (a m c main_arg28) := at7_main_arg28 m ρ c
  have e29 : V7 m ρ c main_arg29 = (a m c main_arg29) := at7_main_arg29 m ρ c
  have e30 : V7 m ρ c main_arg30 = (a m c main_arg30) := at7_main_arg30 m ρ c
  rw [e0, e1, e2, e27, e28, e29, e30]
  rfl

end Cert.KernelIdeal.Values

end
-- ==== Proof.lean ====
/-
  Three stacked graph layers, per-graph pooling and a two-class head: the kernel program against its plain reference,
  at the exact (extended real) values.

  A layer adds to each node's 64 features the sum of its in-neighbours' features, applies a linear map and bias,
  normalises with fixed statistics, clamps at zero, applies a second linear map and bias and clamps again. Both
  programs gather and add the neighbours' rows with the same host operations; the kernel program then runs the layer's
  arithmetic 5000 rows at a time in a kernel, the reference on the whole array at once, and row by row they are the
  same arithmetic (a matrix product into a zero accumulator and the host's product are the same sums; narrowing an
  operand to a shorter float format changes nothing at the exact values). Each layer's output is summed per graph, again
  by the same host operations in both. The head multiplies a graph's 192 pooled features by a 192 × 192 matrix: the
  reference lays the three 64-feature blocks side by side and multiplies once, the kernel multiplies each block by its
  own 64 rows of the matrix and adds the three products — one sum of 192 terms cut into three runs of 64, which needs
  only that addition is associative. Then a bias, a clamp, a 192 × 2 matrix and bias give the scores, and both take
  the same shifted exponentials over their sum for the probabilities. No step needs the inputs to be finite.

  The word-level kernel program's idealization rewrote nothing, so that conjunct is trivial; the three frames are the
  generated ones (the reference's is its generated run with the results dropped).
-/
import proofs.«136053_j26774826123547_1_alg».proof.Defs
import proofs.«136053_j26774826123547_1_alg».proof.Proof.Gen.Kernel
import proofs.«136053_j26774826123547_1_alg».proof.Proof.Gen.Kernel.Frame
import proofs.«136053_j26774826123547_1_alg».proof.Proof.Gen.KernelIdeal
import proofs.«136053_j26774826123547_1_alg».proof.Proof.Gen.KernelIdeal.Frame
import proofs.«136053_j26774826123547_1_alg».proof.Proof.Gen.ReferenceIdeal
import proofs.«136053_j26774826123547_1_alg».proof.Proof.Gen.Pre_finite_inputs
import proofs.«136053_j26774826123547_1_alg».proof.Proof.Gen.ReferenceIdeal.Run
import proofs.«136053_j26774826123547_1_alg».proof.Proof.Gen.ReferenceIdeal.Read
import proofs.«136053_j26774826123547_1_alg».proof.Proof.RefTerms
import proofs.«136053_j26774826123547_1_alg».proof.Proof.KernelRun
import proofs.«136053_j26774826123547_1_alg».proof.Proof.Values
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel program. -/
theorem preserves : Cert.preserves_Kernel_KernelIdeal := trivial

/-- From memories that agree on the arguments both programs end with the same scores and the same probabilities: the
    kernel program's are the reference's pieces composed over its launch memory (Values), the reference's stages are
    those pieces composed over its own (RefTerms), and the two memories hold the same arguments. -/
theorem algebraic : Cert.algebraic_KernelIdeal_ReferenceIdeal := by
  intro m ρ m' ρ' _ hagree
  refine ⟨fun c => Cert.KernelIdeal.Values.scoresK m c, fun c => Cert.KernelIdeal.Values.probsK m c, ?_, ?_⟩
  · exact (θ_run Cert.KernelIdeal.defs _ _).mono (fun _ h c =>
      ⟨(h c).1.trans (Cert.KernelIdeal.Values.scores_final m ρ c), (h c).2.1.trans (Cert.KernelIdeal.Values.probs_final m ρ c), (h c).2.2⟩)
      (Cert.KernelIdeal.Run.run (F := Ideal) m ρ)
  · refine (θ_run Cert.ReferenceIdeal.defs _ _).mono (fun _ h c => ?_) (Cert.ReferenceIdeal.Value.run (F := Ideal) m' ρ')
    obtain ⟨e0, e1, e2, e3, e4, e5, e6, e7, e8, e9, e10, e11, e12, e13, e14, e15, e16, e17, e18, e19, e20, e21, e22, e23, e24, e25, e26, e27, e28, e29, e30⟩ := hagree c
    have hs : Cert.ReferenceIdeal.Value.res_main_v130 m' c = Cert.KernelIdeal.Values.scoresK m c := by
      rw [Cert.ReferenceIdeal.Read.val_main_v130_eq, Cert.RefTerms.scores_eq, Cert.RefTerms.layer3_eq, Cert.RefTerms.layer2_eq,
        Cert.RefTerms.layer1_eq, e0, e1, e2, e3, e4, e5, e6, e7, e8, e9, e10, e11, e12, e13, e14, e15, e16, e17, e18, e19, e20, e21, e22, e23, e24, e25, e26, e27, e28, e29, e30]
      rfl
    refine ⟨(h c).1.trans hs, (h c).2.1.trans ?_, (h c).2.2⟩
    rw [Cert.ReferenceIdeal.Read.val_main_v141_eq, Cert.RefTerms.probs_eq, ← Cert.ReferenceIdeal.Read.val_main_v130_eq, hs]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
